-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x256 : Shape := ⟨2, ![8192, 256]⟩
abbrev S128x256 : Shape := ⟨2, ![128, 256]⟩
abbrev S128 : Shape := ⟨1, ![128]⟩
abbrev S128x128 : Shape := ⟨2, ![128, 128]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  main_v23

def fn {F : FTy → Type} [FloatOps F] (main_arg0 : FVec F S8192x8192 .f32) (main_arg1 : FVec F S8192x256 .f32) (main_arg2 : FVec F S128x256 .f32) (main_arg3 : FVec F S128 .f32) (main_arg4 : FVec F S128x128 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S8192x8192 : Shape := ⟨2, ![8192, 8192]⟩
abbrev S8192x256 : Shape := ⟨2, ![8192, 256]⟩
abbrev S128x256 : Shape := ⟨2, ![128, 256]⟩
abbrev S128 : Shape := ⟨1, ![128]⟩
abbrev S128x128 : Shape := ⟨2, ![128, 128]⟩
abbrev S1x128 : Shape := ⟨2, ![1, 128]⟩
abbrev S8192x128 : Shape := ⟨2, ![8192, 128]⟩
abbrev S2048x256 : Shape := ⟨2, ![2048, 256]⟩
abbrev S2048x128 : Shape := ⟨2, ![2048, 128]⟩
abbrev S1024x128 : Shape := ⟨2, ![1024, 128]⟩
abbrev S1024x1 : Shape := ⟨2, ![1024, 1]⟩
abbrev S1024x2048 : Shape := ⟨2, ![1024, 2048]⟩
abbrev S1024 : Shape := ⟨1, ![1024]⟩

abbrev nBuf : Space → Nat
  | .hbm => 9
  | .vmem => 18
  | .smem => 0
  | _ => 0

abbrev bufTy : (tb : Table) → Fin (tcTables nBuf tb) → BufTy
  | .hbm, ⟨0, _⟩ => ⟨S8192x8192, .f32⟩
  | .hbm, ⟨1, _⟩ => ⟨S8192x256, .f32⟩
  | .hbm, ⟨2, _⟩ => ⟨S128x256, .f32⟩
  | .hbm, ⟨3, _⟩ => ⟨S128, .f32⟩
  | .hbm, ⟨4, _⟩ => ⟨S128x128, .f32⟩
  | .hbm, ⟨5, _⟩ => ⟨S1x128, .f32⟩
  | .hbm, ⟨6, _⟩ => ⟨S8192x128, .f32⟩
  | .hbm, ⟨7, _⟩ => ⟨S8192x128, .f32⟩
  | .hbm, ⟨8, _⟩ => ⟨S8192x128, .f32⟩
  | .local _ .vmem, ⟨0, _⟩ => ⟨S2048x256, .f32⟩
  | .local _ .vmem, ⟨1, _⟩ => ⟨S2048x256, .f32⟩
  | .local _ .vmem, ⟨2, _⟩ => ⟨S128x256, .f32⟩
  | .local _ .vmem, ⟨3, _⟩ => ⟨S1x128, .f32⟩
  | .local _ .vmem, ⟨4, _⟩ => ⟨S128x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S1024x128, .f32⟩
  | .local _ .vmem, ⟨10, _⟩ => ⟨S1024x128, .f32⟩
  | .local _ .vmem, ⟨11, _⟩ => ⟨S2048x128, .f32⟩
  | .local _ .vmem, ⟨12, _⟩ => ⟨S2048x128, .f32⟩
  | .local _ .vmem, ⟨13, _⟩ => ⟨S1024x128, .f32⟩
  | .local _ .vmem, ⟨14, _⟩ => ⟨S1024x128, .f32⟩
  | .local _ .vmem, ⟨15, _⟩ => ⟨S1024x1, .f32⟩
  | .local _ .vmem, ⟨16, _⟩ => ⟨S1024x1, .f32⟩
  | .local _ .vmem, ⟨17, _⟩ => ⟨S1024x128, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_scratch0 : Ref sig .tc := ⟨.vmem, 15, rfl⟩
abbrev cc1_scratch1 : Ref sig .tc := ⟨.vmem, 16, rfl⟩
abbrev cc1_scratch2 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v39 : BitVec 1 := Scalar.cmpi .eq arg1 c3_i32
  let v40 : BitVec 32 := Scalar.extui v39
  let c0_i32_21 : BitVec 32 := 0#32
  let v41 : BitVec 1 := Scalar.cmpi .ne v40 c0_i32_21
  v41

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S128_S1x128 : S128.ShapeCasts S1x128
  inb_S2048x256_S2048x256_0_0 : ∀ a, (![0, 0] : Fin 2 → Nat) a + S2048x256.size a ≤ S2048x256.size a
  h_S2048x256 : 0 < S2048x256.numel
  inb_S128x256_S128x256_0_0 : ∀ a, (![0, 0] : Fin 2 → Nat) a + S128x256.size a ≤ S128x256.size a
  h_S128x256 : 0 < S128x256.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x128_S128x128_0_0 : ∀ a, (![0, 0] : Fin 2 → Nat) a + S128x128.size a ≤ S128x128.size a
  h_S128x128 : 0 < S128x128.numel
  inb_S2048x128_S2048x128_0_0 : ∀ a, (![0, 0] : Fin 2 → Nat) a + S2048x128.size a ≤ S2048x128.size a
  h_S2048x128 : 0 < S2048x128.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  shapeCasts_S2048x128_S2048x128 : S2048x128.ShapeCasts S2048x128
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x128 : S1024x1.Broadcasts S1024x128
  bitsLt_bf16_f32 : FTy.bits .bf16 < FTy.bits .f32
  dot_S2048x256_S128x256_S2048x128_1_1_0_0_n_n_wf : DotDims.WF S2048x256 S128x256 S2048x128 [1] [1] [0] [0] [] []
  dot_S2048x128_S128x128_S2048x128_1_0_0_1_n_n_wf : DotDims.WF S2048x128 S128x128 S2048x128 [1] [0] [0] [1] [] []
  dot_S1024x128_S2048x128_S1024x2048_1_1_0_0_n_n_wf : DotDims.WF S1024x128 S2048x128 S1024x2048 [1] [1] [0] [0] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S8192x128.size a
  hwx0_4 : ∀ i : grid0.Coords, EltTy.bits .f32 = 32 ∨ (Rect.block (s := S8192x128) S2048x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S8192x128.size a
  hwx0_5 : ∀ i : grid0.Coords, EltTy.bits .f32 = 32 ∨ (Rect.block (s := S8192x128) S2048x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .f32 = 32 ∨ (Rect.block (s := S8192x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S8192x128.size a
  hwx1_1 : ∀ i : grid1.Coords, EltTy.bits .f32 = 32 ∨ (Rect.block (s := S8192x128) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S8192x128.size a
  hwx1_2 : ∀ i : grid1.Coords, EltTy.bits .f32 = 32 ∨ (Rect.block (s := S8192x128) S1024x128.size (cc1_transform_2 i) (hinb1_2 i)).WholeWords (EltTy.packing .f32)

variable [Facts₀]

def dot_S2048x256_S128x256_S2048x128_1_1_0_0_n_n : DotDims S2048x256 S128x256 S2048x128 where
  lhsContracting := [1]
  rhsContracting := [1]
  lhsNonContracting := [0]
  rhsNonContracting := [0]
  lhsBatch := []
  rhsBatch := []
  wf := dot_S2048x256_S128x256_S2048x128_1_1_0_0_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_arg1) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S2048x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S2048x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v1_1) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x256 : Shape := ⟨2, ![8192, 256]⟩
abbrev S128x256 : Shape := ⟨2, ![128, 256]⟩
abbrev S128 : Shape := ⟨1, ![128]⟩
abbrev S128x128 : Shape := ⟨2, ![128, 128]⟩
abbrev S256x128 : Shape := ⟨2, ![256, 128]⟩
abbrev S8192x128 : Shape := ⟨2, ![8192, 128]⟩
abbrev S1x128 : Shape := ⟨2, ![1, 128]⟩
abbrev S128x8192 : Shape := ⟨2, ![128, 8192]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x256, .f32⟩
  | .hbm, ⟨2, _⟩ => ⟨S128x256, .f32⟩
  | .hbm, ⟨3, _⟩ => ⟨S128, .f32⟩
  | .hbm, ⟨4, _⟩ => ⟨S128x128, .f32⟩
  | .hbm, ⟨5, _⟩ => ⟨S256x128, .f32⟩
  | .hbm, ⟨6, _⟩ => ⟨S8192x128, .f32⟩
  | .hbm, ⟨7, _⟩ => ⟨S1x128, .f32⟩
  | .hbm, ⟨8, _⟩ => ⟨S8192x128, .f32⟩
  | .hbm, ⟨9, _⟩ => ⟨S8192x128, .f32⟩
  | .hbm, ⟨10, _⟩ => ⟨S128x8192, .f32⟩
  | .hbm, ⟨11, _⟩ => ⟨S8192x8192, .f32⟩
  | .hbm, ⟨12, _⟩ => ⟨S_, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192x1, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S8192x8192, .f32⟩
  | .hbm, ⟨25, _⟩ => ⟨S8192x8192, .f32⟩
  | .hbm, ⟨26, _⟩ => ⟨S8192x128, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  transposes_S128x256_S256x128_1_0 : S128x256.Transposes [1, 0] S256x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x256_S256x128_S8192x128_1_0_0_1_n_n_wf : DotDims.WF S8192x256 S256x128 S8192x128 [1] [0] [0] [1] [] []
  dot_S128x128_S8192x128_S128x8192_0_1_1_0_n_n_wf : DotDims.WF S128x128 S8192x128 S128x8192 [0] [1] [1] [0] [] []
  dot_S128x8192_S8192x128_S8192x8192_0_1_1_0_n_n_wf : DotDims.WF S128x8192 S8192x128 S8192x8192 [0] [1] [1] [0] [] []
  dot_S8192x8192_S8192x128_S8192x128_1_0_0_1_n_n_wf : DotDims.WF S8192x8192 S8192x128 S8192x128 [1] [0] [0] [1] [] []

variable [Facts₀]

def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S128x128_S8192x128_S128x8192_0_1_1_0_n_n : DotDims S128x128 S8192x128 S128x8192 where
  lhsContracting := [0]
  rhsContracting := [1]
  lhsNonContracting := [1]
  rhsNonContracting := [0]
  lhsBatch := []
  rhsBatch := []
  wf := dot_S128x128_S8192x128_S128x8192_0_1_1_0_n_n_wf
def dot_S128x8192_S8192x128_S8192x8192_0_1_1_0_n_n : DotDims S128x8192 S8192x128 S8192x8192 where
  lhsContracting := [0]
  rhsContracting := [1]
  lhsNonContracting := [1]
  rhsNonContracting := [0]
  lhsBatch := []
  rhsBatch := []
  wf := dot_S128x8192_S8192x128_S8192x8192_0_1_1_0_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.K.R0.lean ====
/-
  The projection kernel (the first of the program's two kernels), at any contents `V` of the TensorCore's buffers when it
  is entered. Its grid has four points; at point `t` it reads block `t` (2048 rows) of the node features and the whole
  weights, bias row and bilinear matrix, and stores two blocks of 2048 rows: the projected features (a matmul plus the
  bias row) and their product with the bilinear matrix. Every load and store is of a whole buffer. Stated here: what the
  two output buffers hold after the body as functions of the four input blocks, the body's triple, the pipeline's proof
  data with those contents, and the body obligation at every point.
-/
import proofs.«103892_j78185584656634_2_alg».proof.Proof.Gen.Kernel.Launch
import proofs.«103892_j78185584656634_2_alg».proof.Proof.Gen.Kernel.Skeleton
import proofs.«103892_j78185584656634_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the kernel is entered
variable (V : (c : Dev nD) → (b : Ref sig .tc) → Buf (Elt F) ((c : Thread nD τ).loc b))

/-! ## The windows' blocks -/

/-- Window `w`'s block at point `t`, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where the pipeline
    does not fetch, the block index has not moved and the body left the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: where the pipeline
    does not fetch, the block index has not moved and the body left the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: where the pipeline
    does not fetch, the block index has not moved and the body left the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: where the pipeline
    does not fetch, the block index has not moved and the body left the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole buffer -/

abbrev rX : Rect S2048x256 := Rect.unit (s := S2048x256) ![0, 0] S2048x256.size inb_S2048x256_S2048x256_0_0
abbrev rW : Rect S128x256 := Rect.unit (s := S128x256) ![0, 0] S128x256.size inb_S128x256_S128x256_0_0
abbrev rB : Rect S1x128 := Rect.unit (s := S1x128) ![0, 0] S1x128.size inb_S1x128_S1x128_0_0
abbrev rA : Rect S128x128 := Rect.unit (s := S128x128) ![0, 0] S128x128.size inb_S128x128_S128x128_0_0
abbrev rH : Rect S2048x128 := Rect.unit (s := S2048x128) ![0, 0] S2048x128.size inb_S2048x128_S2048x128_0_0

/-! ## What the body leaves in each output buffer -/

/-- The projected-features buffer after the body: its one store, of the matmul plus the bias row. -/
def out0_4 (x0 : Vec F S2048x256 .f32) (x1 : Vec F S128x256 .f32) (x2 : Vec F S1x128 .f32) : Vec F S2048x128 .f32 :=
  View.canon [⟨rH, k0_pay1 (View.ld x0 rX) (View.ld x1 rW) (View.ld x2 rB)⟩]

/-- The second output buffer after the body: its one store, of the projected features times the bilinear matrix. -/
def out0_5 (x0 : Vec F S2048x256 .f32) (x1 : Vec F S128x256 .f32) (x2 : Vec F S1x128 .f32) (x3 : Vec F S128x128 .f32) : Vec F S2048x128 .f32 :=
  View.canon [⟨rH, k0_pay2 (View.ld x0 rX) (View.ld x1 rW) (View.ld x2 rB) (View.ld x3 rA)⟩]

/-- One whole-buffer store covers the buffer. -/
theorem cover0_H (p0 : Vec F S2048x128 .f32) (y : S2048x128.Idx) :
    ∃ pc ∈ ([⟨rH, p0⟩] : List (View.Piece (Elt F) S2048x128 .f32)), y ∈ pc.1.set :=
  View.cover_of_tiled [⟨rH, p0⟩] S2048x128.size (by rfl) y

/-! ## The body's triple -/

set_option maxHeartbeats 1000000 in
/-- The body on whole staging memrefs, the inputs' at contents `x0 … x3` and the outputs' at anything, runs to the
    continuation holding the inputs' as they were and the outputs' at `out0_4`, `out0_5` of the inputs'. -/
theorem sound_kernel0 (c : Dev nD) (E : Set ℕ) (i : grid0.Coords)
    (arg1 : Memref sig .tc .vmem S2048x256 .f32) (harg1 : arg1.IsWhole) (arg2 : Memref sig .tc .vmem S128x256 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S2048x128 .f32) (harg5 : arg5.IsWhole) (arg6 : Memref sig .tc .vmem S2048x128 .f32) (harg6 : arg6.IsWhole)
    (x0 : Vec F S2048x256 .f32) (x1 : Vec F S128x256 .f32) (x2 : Vec F S1x128 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2)
            ∗ owns (c : Thread nD τ) arg6 fullShare (out0_5 x0 x1 x2 x3)) -∗ K ⟨⟩))
      ⊢ wp frame (wpE (defs₀ (F := F)) Variants.none c none) E (cc0__project_kernel i arg1 harg1 arg2 harg2 arg3 harg3 arg4 harg4 arg5 harg5 arg6 harg6) K := by
  simp only [cc0__project_kernel_eq_skeleton]; unfold cc0__project_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_H _)
  iexists _; isplitr
  swap; · iexact H5
  ipureintro
  exact View.read_writes_eq_canon _ _ _ (cover0_H _)

/-! ## The pipeline's proof data -/

/-- The proof data of the projection kernel's pipeline on core `c`: the arrays as the kernel finds them; after the body
    at point `t` each input's buffer at its block and the outputs' at `out0_4`, `out0_5` of the input blocks; the
    invariant: the scoped buffers no window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t)
    | ⟨5, _⟩ => out0_5 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Runs.lean ====
/-
  The attention kernel (the second of the program's two kernels) on any whole staging memrefs: its body run once per
  control case. The grid is 8 query tiles by 4 key tiles; three scratch buffers (the running maximum, the running
  denominator, the running numerator) are carried along the key axis. The body re-initialises them where the key
  coordinate is 0, updates them at every point, and where the key coordinate is 3 stores the numerator over the
  denominator into the output block. So a point is in one of three cases: first key tile (A), a middle key tile (B), last
  key tile (C). In each case the stores the body leaves in the scratch buffers and in the output buffer are found by
  running it symbolically; every load and store is of a whole buffer.
-/
import proofs.«103892_j78185584656634_2_alg».proof.Proof.Gen.Kernel.Launch
import proofs.«103892_j78185584656634_2_alg».proof.Proof.Gen.Kernel.Skeleton
import proofs.«103892_j78185584656634_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The body's first branch is taken where the key coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The body's second branch is taken where the key coordinate is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Where the key coordinate is not 3 the body stores nothing into the output window, and the pipeline does not write it back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The memrefs the body is called with -/

abbrev ms1_0 (t : Fin cfg1.N) : Memref sig .tc .vmem S1024x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
/-- The three scratch operands: the running maximum, the running denominator, the running numerator. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x128 .f32 := Memref.whole cc1_scratch2
/-- Views through which the buffers' contents are stated. -/
abbrev VO1_2 : View sig .tc .vmem S1024x128 .f32 := (Memref.whole cc1_stg2_0 : Memref sig .tc .vmem S1024x128 .f32).view
abbrev VS1_0 : View sig .tc .vmem S1024x1 .f32 := scM1_0.view
abbrev VS1_1 : View sig .tc .vmem S1024x1 .f32 := scM1_1.view
abbrev VS1_2 : View sig .tc .vmem S1024x128 .f32 := scM1_2.view

/-- The invariant "the scoped buffers no window stages, and the generator register" with the three scratch operands
    as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

/-! ## The body run in each case -/

set_option maxHeartbeats 4000000 in
/-- CASE A (key coordinate 0): the scratch buffers at anything, the output buffer at contents `xi2` handed back
    untouched; the pieces the body leaves in the three scratch buffers are found by the run. -/
noncomputable def kernelRun1_A (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : cond1_0 i) (hc1 : ¬cond1_1 i)
    (x0 : Vec F S1024x128 .f32) (x1 : Vec F S2048x128 .f32) :
    Σ' (L2 : List (View.Piece (Elt F) S1024x128 .f32)) (LS0 : List (View.Piece (Elt F) S1024x1 .f32)) (LS1 : List (View.Piece (Elt F) S1024x1 .f32)), { LS2 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7) K } := by
  refine ⟨[], ?_, ?_, ?_, fun xi2 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

set_option maxHeartbeats 4000000 in
/-- CASE B (key coordinate 1 or 2): the scratch buffers at what the point before left (`xs0`, `xs1`, `xs2`), the output
    buffer at contents `xi2` handed back untouched. -/
noncomputable def kernelRun1_B (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : ¬cond1_0 i) (hc1 : ¬cond1_1 i)
    (x0 : Vec F S1024x128 .f32) (x1 : Vec F S2048x128 .f32) (xs0 : Vec F S1024x1 .f32) (xs1 : Vec F S1024x1 .f32) (xs2 : Vec F S1024x128 .f32) :
    Σ' (L2 : List (View.Piece (Elt F) S1024x128 .f32)) (LS0 : List (View.Piece (Elt F) S1024x1 .f32)) (LS1 : List (View.Piece (Elt F) S1024x1 .f32)), { LS2 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7) K } := by
  refine ⟨[], ?_, ?_, ?_, fun xi2 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

set_option maxHeartbeats 4000000 in
/-- CASE C (key coordinate 3): the scratch buffers at what the point before left, the output buffer at anything; the
    pieces the body leaves in the output buffer too are found by the run. -/
noncomputable def kernelRun1_C (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : ¬cond1_0 i) (hc1 : cond1_1 i)
    (x0 : Vec F S1024x128 .f32) (x1 : Vec F S2048x128 .f32) (xs0 : Vec F S1024x1 .f32) (xs1 : Vec F S1024x1 .f32) (xs2 : Vec F S1024x128 .f32) :
    Σ' (L2 : List (View.Piece (Elt F) S1024x128 .f32)) (LS0 : List (View.Piece (Elt F) S1024x1 .f32)) (LS1 : List (View.Piece (Elt F) S1024x1 .f32)), { LS2 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7) K } := by
  refine ⟨?_, ?_, ?_, ?_, fun E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    isplitl [HS1]; · iexists _; iexact HS1
    iexists _; iexact HS2

end Cert.Kernel.Hand

end
-- ==== Proof.K.R1.lean ====
/-
  The attention kernel at any contents `V` of the TensorCore's buffers when it is entered: what the scratch buffers and
  the output buffer hold after the body at each grid point, the pipeline's proof data, and the body obligation.

  The three scratch buffers are carried along the key axis: after point `t` they hold what that point's case leaves,
  computed from the point's two input blocks and — except where the key coordinate is 0, where the body re-initialises
  them first — from what the point before left. The output window is stored only where the key coordinate is 3 (the
  pipeline writes it back exactly there); elsewhere its buffer is handed back as found.
-/
import proofs.«103892_j78185584656634_2_alg».proof.Proof.Gen.Kernel.Launch
import proofs.«103892_j78185584656634_2_alg».proof.Proof.Gen.Kernel.Skeleton
import proofs.«103892_j78185584656634_2_alg».proof.Proof.Gen.Kernel.Points
import proofs.«103892_j78185584656634_2_alg».proof.Proof.K.R1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the kernel finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- Case A's stores into the running maximum's buffer cover it. -/
theorem scover1_A_0 (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : cond1_0 i) (hc1 : ¬cond1_1 i)
    (x0 : Vec F S1024x128 .f32) (x1 : Vec F S2048x128 .f32) (y : S1024x1.Idx) :
    ∃ pc ∈ (kernelRun1_A c i arg2 harg2 arg3 harg3 arg4 harg4 arg5 harg5 arg6 harg6 arg7 harg7 hc0 hc1 x0 x1).2.1, y ∈ pc.1.set :=
  View.cover_of_tiledL (kernelRun1_A c i arg2 harg2 arg3 harg3 arg4 harg4 arg5 harg5 arg6 harg6 arg7 harg7 hc0 hc1 x0 x1).2.1 S1024x1.size (by sl_kernel_rfl) y

/-- What case A leaves in the running maximum's buffer. -/
def sout1_A_0 (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : cond1_0 i) (hc1 : ¬cond1_1 i)
    (x0 : Vec F S1024x128 .f32) (x1 : Vec F S2048x128 .f32) : Vec F S1024x1 .f32 :=
  VS1_0.read (Elt F) (VS1_0.writes (Elt F) VS1_0.junk (kernelRun1_A c i arg2 harg2 arg3 harg3 arg4 harg4 arg5 harg5 arg6 harg6 arg7 harg7 hc0 hc1 x0 x1).2.1)

/-- Case A's stores into the running denominator's buffer cover it. -/
theorem scover1_A_1 (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : cond1_0 i) (hc1 : ¬cond1_1 i)
    (x0 : Vec F S1024x128 .f32) (x1 : Vec F S2048x128 .f32) (y : S1024x1.Idx) :
    ∃ pc ∈ (kernelRun1_A c i arg2 harg2 arg3 harg3 arg4 harg4 arg5 harg5 arg6 harg6 arg7 harg7 hc0 hc1 x0 x1).2.2.1, y ∈ pc.1.set :=
  View.cover_of_tiledL (kernelRun1_A c i arg2 harg2 arg3 harg3 arg4 harg4 arg5 harg5 arg6 harg6 arg7 harg7 hc0 hc1 x0 x1).2.2.1 S1024x1.size (by sl_kernel_rfl) y

/-- What case A leaves in the running denominator's buffer. -/
def sout1_A_1 (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : cond1_0 i) (hc1 : ¬cond1_1 i)
    (x0 : Vec F S1024x128 .f32) (x1 : Vec F S2048x128 .f32) : Vec F S1024x1 .f32 :=
  VS1_1.read (Elt F) (VS1_1.writes (Elt F) VS1_1.junk (kernelRun1_A c i arg2 harg2 arg3 harg3 arg4 harg4 arg5 harg5 arg6 harg6 arg7 harg7 hc0 hc1 x0 x1).2.2.1)

/-- Case A's stores into the running numerator's buffer cover it. -/
theorem scover1_A_2 (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : cond1_0 i) (hc1 : ¬cond1_1 i)
    (x0 : Vec F S1024x128 .f32) (x1 : Vec F S2048x128 .f32) (y : S1024x128.Idx) :
    ∃ pc ∈ (kernelRun1_A c i arg2 harg2 arg3 harg3 arg4 harg4 arg5 harg5 arg6 harg6 arg7 harg7 hc0 hc1 x0 x1).2.2.2.1, y ∈ pc.1.set :=
  View.cover_of_tiledL (kernelRun1_A c i arg2 harg2 arg3 harg3 arg4 harg4 arg5 harg5 arg6 harg6 arg7 harg7 hc0 hc1 x0 x1).2.2.2.1 S1024x128.size (by sl_kernel_rfl) y

/-- What case A leaves in the running numerator's buffer. -/
def sout1_A_2 (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : cond1_0 i) (hc1 : ¬cond1_1 i)
    (x0 : Vec F S1024x128 .f32) (x1 : Vec F S2048x128 .f32) : Vec F S1024x128 .f32 :=
  VS1_2.read (Elt F) (VS1_2.writes (Elt F) VS1_2.junk (kernelRun1_A c i arg2 harg2 arg3 harg3 arg4 harg4 arg5 harg5 arg6 harg6 arg7 harg7 hc0 hc1 x0 x1).2.2.2.1)

/-- Case B's stores into the running maximum's buffer cover it. -/
theorem scover1_B_0 (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : ¬cond1_0 i) (hc1 : ¬cond1_1 i)
    (x0 : Vec F S1024x128 .f32) (x1 : Vec F S2048x128 .f32) (xs0 : Vec F S1024x1 .f32) (xs1 : Vec F S1024x1 .f32) (xs2 : Vec F S1024x128 .f32) (y : S1024x1.Idx) :
    ∃ pc ∈ (kernelRun1_B c i arg2 harg2 arg3 harg3 arg4 harg4 arg5 harg5 arg6 harg6 arg7 harg7 hc0 hc1 x0 x1 xs0 xs1 xs2).2.1, y ∈ pc.1.set :=
  View.cover_of_tiledL (kernelRun1_B c i arg2 harg2 arg3 harg3 arg4 harg4 arg5 harg5 arg6 harg6 arg7 harg7 hc0 hc1 x0 x1 xs0 xs1 xs2).2.1 S1024x1.size (by sl_kernel_rfl) y

/-- What case B leaves in the running maximum's buffer. -/
def sout1_B_0 (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : ¬cond1_0 i) (hc1 : ¬cond1_1 i)
    (x0 : Vec F S1024x128 .f32) (x1 : Vec F S2048x128 .f32) (xs0 : Vec F S1024x1 .f32) (xs1 : Vec F S1024x1 .f32) (xs2 : Vec F S1024x128 .f32) : Vec F S1024x1 .f32 :=
  VS1_0.read (Elt F) (VS1_0.writes (Elt F) VS1_0.junk (kernelRun1_B c i arg2 harg2 arg3 harg3 arg4 harg4 arg5 harg5 arg6 harg6 arg7 harg7 hc0 hc1 x0 x1 xs0 xs1 xs2).2.1)

/-- Case B's stores into the running denominator's buffer cover it. -/
theorem scover1_B_1 (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : ¬cond1_0 i) (hc1 : ¬cond1_1 i)
    (x0 : Vec F S1024x128 .f32) (x1 : Vec F S2048x128 .f32) (xs0 : Vec F S1024x1 .f32) (xs1 : Vec F S1024x1 .f32) (xs2 : Vec F S1024x128 .f32) (y : S1024x1.Idx) :
    ∃ pc ∈ (kernelRun1_B c i arg2 harg2 arg3 harg3 arg4 harg4 arg5 harg5 arg6 harg6 arg7 harg7 hc0 hc1 x0 x1 xs0 xs1 xs2).2.2.1, y ∈ pc.1.set :=
  View.cover_of_tiledL (kernelRun1_B c i arg2 harg2 arg3 harg3 arg4 harg4 arg5 harg5 arg6 harg6 arg7 harg7 hc0 hc1 x0 x1 xs0 xs1 xs2).2.2.1 S1024x1.size (by sl_kernel_rfl) y

/-- What case B leaves in the running denominator's buffer. -/
def sout1_B_1 (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : ¬cond1_0 i) (hc1 : ¬cond1_1 i)
    (x0 : Vec F S1024x128 .f32) (x1 : Vec F S2048x128 .f32) (xs0 : Vec F S1024x1 .f32) (xs1 : Vec F S1024x1 .f32) (xs2 : Vec F S1024x128 .f32) : Vec F S1024x1 .f32 :=
  VS1_1.read (Elt F) (VS1_1.writes (Elt F) VS1_1.junk (kernelRun1_B c i arg2 harg2 arg3 harg3 arg4 harg4 arg5 harg5 arg6 harg6 arg7 harg7 hc0 hc1 x0 x1 xs0 xs1 xs2).2.2.1)

/-- Case B's stores into the running numerator's buffer cover it. -/
theorem scover1_B_2 (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : ¬cond1_0 i) (hc1 : ¬cond1_1 i)
    (x0 : Vec F S1024x128 .f32) (x1 : Vec F S2048x128 .f32) (xs0 : Vec F S1024x1 .f32) (xs1 : Vec F S1024x1 .f32) (xs2 : Vec F S1024x128 .f32) (y : S1024x128.Idx) :
    ∃ pc ∈ (kernelRun1_B c i arg2 harg2 arg3 harg3 arg4 harg4 arg5 harg5 arg6 harg6 arg7 harg7 hc0 hc1 x0 x1 xs0 xs1 xs2).2.2.2.1, y ∈ pc.1.set :=
  View.cover_of_tiledL (kernelRun1_B c i arg2 harg2 arg3 harg3 arg4 harg4 arg5 harg5 arg6 harg6 arg7 harg7 hc0 hc1 x0 x1 xs0 xs1 xs2).2.2.2.1 S1024x128.size (by sl_kernel_rfl) y

/-- What case B leaves in the running numerator's buffer. -/
def sout1_B_2 (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : ¬cond1_0 i) (hc1 : ¬cond1_1 i)
    (x0 : Vec F S1024x128 .f32) (x1 : Vec F S2048x128 .f32) (xs0 : Vec F S1024x1 .f32) (xs1 : Vec F S1024x1 .f32) (xs2 : Vec F S1024x128 .f32) : Vec F S1024x128 .f32 :=
  VS1_2.read (Elt F) (VS1_2.writes (Elt F) VS1_2.junk (kernelRun1_B c i arg2 harg2 arg3 harg3 arg4 harg4 arg5 harg5 arg6 harg6 arg7 harg7 hc0 hc1 x0 x1 xs0 xs1 xs2).2.2.2.1)

/-- Case C's stores into the running maximum's buffer cover it. -/
theorem scover1_C_0 (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : ¬cond1_0 i) (hc1 : cond1_1 i)
    (x0 : Vec F S1024x128 .f32) (x1 : Vec F S2048x128 .f32) (xs0 : Vec F S1024x1 .f32) (xs1 : Vec F S1024x1 .f32) (xs2 : Vec F S1024x128 .f32) (y : S1024x1.Idx) :
    ∃ pc ∈ (kernelRun1_C c i arg2 harg2 arg3 harg3 arg4 harg4 arg5 harg5 arg6 harg6 arg7 harg7 hc0 hc1 x0 x1 xs0 xs1 xs2).2.1, y ∈ pc.1.set :=
  View.cover_of_tiledL (kernelRun1_C c i arg2 harg2 arg3 harg3 arg4 harg4 arg5 harg5 arg6 harg6 arg7 harg7 hc0 hc1 x0 x1 xs0 xs1 xs2).2.1 S1024x1.size (by sl_kernel_rfl) y

/-- What case C leaves in the running maximum's buffer. -/
def sout1_C_0 (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : ¬cond1_0 i) (hc1 : cond1_1 i)
    (x0 : Vec F S1024x128 .f32) (x1 : Vec F S2048x128 .f32) (xs0 : Vec F S1024x1 .f32) (xs1 : Vec F S1024x1 .f32) (xs2 : Vec F S1024x128 .f32) : Vec F S1024x1 .f32 :=
  VS1_0.read (Elt F) (VS1_0.writes (Elt F) VS1_0.junk (kernelRun1_C c i arg2 harg2 arg3 harg3 arg4 harg4 arg5 harg5 arg6 harg6 arg7 harg7 hc0 hc1 x0 x1 xs0 xs1 xs2).2.1)

/-- Case C's stores into the running denominator's buffer cover it. -/
theorem scover1_C_1 (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : ¬cond1_0 i) (hc1 : cond1_1 i)
    (x0 : Vec F S1024x128 .f32) (x1 : Vec F S2048x128 .f32) (xs0 : Vec F S1024x1 .f32) (xs1 : Vec F S1024x1 .f32) (xs2 : Vec F S1024x128 .f32) (y : S1024x1.Idx) :
    ∃ pc ∈ (kernelRun1_C c i arg2 harg2 arg3 harg3 arg4 harg4 arg5 harg5 arg6 harg6 arg7 harg7 hc0 hc1 x0 x1 xs0 xs1 xs2).2.2.1, y ∈ pc.1.set :=
  View.cover_of_tiledL (kernelRun1_C c i arg2 harg2 arg3 harg3 arg4 harg4 arg5 harg5 arg6 harg6 arg7 harg7 hc0 hc1 x0 x1 xs0 xs1 xs2).2.2.1 S1024x1.size (by sl_kernel_rfl) y

/-- What case C leaves in the running denominator's buffer. -/
def sout1_C_1 (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : ¬cond1_0 i) (hc1 : cond1_1 i)
    (x0 : Vec F S1024x128 .f32) (x1 : Vec F S2048x128 .f32) (xs0 : Vec F S1024x1 .f32) (xs1 : Vec F S1024x1 .f32) (xs2 : Vec F S1024x128 .f32) : Vec F S1024x1 .f32 :=
  VS1_1.read (Elt F) (VS1_1.writes (Elt F) VS1_1.junk (kernelRun1_C c i arg2 harg2 arg3 harg3 arg4 harg4 arg5 harg5 arg6 harg6 arg7 harg7 hc0 hc1 x0 x1 xs0 xs1 xs2).2.2.1)

/-- Case C's stores into the running numerator's buffer cover it. -/
theorem scover1_C_2 (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : ¬cond1_0 i) (hc1 : cond1_1 i)
    (x0 : Vec F S1024x128 .f32) (x1 : Vec F S2048x128 .f32) (xs0 : Vec F S1024x1 .f32) (xs1 : Vec F S1024x1 .f32) (xs2 : Vec F S1024x128 .f32) (y : S1024x128.Idx) :
    ∃ pc ∈ (kernelRun1_C c i arg2 harg2 arg3 harg3 arg4 harg4 arg5 harg5 arg6 harg6 arg7 harg7 hc0 hc1 x0 x1 xs0 xs1 xs2).2.2.2.1, y ∈ pc.1.set :=
  View.cover_of_tiledL (kernelRun1_C c i arg2 harg2 arg3 harg3 arg4 harg4 arg5 harg5 arg6 harg6 arg7 harg7 hc0 hc1 x0 x1 xs0 xs1 xs2).2.2.2.1 S1024x128.size (by sl_kernel_rfl) y

/-- What case C leaves in the running numerator's buffer. -/
def sout1_C_2 (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : ¬cond1_0 i) (hc1 : cond1_1 i)
    (x0 : Vec F S1024x128 .f32) (x1 : Vec F S2048x128 .f32) (xs0 : Vec F S1024x1 .f32) (xs1 : Vec F S1024x1 .f32) (xs2 : Vec F S1024x128 .f32) : Vec F S1024x128 .f32 :=
  VS1_2.read (Elt F) (VS1_2.writes (Elt F) VS1_2.junk (kernelRun1_C c i arg2 harg2 arg3 harg3 arg4 harg4 arg5 harg5 arg6 harg6 arg7 harg7 hc0 hc1 x0 x1 xs0 xs1 xs2).2.2.2.1)

/-- Case C's store into the output buffer covers it. -/
theorem cover1_C_2 (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : ¬cond1_0 i) (hc1 : cond1_1 i)
    (x0 : Vec F S1024x128 .f32) (x1 : Vec F S2048x128 .f32) (xs0 : Vec F S1024x1 .f32) (xs1 : Vec F S1024x1 .f32) (xs2 : Vec F S1024x128 .f32) (y : S1024x128.Idx) :
    ∃ pc ∈ (kernelRun1_C c i arg2 harg2 arg3 harg3 arg4 harg4 arg5 harg5 arg6 harg6 arg7 harg7 hc0 hc1 x0 x1 xs0 xs1 xs2).1, y ∈ pc.1.set :=
  View.cover_of_tiledL (kernelRun1_C c i arg2 harg2 arg3 harg3 arg4 harg4 arg5 harg5 arg6 harg6 arg7 harg7 hc0 hc1 x0 x1 xs0 xs1 xs2).1 S1024x128.size (by sl_kernel_rfl) y

/-- What case C leaves in the output buffer. -/
def out1_C_2 (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : ¬cond1_0 i) (hc1 : cond1_1 i)
    (x0 : Vec F S1024x128 .f32) (x1 : Vec F S2048x128 .f32) (xs0 : Vec F S1024x1 .f32) (xs1 : Vec F S1024x1 .f32) (xs2 : Vec F S1024x128 .f32) : Vec F S1024x128 .f32 :=
  VO1_2.read (Elt F) (VO1_2.writes (Elt F) VO1_2.junk (kernelRun1_C c i arg2 harg2 arg3 harg3 arg4 harg4 arg5 harg5 arg6 harg6 arg7 harg7 hc0 hc1 x0 x1 xs0 xs1 xs2).1)

/-- The output buffer's contents at a point that stores nothing into it: a placeholder nothing consults (the window is
    neither written back there nor read at the next point). -/
def outIdle1 : Vec F S1024x128 .f32 := VO1_2.read (Elt F) VO1_2.junk

/-! ## What the buffers hold after each point -/

/-- After the body at position `n`: the output buffer, then the three scratch buffers. The case is selected by `n` modulo 4
    (the key coordinate); cases B and C start from what position `n - 1` left in the scratch buffers. -/
def outsAt1 (c : Dev nD) : (n : ℕ) → n < cfg1.N → Vec F S1024x128 .f32 × Vec F S1024x1 .f32 × Vec F S1024x1 .f32 × Vec F S1024x128 .f32
  | 0, hn => (outIdle1, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      (outIdle1, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) scM1_2 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) scM1_2 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) scM1_2 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩))
    else
      if h1 : (n + 1) % 4 = 3 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.1 (outsAt1 c n (Nat.lt_of_succ_lt hn)).2.2.1 (outsAt1 c n (Nat.lt_of_succ_lt hn)).2.2.2)
      else
        (outIdle1, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2.1 (outsAt1 c n (Nat.lt_of_succ_lt hn)).2.2.2)

theorem outsAt1_A (c : Dev nD) (t : Fin cfg1.N) (h0 : t.val % 4 = 0) :
    outsAt1 V c t.val t.isLt = (outIdle1, sout1_A_0 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) ((hcond1_0 t).mpr h0) (fun h => (fun h => by omega) ((hcond1_1 t).mp h)) (iblk1 V c 0 t) (iblk1 V c 1 t), sout1_A_1 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) ((hcond1_0 t).mpr h0) (fun h => (fun h => by omega) ((hcond1_1 t).mp h)) (iblk1 V c 0 t) (iblk1 V c 1 t), sout1_A_2 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) ((hcond1_0 t).mpr h0) (fun h => (fun h => by omega) ((hcond1_1 t).mp h)) (iblk1 V c 0 t) (iblk1 V c 1 t)) := by
  obtain ⟨n, hn⟩ := t
  cases n with
  | zero => exact rfl
  | succ n => exact (dif_pos h0).trans rfl

theorem outsAt1_B (c : Dev nD) (t : Fin cfg1.N) (h0 : ¬t.val % 4 = 0) (h1 : ¬t.val % 4 = 3) :
    outsAt1 V c t.val t.isLt = (outIdle1, sout1_B_0 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_2 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant carrying the scratch buffers -/

/-- The other kernel's staging buffers, scoped and untouched here, each at some contents. -/
abbrev others1 (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

/-- Before position `n`: before the first point every scratch buffer at anything; afterwards each at what the point
    before left in it; beside them the other scoped buffers and the generator register at some state. -/
def PhiS1 (c : Dev nD) : (n : ℕ) → n ≤ cfg1.N → sProp 𝕄
  | 0, _ => Pipeline.ΦA spec1 c
  | n + 1, hn => iprop(iprop(others1 c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(others1 c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

theorem PhiS1_pos (c : Dev nD) (n : ℕ) (h : n ≤ cfg1.N) (hz : n ≠ 0) :
    PhiS1 V c n h = iprop(iprop(others1 c ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The invariant, split and joined around the scratch buffers -/

theorem PhiA1_split (c : Dev nD) :
    (Pipeline.ΦA spec1 c : sProp 𝕄) ⊢ iprop(iprop(others1 c ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  rw [PhiA1_eq]
  iintro ⟨⟨G1, G2, G3, G4, G5, G6, G7, G8, G9, HS0, HS1, HS2⟩, Hg⟩
  isplitl [G1 G2 G3 G4 G5 G6 G7 G8 G9 HS0 HS1 HS2]
  · isplitl [G1 G2 G3 G4 G5 G6 G7 G8 G9]
    · isplitl [G1]; · iexact G1
      isplitl [G2]; · iexact G2
      isplitl [G3]; · iexact G3
      isplitl [G4]; · iexact G4
      isplitl [G5]; · iexact G5
      isplitl [G6]; · iexact G6
      isplitl [G7]; · iexact G7
      isplitl [G8]; · iexact G8
      iexact G9
    isplitl [HS0]; · iexact HS0
    isplitl [HS1]; · iexact HS1
    iexact HS2
  iexact Hg

theorem PhiA1_join (c : Dev nD) :
    iprop(iprop(others1 c ∗ (∃ d, owns (c : Thread nD τ) scM1_0 fullShare d) ∗ (∃ d, owns (c : Thread nD τ) scM1_1 fullShare d) ∗ (∃ d, owns (c : Thread nD τ) scM1_2 fullShare d)) ∗ (∃ r, prngReg c r)) ⊢ (Pipeline.ΦA spec1 c : sProp 𝕄) := by
  rw [PhiA1_eq]
  iintro ⟨⟨⟨G1, G2, G3, G4, G5, G6, G7, G8, G9⟩, HS0, HS1, HS2⟩, Hg⟩
  isplitl [G1 G2 G3 G4 G5 G6 G7 G8 G9 HS0 HS1 HS2]
  · isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [HS0]; · iexact HS0
    isplitl [HS1]; · iexact HS1
    iexact HS2
  iexact Hg

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the point's position modulo 4 says which case it is in;
    the invariant hands the body the scratch buffers at what the point before left (at anything before the first point) and
    takes them back at this point's contents; where the output window is idle its buffer is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 4 = 0
  · have hc0 : cond1_0 (grid1.coords t) := (hcond1_0 t).mpr h0
    have hc1 : ¬cond1_1 (grid1.coords t) := fun h => by have := (hcond1_1 t).mp h; omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [Dat.leavesExact_idle (dat1 V c) 2 t (idleAt1_2 t hc1) (noFlush1_2 t hc1)]
    rw [outsAt1_A V c t h0]
    unfold sout1_A_0 sout1_A_1 sout1_A_2; (try dsimp only)
    have hΦ : (dat1 V c).Φ t.castSucc ⊢ iprop(iprop(others1 c ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
      by_cases hz : t.val = 0
      · rw [PhiS1_castSucc V c t, PhiS1_zero V c _ _ hz]; exact PhiA1_split c
      · rw [PhiS1_castSucc V c t, PhiS1_pos V c _ _ hz]
        iintro ⟨⟨Hoth, HS0, HS1, HS2⟩, Hg⟩
        isplitl [Hoth HS0 HS1 HS2]
        · isplitl [Hoth]; · iexact Hoth
          isplitl [HS0]; · iexists _; iexact HS0
          isplitl [HS1]; · iexists _; iexact HS1
          iexists _; iexact HS2
        iexact Hg
    refine BIBase.Entails.trans (sep_mono hΦ .rfl) ?_
    iintro ⟨⟨⟨Hoth, HS0, HS1, HS2⟩, Hg⟩, Ho, ⟨%d0, H0⟩, ⟨%d1, H1⟩, ⟨%d2, H2⟩⟩
    iapply ((kernelRun1_A c (grid1.coords t) _ _ _ _ _ _ _ _ _ _ _ _ hc0 hc1 (iblk1 V c 0 t) (iblk1 V c 1 t)).2.2.2.2 _ Set.univ _)
    isplitl [H0]; · iexact H0
    isplitl [H1]; · iexact H1
    isplitl [H2]; · iexact H2
    isplitl [HS0]; · iexact HS0
    isplitl [HS1]; · iexact HS1
    isplitl [HS2]; · iexact HS2
    iintro ⟨H0, H1, H2, ⟨%es0, HS0⟩, ⟨%es1, HS1⟩, ⟨%es2, HS2⟩⟩
    isplitl [Hoth HS0 HS1 HS2 Hg]
    · isplitl [Hoth HS0 HS1 HS2]
      · isplitl [Hoth]; · iexact Hoth
        isplitl [HS0]
        · unfold owns; iexists _; isplitr
          swap; · iexact HS0
          ipureintro; exact View.read_writes_of_cover _ _ _ _ _ (scover1_A_0 c _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _)
        unfold owns; iexists _; isplitr
        swap; · iexact HS2
        ipureintro; exact View.read_writes_of_cover _ _ _ _ _ (scover1_A_2 c _ _ _ _ _ _ _ _ _ _ _ _ _ _ _ _ _)
      iexact Hg
    isplitl [Ho]; · iexact Ho
    isplitl [H0]; · iexact H0
    isplitl [H1]; · iexact H1
    iexists _; iexact H2
  · have hc0 : ¬cond1_0 (grid1.coords t) := fun h => h0 ((hcond1_0 t).mp h)
    have hz : t.val ≠ 0 := fun h => h0 (by rw [h])
    by_cases h1 : t.val % 4 = 3
    · have hc1 : cond1_1 (grid1.coords t) := (hcond1_1 t).mpr h1
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t hc1], after1_2]
      rw [outsAt1_C V c t h0 h1]
      unfold out1_C_2 sout1_C_0 sout1_C_1 sout1_C_2; (try dsimp only)
      rw [PhiS1_castSucc V c t, PhiS1_pos V c _ _ hz]
      iintro ⟨⟨⟨Hoth, HS0, HS1, HS2⟩, Hg⟩, Ho, ⟨%d0, H0⟩, ⟨%d1, H1⟩, ⟨%d2, H2⟩⟩
      iapply ((kernelRun1_C c (grid1.coords t) _ _ _ _ _ _ _ _ _ _ _ _ hc0 hc1 (iblk1 V c 0 t) (iblk1 V c 1 t) _ _ _).2.2.2.2 Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, ⟨%e2, H2⟩, ⟨%es0, HS0⟩, ⟨%es1, HS1⟩, ⟨%es2, HS2⟩⟩
      isplitl [Hoth HS0 HS1 HS2 Hg]
      · isplitl [Hoth HS0 HS1 HS2]
        · isplitl [Hoth]; · iexact Hoth
          isplitl [HS0]
          · unfold owns; iexists _; isplitr
            swap; · iexact HS0
            ipureintro; exact View.read_writes_of_cover _ _ _ _ _ (scover1_C_0 c _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _)
          unfold owns; iexists _; isplitr
          swap; · iexact HS2
          ipureintro; exact View.read_writes_of_cover _ _ _ _ _ (scover1_C_2 c _ _ _ _ _ _ _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _ _ _ _ _ _ _)
    · have hc1 : ¬cond1_1 (grid1.coords t) := fun h => h1 ((hcond1_1 t).mp h)
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2 t hc1) (noFlush1_2 t hc1)]
      rw [outsAt1_B V c t h0 h1]
      unfold sout1_B_0 sout1_B_1 sout1_B_2; (try dsimp only)
      rw [PhiS1_castSucc V c t, PhiS1_pos V c _ _ hz]
      iintro ⟨⟨⟨Hoth, HS0, HS1, HS2⟩, Hg⟩, Ho, ⟨%d0, H0⟩, ⟨%d1, H1⟩, ⟨%d2, H2⟩⟩
      iapply ((kernelRun1_B c (grid1.coords t) _ _ _ _ _ _ _ _ _ _ _ _ hc0 hc1 (iblk1 V c 0 t) (iblk1 V c 1 t) _ _ _).2.2.2.2 _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, ⟨%es0, HS0⟩, ⟨%es1, HS1⟩, ⟨%es2, HS2⟩⟩
      isplitl [Hoth HS0 HS1 HS2 Hg]
      · isplitl [Hoth HS0 HS1 HS2]
        · isplitl [Hoth]; · iexact Hoth
          isplitl [HS0]
          · unfold owns; iexists _; isplitr
            swap; · iexact HS0
            ipureintro; exact View.read_writes_of_cover _ _ _ _ _ (scover1_B_0 c _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _)
          unfold owns; iexists _; isplitr
          swap; · iexact HS2
          ipureintro; exact View.read_writes_of_cover _ _ _ _ _ (scover1_B_2 c _ _ _ _ _ _ _ _ _ _ _ _ _ _ _ _ _ _ _ _)
        iexact Hg
      isplitl [Ho]; · iexact Ho
      isplitl [H0]; · iexact H0
      isplitl [H1]; · iexact H1
      iexists _; iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the kernel is the invariant before the first point. -/
theorem Phi_in1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the scratch buffers back at some contents. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  refine BIBase.Entails.trans ?_ (PhiA1_join c)
  iintro ⟨⟨Hoth, HS0, HS1, HS2⟩, Hg⟩
  isplitl [Hoth HS0 HS1 HS2]
  · isplitl [Hoth]; · iexact Hoth
    isplitl [HS0]; · iexists _; iexact HS0
    isplitl [HS1]; · iexists _; iexact HS1
    iexists _; iexact HS2
  iexact Hg

theorem Phi_last1 (c : Dev nD) : (dat1 V c).Φ (Fin.last cfg1.N) ⊢ Pipeline.ΦA spec1 c :=
  Phi_out1 V c _ (by rw [Fin.val_last]; have : cfg1.N = 32 := N_1; omega)

end Cert.Kernel.Hand

end
-- ==== Proof.K.Run.lean ====
/-
  The whole program from launch to return: one host reshape, then the projection kernel, then the attention kernel.
  The TensorCore's buffer contents at each boundary are a fold from the launch memory: after the reshape; after the
  first kernel (its arrays at what its write-backs leave); after the second. Each kernel is a segment entered from
  "every unscoped buffer at the boundary's contents, the generator register at some state, nothing owed" and left at the
  same with the next boundary's contents. The run's conclusion reads every unscoped buffer of the final memory at the
  last boundary's contents: the argument arrays as launched, the result array at what the attention kernel's
  write-backs leave.
-/
import proofs.«103892_j78185584656634_2_alg».proof.Proof.Gen.Kernel.Launch
import proofs.«103892_j78185584656634_2_alg».proof.Proof.Gen.Kernel.Skeleton
import proofs.«103892_j78185584656634_2_alg».proof.Proof.Gen.Kernel.Points
import proofs.«103892_j78185584656634_2_alg».proof.Proof.K.R0
import proofs.«103892_j78185584656634_2_alg».proof.Proof.K.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host reshape (the first kernel's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first kernel's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second kernel's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := (W2_arr m ρ c 3).trans (((dat0 (V1 m ρ) c).arrAt_in 3 rfl _).trans (A_eq0 (V1 m ρ) c 3))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = m ((c : Thread nD τ).loc main_arg4) := rfl

/-! ## The proof data family and the thread state -/

abbrev adm : (p : Fin 2) → (pcfgs (F := F) p).Adm := fun p => (cfgs p).toPCfg_adm
/-- Every pipeline's proof data, each at its kernel's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The kernels as segments -/

set_option backward.isDefEq.respectTransparency.types false in
/-- The projection kernel over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel over the thread state: entered from every unscoped buffer at `W2`, left at `W3`. Its invariant
    takes the scoped buffers and the generator register in before the first point and gives them back after the last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Phi_in1 (V2 m ρ) c)
    unfold Pipeline.ΦA
    iintro ⟨Hp, -, Hr⟩
    isplitl [Hr]; · iexact Hr
    iexact Hp
  hout c := by
    rw [Pipeline.ownSems0_none]
    refine BIBase.Entails.trans (Phi_last1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]

theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting,
    and every final memory holds each unscoped buffer at the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

/-- The run with the result array named: what the attention kernel's write-backs leave, beside the arguments as launched. -/
theorem run_value : θ_run defs (onTc (τ := τ) (main (F := F))) ⟨m, fun _ => 0, ρ⟩ (fun r => ∀ c : Dev nD,
      r.2.mem ((c.tc : Thread nD τ).loc main_v2) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v2 (by decide))).trans (W3_arr m ρ c 2),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

end Cert.Kernel.Hand

end
-- ==== Proof.KI.R0.lean ====
/-
  The projection kernel (the first of the program's two kernels), at any contents `V` of the TensorCore's buffers when it
  is entered. Its grid has four points; at point `t` it reads block `t` (2048 rows) of the node features and the whole
  weights, bias row and bilinear matrix, and stores two blocks of 2048 rows: the projected features (a matmul plus the
  bias row) and their product with the bilinear matrix. Every load and store is of a whole buffer. Stated here: what the
  two output buffers hold after the body as functions of the four input blocks, the body's triple, the pipeline's proof
  data with those contents, and the body obligation at every point.
-/
import proofs.«103892_j78185584656634_2_alg».proof.Proof.Gen.KernelIdeal.Launch
import proofs.«103892_j78185584656634_2_alg».proof.Proof.Gen.KernelIdeal.Skeleton
import proofs.«103892_j78185584656634_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the kernel is entered
variable (V : (c : Dev nD) → (b : Ref sig .tc) → Buf (Elt F) ((c : Thread nD τ).loc b))

/-! ## The windows' blocks -/

/-- Window `w`'s block at point `t`, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where the pipeline
    does not fetch, the block index has not moved and the body left the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: where the pipeline
    does not fetch, the block index has not moved and the body left the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: where the pipeline
    does not fetch, the block index has not moved and the body left the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: where the pipeline
    does not fetch, the block index has not moved and the body left the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole buffer -/

abbrev rX : Rect S2048x256 := Rect.unit (s := S2048x256) ![0, 0] S2048x256.size inb_S2048x256_S2048x256_0_0
abbrev rW : Rect S128x256 := Rect.unit (s := S128x256) ![0, 0] S128x256.size inb_S128x256_S128x256_0_0
abbrev rB : Rect S1x128 := Rect.unit (s := S1x128) ![0, 0] S1x128.size inb_S1x128_S1x128_0_0
abbrev rA : Rect S128x128 := Rect.unit (s := S128x128) ![0, 0] S128x128.size inb_S128x128_S128x128_0_0
abbrev rH : Rect S2048x128 := Rect.unit (s := S2048x128) ![0, 0] S2048x128.size inb_S2048x128_S2048x128_0_0

/-! ## What the body leaves in each output buffer -/

/-- The projected-features buffer after the body: its one store, of the matmul plus the bias row. -/
def out0_4 (x0 : Vec F S2048x256 .f32) (x1 : Vec F S128x256 .f32) (x2 : Vec F S1x128 .f32) : Vec F S2048x128 .f32 :=
  View.canon [⟨rH, k0_pay1 (View.ld x0 rX) (View.ld x1 rW) (View.ld x2 rB)⟩]

/-- The second output buffer after the body: its one store, of the projected features times the bilinear matrix. -/
def out0_5 (x0 : Vec F S2048x256 .f32) (x1 : Vec F S128x256 .f32) (x2 : Vec F S1x128 .f32) (x3 : Vec F S128x128 .f32) : Vec F S2048x128 .f32 :=
  View.canon [⟨rH, k0_pay2 (View.ld x0 rX) (View.ld x1 rW) (View.ld x2 rB) (View.ld x3 rA)⟩]

/-- One whole-buffer store covers the buffer. -/
theorem cover0_H (p0 : Vec F S2048x128 .f32) (y : S2048x128.Idx) :
    ∃ pc ∈ ([⟨rH, p0⟩] : List (View.Piece (Elt F) S2048x128 .f32)), y ∈ pc.1.set :=
  View.cover_of_tiled [⟨rH, p0⟩] S2048x128.size (by rfl) y

/-! ## The body's triple -/

set_option maxHeartbeats 1000000 in
/-- The body on whole staging memrefs, the inputs' at contents `x0 … x3` and the outputs' at anything, runs to the
    continuation holding the inputs' as they were and the outputs' at `out0_4`, `out0_5` of the inputs'. -/
theorem sound_kernel0 (c : Dev nD) (E : Set ℕ) (i : grid0.Coords)
    (arg1 : Memref sig .tc .vmem S2048x256 .f32) (harg1 : arg1.IsWhole) (arg2 : Memref sig .tc .vmem S128x256 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S2048x128 .f32) (harg5 : arg5.IsWhole) (arg6 : Memref sig .tc .vmem S2048x128 .f32) (harg6 : arg6.IsWhole)
    (x0 : Vec F S2048x256 .f32) (x1 : Vec F S128x256 .f32) (x2 : Vec F S1x128 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2)
            ∗ owns (c : Thread nD τ) arg6 fullShare (out0_5 x0 x1 x2 x3)) -∗ K ⟨⟩))
      ⊢ wp frame (wpE (defs₀ (F := F)) Variants.none c none) E (cc0__project_kernel i arg1 harg1 arg2 harg2 arg3 harg3 arg4 harg4 arg5 harg5 arg6 harg6) K := by
  simp only [cc0__project_kernel_eq_skeleton]; unfold cc0__project_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_H _)
  iexists _; isplitr
  swap; · iexact H5
  ipureintro
  exact View.read_writes_eq_canon _ _ _ (cover0_H _)

/-! ## The pipeline's proof data -/

/-- The proof data of the projection kernel's pipeline on core `c`: the arrays as the kernel finds them; after the body
    at point `t` each input's buffer at its block and the outputs' at `out0_4`, `out0_5` of the input blocks; the
    invariant: the scoped buffers no window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t)
    | ⟨5, _⟩ => out0_5 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Runs.lean ====
/-
  The attention kernel (the second of the program's two kernels) on any whole staging memrefs: its body run once per
  control case. The grid is 8 query tiles by 4 key tiles; three scratch buffers (the running maximum, the running
  denominator, the running numerator) are carried along the key axis. The body re-initialises them where the key
  coordinate is 0, updates them at every point, and where the key coordinate is 3 stores the numerator over the
  denominator into the output block. So a point is in one of three cases: first key tile (A), a middle key tile (B), last
  key tile (C). In each case the stores the body leaves in the scratch buffers and in the output buffer are found by
  running it symbolically; every load and store is of a whole buffer.
-/
import proofs.«103892_j78185584656634_2_alg».proof.Proof.Gen.KernelIdeal.Launch
import proofs.«103892_j78185584656634_2_alg».proof.Proof.Gen.KernelIdeal.Skeleton
import proofs.«103892_j78185584656634_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The body's first branch is taken where the key coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The body's second branch is taken where the key coordinate is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Where the key coordinate is not 3 the body stores nothing into the output window, and the pipeline does not write it back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The memrefs the body is called with -/

abbrev ms1_0 (t : Fin cfg1.N) : Memref sig .tc .vmem S1024x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
/-- The three scratch operands: the running maximum, the running denominator, the running numerator. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x128 .f32 := Memref.whole cc1_scratch2
/-- Views through which the buffers' contents are stated. -/
abbrev VO1_2 : View sig .tc .vmem S1024x128 .f32 := (Memref.whole cc1_stg2_0 : Memref sig .tc .vmem S1024x128 .f32).view
abbrev VS1_0 : View sig .tc .vmem S1024x1 .f32 := scM1_0.view
abbrev VS1_1 : View sig .tc .vmem S1024x1 .f32 := scM1_1.view
abbrev VS1_2 : View sig .tc .vmem S1024x128 .f32 := scM1_2.view

/-- The invariant "the scoped buffers no window stages, and the generator register" with the three scratch operands
    as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

/-! ## The body run in each case -/

set_option maxHeartbeats 4000000 in
/-- CASE A (key coordinate 0): the scratch buffers at anything, the output buffer at contents `xi2` handed back
    untouched; the pieces the body leaves in the three scratch buffers are found by the run. -/
noncomputable def kernelRun1_A (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : cond1_0 i) (hc1 : ¬cond1_1 i)
    (x0 : Vec F S1024x128 .f32) (x1 : Vec F S2048x128 .f32) :
    Σ' (L2 : List (View.Piece (Elt F) S1024x128 .f32)) (LS0 : List (View.Piece (Elt F) S1024x1 .f32)) (LS1 : List (View.Piece (Elt F) S1024x1 .f32)), { LS2 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7) K } := by
  refine ⟨[], ?_, ?_, ?_, fun xi2 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

set_option maxHeartbeats 4000000 in
/-- CASE B (key coordinate 1 or 2): the scratch buffers at what the point before left (`xs0`, `xs1`, `xs2`), the output
    buffer at contents `xi2` handed back untouched. -/
noncomputable def kernelRun1_B (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : ¬cond1_0 i) (hc1 : ¬cond1_1 i)
    (x0 : Vec F S1024x128 .f32) (x1 : Vec F S2048x128 .f32) (xs0 : Vec F S1024x1 .f32) (xs1 : Vec F S1024x1 .f32) (xs2 : Vec F S1024x128 .f32) :
    Σ' (L2 : List (View.Piece (Elt F) S1024x128 .f32)) (LS0 : List (View.Piece (Elt F) S1024x1 .f32)) (LS1 : List (View.Piece (Elt F) S1024x1 .f32)), { LS2 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7) K } := by
  refine ⟨[], ?_, ?_, ?_, fun xi2 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

set_option maxHeartbeats 4000000 in
/-- CASE C (key coordinate 3): the scratch buffers at what the point before left, the output buffer at anything; the
    pieces the body leaves in the output buffer too are found by the run. -/
noncomputable def kernelRun1_C (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : ¬cond1_0 i) (hc1 : cond1_1 i)
    (x0 : Vec F S1024x128 .f32) (x1 : Vec F S2048x128 .f32) (xs0 : Vec F S1024x1 .f32) (xs1 : Vec F S1024x1 .f32) (xs2 : Vec F S1024x128 .f32) :
    Σ' (L2 : List (View.Piece (Elt F) S1024x128 .f32)) (LS0 : List (View.Piece (Elt F) S1024x1 .f32)) (LS1 : List (View.Piece (Elt F) S1024x1 .f32)), { LS2 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7) K } := by
  refine ⟨?_, ?_, ?_, ?_, fun E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    isplitl [HS1]; · iexists _; iexact HS1
    iexists _; iexact HS2

end Cert.KernelIdeal.Hand

end
-- ==== Proof.KI.R1.lean ====
/-
  The attention kernel at any contents `V` of the TensorCore's buffers when it is entered: what the scratch buffers and
  the output buffer hold after the body at each grid point, the pipeline's proof data, and the body obligation.

  The three scratch buffers are carried along the key axis: after point `t` they hold what that point's case leaves,
  computed from the point's two input blocks and — except where the key coordinate is 0, where the body re-initialises
  them first — from what the point before left. The output window is stored only where the key coordinate is 3 (the
  pipeline writes it back exactly there); elsewhere its buffer is handed back as found.
-/
import proofs.«103892_j78185584656634_2_alg».proof.Proof.Gen.KernelIdeal.Launch
import proofs.«103892_j78185584656634_2_alg».proof.Proof.Gen.KernelIdeal.Skeleton
import proofs.«103892_j78185584656634_2_alg».proof.Proof.Gen.KernelIdeal.Points
import proofs.«103892_j78185584656634_2_alg».proof.Proof.KI.R1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the kernel finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- Case A's stores into the running maximum's buffer cover it. -/
theorem scover1_A_0 (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : cond1_0 i) (hc1 : ¬cond1_1 i)
    (x0 : Vec F S1024x128 .f32) (x1 : Vec F S2048x128 .f32) (y : S1024x1.Idx) :
    ∃ pc ∈ (kernelRun1_A c i arg2 harg2 arg3 harg3 arg4 harg4 arg5 harg5 arg6 harg6 arg7 harg7 hc0 hc1 x0 x1).2.1, y ∈ pc.1.set :=
  View.cover_of_tiledL (kernelRun1_A c i arg2 harg2 arg3 harg3 arg4 harg4 arg5 harg5 arg6 harg6 arg7 harg7 hc0 hc1 x0 x1).2.1 S1024x1.size (by sl_kernel_rfl) y

/-- What case A leaves in the running maximum's buffer. -/
def sout1_A_0 (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : cond1_0 i) (hc1 : ¬cond1_1 i)
    (x0 : Vec F S1024x128 .f32) (x1 : Vec F S2048x128 .f32) : Vec F S1024x1 .f32 :=
  VS1_0.read (Elt F) (VS1_0.writes (Elt F) VS1_0.junk (kernelRun1_A c i arg2 harg2 arg3 harg3 arg4 harg4 arg5 harg5 arg6 harg6 arg7 harg7 hc0 hc1 x0 x1).2.1)

/-- Case A's stores into the running denominator's buffer cover it. -/
theorem scover1_A_1 (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : cond1_0 i) (hc1 : ¬cond1_1 i)
    (x0 : Vec F S1024x128 .f32) (x1 : Vec F S2048x128 .f32) (y : S1024x1.Idx) :
    ∃ pc ∈ (kernelRun1_A c i arg2 harg2 arg3 harg3 arg4 harg4 arg5 harg5 arg6 harg6 arg7 harg7 hc0 hc1 x0 x1).2.2.1, y ∈ pc.1.set :=
  View.cover_of_tiledL (kernelRun1_A c i arg2 harg2 arg3 harg3 arg4 harg4 arg5 harg5 arg6 harg6 arg7 harg7 hc0 hc1 x0 x1).2.2.1 S1024x1.size (by sl_kernel_rfl) y

/-- What case A leaves in the running denominator's buffer. -/
def sout1_A_1 (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : cond1_0 i) (hc1 : ¬cond1_1 i)
    (x0 : Vec F S1024x128 .f32) (x1 : Vec F S2048x128 .f32) : Vec F S1024x1 .f32 :=
  VS1_1.read (Elt F) (VS1_1.writes (Elt F) VS1_1.junk (kernelRun1_A c i arg2 harg2 arg3 harg3 arg4 harg4 arg5 harg5 arg6 harg6 arg7 harg7 hc0 hc1 x0 x1).2.2.1)

/-- Case A's stores into the running numerator's buffer cover it. -/
theorem scover1_A_2 (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : cond1_0 i) (hc1 : ¬cond1_1 i)
    (x0 : Vec F S1024x128 .f32) (x1 : Vec F S2048x128 .f32) (y : S1024x128.Idx) :
    ∃ pc ∈ (kernelRun1_A c i arg2 harg2 arg3 harg3 arg4 harg4 arg5 harg5 arg6 harg6 arg7 harg7 hc0 hc1 x0 x1).2.2.2.1, y ∈ pc.1.set :=
  View.cover_of_tiledL (kernelRun1_A c i arg2 harg2 arg3 harg3 arg4 harg4 arg5 harg5 arg6 harg6 arg7 harg7 hc0 hc1 x0 x1).2.2.2.1 S1024x128.size (by sl_kernel_rfl) y

/-- What case A leaves in the running numerator's buffer. -/
def sout1_A_2 (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : cond1_0 i) (hc1 : ¬cond1_1 i)
    (x0 : Vec F S1024x128 .f32) (x1 : Vec F S2048x128 .f32) : Vec F S1024x128 .f32 :=
  VS1_2.read (Elt F) (VS1_2.writes (Elt F) VS1_2.junk (kernelRun1_A c i arg2 harg2 arg3 harg3 arg4 harg4 arg5 harg5 arg6 harg6 arg7 harg7 hc0 hc1 x0 x1).2.2.2.1)

/-- Case B's stores into the running maximum's buffer cover it. -/
theorem scover1_B_0 (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : ¬cond1_0 i) (hc1 : ¬cond1_1 i)
    (x0 : Vec F S1024x128 .f32) (x1 : Vec F S2048x128 .f32) (xs0 : Vec F S1024x1 .f32) (xs1 : Vec F S1024x1 .f32) (xs2 : Vec F S1024x128 .f32) (y : S1024x1.Idx) :
    ∃ pc ∈ (kernelRun1_B c i arg2 harg2 arg3 harg3 arg4 harg4 arg5 harg5 arg6 harg6 arg7 harg7 hc0 hc1 x0 x1 xs0 xs1 xs2).2.1, y ∈ pc.1.set :=
  View.cover_of_tiledL (kernelRun1_B c i arg2 harg2 arg3 harg3 arg4 harg4 arg5 harg5 arg6 harg6 arg7 harg7 hc0 hc1 x0 x1 xs0 xs1 xs2).2.1 S1024x1.size (by sl_kernel_rfl) y

/-- What case B leaves in the running maximum's buffer. -/
def sout1_B_0 (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : ¬cond1_0 i) (hc1 : ¬cond1_1 i)
    (x0 : Vec F S1024x128 .f32) (x1 : Vec F S2048x128 .f32) (xs0 : Vec F S1024x1 .f32) (xs1 : Vec F S1024x1 .f32) (xs2 : Vec F S1024x128 .f32) : Vec F S1024x1 .f32 :=
  VS1_0.read (Elt F) (VS1_0.writes (Elt F) VS1_0.junk (kernelRun1_B c i arg2 harg2 arg3 harg3 arg4 harg4 arg5 harg5 arg6 harg6 arg7 harg7 hc0 hc1 x0 x1 xs0 xs1 xs2).2.1)

/-- Case B's stores into the running denominator's buffer cover it. -/
theorem scover1_B_1 (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : ¬cond1_0 i) (hc1 : ¬cond1_1 i)
    (x0 : Vec F S1024x128 .f32) (x1 : Vec F S2048x128 .f32) (xs0 : Vec F S1024x1 .f32) (xs1 : Vec F S1024x1 .f32) (xs2 : Vec F S1024x128 .f32) (y : S1024x1.Idx) :
    ∃ pc ∈ (kernelRun1_B c i arg2 harg2 arg3 harg3 arg4 harg4 arg5 harg5 arg6 harg6 arg7 harg7 hc0 hc1 x0 x1 xs0 xs1 xs2).2.2.1, y ∈ pc.1.set :=
  View.cover_of_tiledL (kernelRun1_B c i arg2 harg2 arg3 harg3 arg4 harg4 arg5 harg5 arg6 harg6 arg7 harg7 hc0 hc1 x0 x1 xs0 xs1 xs2).2.2.1 S1024x1.size (by sl_kernel_rfl) y

/-- What case B leaves in the running denominator's buffer. -/
def sout1_B_1 (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : ¬cond1_0 i) (hc1 : ¬cond1_1 i)
    (x0 : Vec F S1024x128 .f32) (x1 : Vec F S2048x128 .f32) (xs0 : Vec F S1024x1 .f32) (xs1 : Vec F S1024x1 .f32) (xs2 : Vec F S1024x128 .f32) : Vec F S1024x1 .f32 :=
  VS1_1.read (Elt F) (VS1_1.writes (Elt F) VS1_1.junk (kernelRun1_B c i arg2 harg2 arg3 harg3 arg4 harg4 arg5 harg5 arg6 harg6 arg7 harg7 hc0 hc1 x0 x1 xs0 xs1 xs2).2.2.1)

/-- Case B's stores into the running numerator's buffer cover it. -/
theorem scover1_B_2 (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : ¬cond1_0 i) (hc1 : ¬cond1_1 i)
    (x0 : Vec F S1024x128 .f32) (x1 : Vec F S2048x128 .f32) (xs0 : Vec F S1024x1 .f32) (xs1 : Vec F S1024x1 .f32) (xs2 : Vec F S1024x128 .f32) (y : S1024x128.Idx) :
    ∃ pc ∈ (kernelRun1_B c i arg2 harg2 arg3 harg3 arg4 harg4 arg5 harg5 arg6 harg6 arg7 harg7 hc0 hc1 x0 x1 xs0 xs1 xs2).2.2.2.1, y ∈ pc.1.set :=
  View.cover_of_tiledL (kernelRun1_B c i arg2 harg2 arg3 harg3 arg4 harg4 arg5 harg5 arg6 harg6 arg7 harg7 hc0 hc1 x0 x1 xs0 xs1 xs2).2.2.2.1 S1024x128.size (by sl_kernel_rfl) y

/-- What case B leaves in the running numerator's buffer. -/
def sout1_B_2 (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : ¬cond1_0 i) (hc1 : ¬cond1_1 i)
    (x0 : Vec F S1024x128 .f32) (x1 : Vec F S2048x128 .f32) (xs0 : Vec F S1024x1 .f32) (xs1 : Vec F S1024x1 .f32) (xs2 : Vec F S1024x128 .f32) : Vec F S1024x128 .f32 :=
  VS1_2.read (Elt F) (VS1_2.writes (Elt F) VS1_2.junk (kernelRun1_B c i arg2 harg2 arg3 harg3 arg4 harg4 arg5 harg5 arg6 harg6 arg7 harg7 hc0 hc1 x0 x1 xs0 xs1 xs2).2.2.2.1)

/-- Case C's stores into the running maximum's buffer cover it. -/
theorem scover1_C_0 (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : ¬cond1_0 i) (hc1 : cond1_1 i)
    (x0 : Vec F S1024x128 .f32) (x1 : Vec F S2048x128 .f32) (xs0 : Vec F S1024x1 .f32) (xs1 : Vec F S1024x1 .f32) (xs2 : Vec F S1024x128 .f32) (y : S1024x1.Idx) :
    ∃ pc ∈ (kernelRun1_C c i arg2 harg2 arg3 harg3 arg4 harg4 arg5 harg5 arg6 harg6 arg7 harg7 hc0 hc1 x0 x1 xs0 xs1 xs2).2.1, y ∈ pc.1.set :=
  View.cover_of_tiledL (kernelRun1_C c i arg2 harg2 arg3 harg3 arg4 harg4 arg5 harg5 arg6 harg6 arg7 harg7 hc0 hc1 x0 x1 xs0 xs1 xs2).2.1 S1024x1.size (by sl_kernel_rfl) y

/-- What case C leaves in the running maximum's buffer. -/
def sout1_C_0 (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : ¬cond1_0 i) (hc1 : cond1_1 i)
    (x0 : Vec F S1024x128 .f32) (x1 : Vec F S2048x128 .f32) (xs0 : Vec F S1024x1 .f32) (xs1 : Vec F S1024x1 .f32) (xs2 : Vec F S1024x128 .f32) : Vec F S1024x1 .f32 :=
  VS1_0.read (Elt F) (VS1_0.writes (Elt F) VS1_0.junk (kernelRun1_C c i arg2 harg2 arg3 harg3 arg4 harg4 arg5 harg5 arg6 harg6 arg7 harg7 hc0 hc1 x0 x1 xs0 xs1 xs2).2.1)

/-- Case C's stores into the running denominator's buffer cover it. -/
theorem scover1_C_1 (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : ¬cond1_0 i) (hc1 : cond1_1 i)
    (x0 : Vec F S1024x128 .f32) (x1 : Vec F S2048x128 .f32) (xs0 : Vec F S1024x1 .f32) (xs1 : Vec F S1024x1 .f32) (xs2 : Vec F S1024x128 .f32) (y : S1024x1.Idx) :
    ∃ pc ∈ (kernelRun1_C c i arg2 harg2 arg3 harg3 arg4 harg4 arg5 harg5 arg6 harg6 arg7 harg7 hc0 hc1 x0 x1 xs0 xs1 xs2).2.2.1, y ∈ pc.1.set :=
  View.cover_of_tiledL (kernelRun1_C c i arg2 harg2 arg3 harg3 arg4 harg4 arg5 harg5 arg6 harg6 arg7 harg7 hc0 hc1 x0 x1 xs0 xs1 xs2).2.2.1 S1024x1.size (by sl_kernel_rfl) y

/-- What case C leaves in the running denominator's buffer. -/
def sout1_C_1 (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : ¬cond1_0 i) (hc1 : cond1_1 i)
    (x0 : Vec F S1024x128 .f32) (x1 : Vec F S2048x128 .f32) (xs0 : Vec F S1024x1 .f32) (xs1 : Vec F S1024x1 .f32) (xs2 : Vec F S1024x128 .f32) : Vec F S1024x1 .f32 :=
  VS1_1.read (Elt F) (VS1_1.writes (Elt F) VS1_1.junk (kernelRun1_C c i arg2 harg2 arg3 harg3 arg4 harg4 arg5 harg5 arg6 harg6 arg7 harg7 hc0 hc1 x0 x1 xs0 xs1 xs2).2.2.1)

/-- Case C's stores into the running numerator's buffer cover it. -/
theorem scover1_C_2 (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : ¬cond1_0 i) (hc1 : cond1_1 i)
    (x0 : Vec F S1024x128 .f32) (x1 : Vec F S2048x128 .f32) (xs0 : Vec F S1024x1 .f32) (xs1 : Vec F S1024x1 .f32) (xs2 : Vec F S1024x128 .f32) (y : S1024x128.Idx) :
    ∃ pc ∈ (kernelRun1_C c i arg2 harg2 arg3 harg3 arg4 harg4 arg5 harg5 arg6 harg6 arg7 harg7 hc0 hc1 x0 x1 xs0 xs1 xs2).2.2.2.1, y ∈ pc.1.set :=
  View.cover_of_tiledL (kernelRun1_C c i arg2 harg2 arg3 harg3 arg4 harg4 arg5 harg5 arg6 harg6 arg7 harg7 hc0 hc1 x0 x1 xs0 xs1 xs2).2.2.2.1 S1024x128.size (by sl_kernel_rfl) y

/-- What case C leaves in the running numerator's buffer. -/
def sout1_C_2 (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : ¬cond1_0 i) (hc1 : cond1_1 i)
    (x0 : Vec F S1024x128 .f32) (x1 : Vec F S2048x128 .f32) (xs0 : Vec F S1024x1 .f32) (xs1 : Vec F S1024x1 .f32) (xs2 : Vec F S1024x128 .f32) : Vec F S1024x128 .f32 :=
  VS1_2.read (Elt F) (VS1_2.writes (Elt F) VS1_2.junk (kernelRun1_C c i arg2 harg2 arg3 harg3 arg4 harg4 arg5 harg5 arg6 harg6 arg7 harg7 hc0 hc1 x0 x1 xs0 xs1 xs2).2.2.2.1)

/-- Case C's store into the output buffer covers it. -/
theorem cover1_C_2 (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : ¬cond1_0 i) (hc1 : cond1_1 i)
    (x0 : Vec F S1024x128 .f32) (x1 : Vec F S2048x128 .f32) (xs0 : Vec F S1024x1 .f32) (xs1 : Vec F S1024x1 .f32) (xs2 : Vec F S1024x128 .f32) (y : S1024x128.Idx) :
    ∃ pc ∈ (kernelRun1_C c i arg2 harg2 arg3 harg3 arg4 harg4 arg5 harg5 arg6 harg6 arg7 harg7 hc0 hc1 x0 x1 xs0 xs1 xs2).1, y ∈ pc.1.set :=
  View.cover_of_tiledL (kernelRun1_C c i arg2 harg2 arg3 harg3 arg4 harg4 arg5 harg5 arg6 harg6 arg7 harg7 hc0 hc1 x0 x1 xs0 xs1 xs2).1 S1024x128.size (by sl_kernel_rfl) y

/-- What case C leaves in the output buffer. -/
def out1_C_2 (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : ¬cond1_0 i) (hc1 : cond1_1 i)
    (x0 : Vec F S1024x128 .f32) (x1 : Vec F S2048x128 .f32) (xs0 : Vec F S1024x1 .f32) (xs1 : Vec F S1024x1 .f32) (xs2 : Vec F S1024x128 .f32) : Vec F S1024x128 .f32 :=
  VO1_2.read (Elt F) (VO1_2.writes (Elt F) VO1_2.junk (kernelRun1_C c i arg2 harg2 arg3 harg3 arg4 harg4 arg5 harg5 arg6 harg6 arg7 harg7 hc0 hc1 x0 x1 xs0 xs1 xs2).1)

/-- The output buffer's contents at a point that stores nothing into it: a placeholder nothing consults (the window is
    neither written back there nor read at the next point). -/
def outIdle1 : Vec F S1024x128 .f32 := VO1_2.read (Elt F) VO1_2.junk

/-! ## What the buffers hold after each point -/

/-- After the body at position `n`: the output buffer, then the three scratch buffers. The case is selected by `n` modulo 4
    (the key coordinate); cases B and C start from what position `n - 1` left in the scratch buffers. -/
def outsAt1 (c : Dev nD) : (n : ℕ) → n < cfg1.N → Vec F S1024x128 .f32 × Vec F S1024x1 .f32 × Vec F S1024x1 .f32 × Vec F S1024x128 .f32
  | 0, hn => (outIdle1, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      (outIdle1, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) scM1_2 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) scM1_2 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) scM1_2 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩))
    else
      if h1 : (n + 1) % 4 = 3 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.1 (outsAt1 c n (Nat.lt_of_succ_lt hn)).2.2.1 (outsAt1 c n (Nat.lt_of_succ_lt hn)).2.2.2)
      else
        (outIdle1, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2.1 (outsAt1 c n (Nat.lt_of_succ_lt hn)).2.2.2)

theorem outsAt1_A (c : Dev nD) (t : Fin cfg1.N) (h0 : t.val % 4 = 0) :
    outsAt1 V c t.val t.isLt = (outIdle1, sout1_A_0 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) ((hcond1_0 t).mpr h0) (fun h => (fun h => by omega) ((hcond1_1 t).mp h)) (iblk1 V c 0 t) (iblk1 V c 1 t), sout1_A_1 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) ((hcond1_0 t).mpr h0) (fun h => (fun h => by omega) ((hcond1_1 t).mp h)) (iblk1 V c 0 t) (iblk1 V c 1 t), sout1_A_2 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) ((hcond1_0 t).mpr h0) (fun h => (fun h => by omega) ((hcond1_1 t).mp h)) (iblk1 V c 0 t) (iblk1 V c 1 t)) := by
  obtain ⟨n, hn⟩ := t
  cases n with
  | zero => exact rfl
  | succ n => exact (dif_pos h0).trans rfl

theorem outsAt1_B (c : Dev nD) (t : Fin cfg1.N) (h0 : ¬t.val % 4 = 0) (h1 : ¬t.val % 4 = 3) :
    outsAt1 V c t.val t.isLt = (outIdle1, sout1_B_0 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_2 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant carrying the scratch buffers -/

/-- The other kernel's staging buffers, scoped and untouched here, each at some contents. -/
abbrev others1 (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

/-- Before position `n`: before the first point every scratch buffer at anything; afterwards each at what the point
    before left in it; beside them the other scoped buffers and the generator register at some state. -/
def PhiS1 (c : Dev nD) : (n : ℕ) → n ≤ cfg1.N → sProp 𝕄
  | 0, _ => Pipeline.ΦA spec1 c
  | n + 1, hn => iprop(iprop(others1 c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(others1 c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

theorem PhiS1_pos (c : Dev nD) (n : ℕ) (h : n ≤ cfg1.N) (hz : n ≠ 0) :
    PhiS1 V c n h = iprop(iprop(others1 c ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The invariant, split and joined around the scratch buffers -/

theorem PhiA1_split (c : Dev nD) :
    (Pipeline.ΦA spec1 c : sProp 𝕄) ⊢ iprop(iprop(others1 c ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  rw [PhiA1_eq]
  iintro ⟨⟨G1, G2, G3, G4, G5, G6, G7, G8, G9, HS0, HS1, HS2⟩, Hg⟩
  isplitl [G1 G2 G3 G4 G5 G6 G7 G8 G9 HS0 HS1 HS2]
  · isplitl [G1 G2 G3 G4 G5 G6 G7 G8 G9]
    · isplitl [G1]; · iexact G1
      isplitl [G2]; · iexact G2
      isplitl [G3]; · iexact G3
      isplitl [G4]; · iexact G4
      isplitl [G5]; · iexact G5
      isplitl [G6]; · iexact G6
      isplitl [G7]; · iexact G7
      isplitl [G8]; · iexact G8
      iexact G9
    isplitl [HS0]; · iexact HS0
    isplitl [HS1]; · iexact HS1
    iexact HS2
  iexact Hg

theorem PhiA1_join (c : Dev nD) :
    iprop(iprop(others1 c ∗ (∃ d, owns (c : Thread nD τ) scM1_0 fullShare d) ∗ (∃ d, owns (c : Thread nD τ) scM1_1 fullShare d) ∗ (∃ d, owns (c : Thread nD τ) scM1_2 fullShare d)) ∗ (∃ r, prngReg c r)) ⊢ (Pipeline.ΦA spec1 c : sProp 𝕄) := by
  rw [PhiA1_eq]
  iintro ⟨⟨⟨G1, G2, G3, G4, G5, G6, G7, G8, G9⟩, HS0, HS1, HS2⟩, Hg⟩
  isplitl [G1 G2 G3 G4 G5 G6 G7 G8 G9 HS0 HS1 HS2]
  · isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [HS0]; · iexact HS0
    isplitl [HS1]; · iexact HS1
    iexact HS2
  iexact Hg

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the point's position modulo 4 says which case it is in;
    the invariant hands the body the scratch buffers at what the point before left (at anything before the first point) and
    takes them back at this point's contents; where the output window is idle its buffer is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 4 = 0
  · have hc0 : cond1_0 (grid1.coords t) := (hcond1_0 t).mpr h0
    have hc1 : ¬cond1_1 (grid1.coords t) := fun h => by have := (hcond1_1 t).mp h; omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [Dat.leavesExact_idle (dat1 V c) 2 t (idleAt1_2 t hc1) (noFlush1_2 t hc1)]
    rw [outsAt1_A V c t h0]
    unfold sout1_A_0 sout1_A_1 sout1_A_2; (try dsimp only)
    have hΦ : (dat1 V c).Φ t.castSucc ⊢ iprop(iprop(others1 c ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
      by_cases hz : t.val = 0
      · rw [PhiS1_castSucc V c t, PhiS1_zero V c _ _ hz]; exact PhiA1_split c
      · rw [PhiS1_castSucc V c t, PhiS1_pos V c _ _ hz]
        iintro ⟨⟨Hoth, HS0, HS1, HS2⟩, Hg⟩
        isplitl [Hoth HS0 HS1 HS2]
        · isplitl [Hoth]; · iexact Hoth
          isplitl [HS0]; · iexists _; iexact HS0
          isplitl [HS1]; · iexists _; iexact HS1
          iexists _; iexact HS2
        iexact Hg
    refine BIBase.Entails.trans (sep_mono hΦ .rfl) ?_
    iintro ⟨⟨⟨Hoth, HS0, HS1, HS2⟩, Hg⟩, Ho, ⟨%d0, H0⟩, ⟨%d1, H1⟩, ⟨%d2, H2⟩⟩
    iapply ((kernelRun1_A c (grid1.coords t) _ _ _ _ _ _ _ _ _ _ _ _ hc0 hc1 (iblk1 V c 0 t) (iblk1 V c 1 t)).2.2.2.2 _ Set.univ _)
    isplitl [H0]; · iexact H0
    isplitl [H1]; · iexact H1
    isplitl [H2]; · iexact H2
    isplitl [HS0]; · iexact HS0
    isplitl [HS1]; · iexact HS1
    isplitl [HS2]; · iexact HS2
    iintro ⟨H0, H1, H2, ⟨%es0, HS0⟩, ⟨%es1, HS1⟩, ⟨%es2, HS2⟩⟩
    isplitl [Hoth HS0 HS1 HS2 Hg]
    · isplitl [Hoth HS0 HS1 HS2]
      · isplitl [Hoth]; · iexact Hoth
        isplitl [HS0]
        · unfold owns; iexists _; isplitr
          swap; · iexact HS0
          ipureintro; exact View.read_writes_of_cover _ _ _ _ _ (scover1_A_0 c _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _)
        unfold owns; iexists _; isplitr
        swap; · iexact HS2
        ipureintro; exact View.read_writes_of_cover _ _ _ _ _ (scover1_A_2 c _ _ _ _ _ _ _ _ _ _ _ _ _ _ _ _ _)
      iexact Hg
    isplitl [Ho]; · iexact Ho
    isplitl [H0]; · iexact H0
    isplitl [H1]; · iexact H1
    iexists _; iexact H2
  · have hc0 : ¬cond1_0 (grid1.coords t) := fun h => h0 ((hcond1_0 t).mp h)
    have hz : t.val ≠ 0 := fun h => h0 (by rw [h])
    by_cases h1 : t.val % 4 = 3
    · have hc1 : cond1_1 (grid1.coords t) := (hcond1_1 t).mpr h1
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t hc1], after1_2]
      rw [outsAt1_C V c t h0 h1]
      unfold out1_C_2 sout1_C_0 sout1_C_1 sout1_C_2; (try dsimp only)
      rw [PhiS1_castSucc V c t, PhiS1_pos V c _ _ hz]
      iintro ⟨⟨⟨Hoth, HS0, HS1, HS2⟩, Hg⟩, Ho, ⟨%d0, H0⟩, ⟨%d1, H1⟩, ⟨%d2, H2⟩⟩
      iapply ((kernelRun1_C c (grid1.coords t) _ _ _ _ _ _ _ _ _ _ _ _ hc0 hc1 (iblk1 V c 0 t) (iblk1 V c 1 t) _ _ _).2.2.2.2 Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, ⟨%e2, H2⟩, ⟨%es0, HS0⟩, ⟨%es1, HS1⟩, ⟨%es2, HS2⟩⟩
      isplitl [Hoth HS0 HS1 HS2 Hg]
      · isplitl [Hoth HS0 HS1 HS2]
        · isplitl [Hoth]; · iexact Hoth
          isplitl [HS0]
          · unfold owns; iexists _; isplitr
            swap; · iexact HS0
            ipureintro; exact View.read_writes_of_cover _ _ _ _ _ (scover1_C_0 c _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _)
          unfold owns; iexists _; isplitr
          swap; · iexact HS2
          ipureintro; exact View.read_writes_of_cover _ _ _ _ _ (scover1_C_2 c _ _ _ _ _ _ _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _ _ _ _ _ _ _)
    · have hc1 : ¬cond1_1 (grid1.coords t) := fun h => h1 ((hcond1_1 t).mp h)
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2 t hc1) (noFlush1_2 t hc1)]
      rw [outsAt1_B V c t h0 h1]
      unfold sout1_B_0 sout1_B_1 sout1_B_2; (try dsimp only)
      rw [PhiS1_castSucc V c t, PhiS1_pos V c _ _ hz]
      iintro ⟨⟨⟨Hoth, HS0, HS1, HS2⟩, Hg⟩, Ho, ⟨%d0, H0⟩, ⟨%d1, H1⟩, ⟨%d2, H2⟩⟩
      iapply ((kernelRun1_B c (grid1.coords t) _ _ _ _ _ _ _ _ _ _ _ _ hc0 hc1 (iblk1 V c 0 t) (iblk1 V c 1 t) _ _ _).2.2.2.2 _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, ⟨%es0, HS0⟩, ⟨%es1, HS1⟩, ⟨%es2, HS2⟩⟩
      isplitl [Hoth HS0 HS1 HS2 Hg]
      · isplitl [Hoth HS0 HS1 HS2]
        · isplitl [Hoth]; · iexact Hoth
          isplitl [HS0]
          · unfold owns; iexists _; isplitr
            swap; · iexact HS0
            ipureintro; exact View.read_writes_of_cover _ _ _ _ _ (scover1_B_0 c _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _)
          unfold owns; iexists _; isplitr
          swap; · iexact HS2
          ipureintro; exact View.read_writes_of_cover _ _ _ _ _ (scover1_B_2 c _ _ _ _ _ _ _ _ _ _ _ _ _ _ _ _ _ _ _ _)
        iexact Hg
      isplitl [Ho]; · iexact Ho
      isplitl [H0]; · iexact H0
      isplitl [H1]; · iexact H1
      iexists _; iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the kernel is the invariant before the first point. -/
theorem Phi_in1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the scratch buffers back at some contents. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  refine BIBase.Entails.trans ?_ (PhiA1_join c)
  iintro ⟨⟨Hoth, HS0, HS1, HS2⟩, Hg⟩
  isplitl [Hoth HS0 HS1 HS2]
  · isplitl [Hoth]; · iexact Hoth
    isplitl [HS0]; · iexists _; iexact HS0
    isplitl [HS1]; · iexists _; iexact HS1
    iexists _; iexact HS2
  iexact Hg

theorem Phi_last1 (c : Dev nD) : (dat1 V c).Φ (Fin.last cfg1.N) ⊢ Pipeline.ΦA spec1 c :=
  Phi_out1 V c _ (by rw [Fin.val_last]; have : cfg1.N = 32 := N_1; omega)

end Cert.KernelIdeal.Hand

end
-- ==== Proof.KI.Run.lean ====
/-
  The whole program from launch to return: one host reshape, then the projection kernel, then the attention kernel.
  The TensorCore's buffer contents at each boundary are a fold from the launch memory: after the reshape; after the
  first kernel (its arrays at what its write-backs leave); after the second. Each kernel is a segment entered from
  "every unscoped buffer at the boundary's contents, the generator register at some state, nothing owed" and left at the
  same with the next boundary's contents. The run's conclusion reads every unscoped buffer of the final memory at the
  last boundary's contents: the argument arrays as launched, the result array at what the attention kernel's
  write-backs leave.
-/
import proofs.«103892_j78185584656634_2_alg».proof.Proof.Gen.KernelIdeal.Launch
import proofs.«103892_j78185584656634_2_alg».proof.Proof.Gen.KernelIdeal.Skeleton
import proofs.«103892_j78185584656634_2_alg».proof.Proof.Gen.KernelIdeal.Points
import proofs.«103892_j78185584656634_2_alg».proof.Proof.KI.R0
import proofs.«103892_j78185584656634_2_alg».proof.Proof.KI.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host reshape (the first kernel's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first kernel's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second kernel's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := (W2_arr m ρ c 3).trans (((dat0 (V1 m ρ) c).arrAt_in 3 rfl _).trans (A_eq0 (V1 m ρ) c 3))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = m ((c : Thread nD τ).loc main_arg4) := rfl

/-! ## The proof data family and the thread state -/

abbrev adm : (p : Fin 2) → (pcfgs (F := F) p).Adm := fun p => (cfgs p).toPCfg_adm
/-- Every pipeline's proof data, each at its kernel's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The kernels as segments -/

set_option backward.isDefEq.respectTransparency.types false in
/-- The projection kernel over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel over the thread state: entered from every unscoped buffer at `W2`, left at `W3`. Its invariant
    takes the scoped buffers and the generator register in before the first point and gives them back after the last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Phi_in1 (V2 m ρ) c)
    unfold Pipeline.ΦA
    iintro ⟨Hp, -, Hr⟩
    isplitl [Hr]; · iexact Hr
    iexact Hp
  hout c := by
    rw [Pipeline.ownSems0_none]
    refine BIBase.Entails.trans (Phi_last1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]

theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting,
    and every final memory holds each unscoped buffer at the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

/-- The run with the result array named: what the attention kernel's write-backs leave, beside the arguments as launched. -/
theorem run_value : θ_run defs (onTc (τ := τ) (main (F := F))) ⟨m, fun _ => 0, ρ⟩ (fun r => ∀ c : Dev nD,
      r.2.mem ((c.tc : Thread nD τ).loc main_v2) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v2 (by decide))).trans (W3_arr m ρ c 2),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

end Cert.KernelIdeal.Hand

end
-- ==== Proof.KI.V0Pay.lean ====
/-
  The projection kernel's arithmetic at an index, at the exact-real reading of floats.

  The first stored value is a matmul into a zero accumulator plus the bias row broadcast over the rows: at row `r`,
  feature `d` it is the sum over the 256 contracted positions of `x0[r,k] * x1[d,k]` (both operands are contracted on
  their second axis) plus `x2[0,d]`. The second is a matmul of the first against the bilinear matrix: the sum over the
  128 contracted positions of `first[r,d] * x3[d,e]`.
-/
import proofs.«103892_j78185584656634_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx

/-- The first matmul's dimension numbers: both operands contracted on axis 1. -/
abbrev dotXW := dot_S2048x256_S128x256_S2048x128_1_1_0_0_n_n
/-- The second matmul's dimension numbers: the left operand contracted on axis 1, the right on axis 0. -/
abbrev dotHA := dot_S2048x128_S128x128_S2048x128_1_0_0_1_n_n

/-- Where the first matmul reads its operands: the left at the output's row and the contracted position, -/
theorem lhsXW_0 (i : S2048x128.Idx) (q : dotXW.contr.Idx) : (dotXW.lhsIdx i q 0).val = (i 0).val := by
  unfold DotDims.lhsIdx
  rw [dif_neg (show ¬(0 : Fin S2048x256.rank) ∈ dotXW.lhsBatch by decide),
    dif_pos (show (0 : Fin S2048x256.rank) ∈ dotXW.lhsNonContracting by decide)]
  rfl
theorem lhsXW_1 (i : S2048x128.Idx) (q : dotXW.contr.Idx) : (dotXW.lhsIdx i q 1).val = (q ⟨0, by decide⟩).val :=
  dotXW.lhsIdx_val_of_single rfl i q
/-- the right at the output's column (a row of the weights) and the contracted position. -/
theorem rhsXW_0 (i : S2048x128.Idx) (q : dotXW.contr.Idx) : (dotXW.rhsIdx i q 0).val = (i 1).val := by
  unfold DotDims.rhsIdx
  rw [dif_neg (show ¬(0 : Fin S128x256.rank) ∈ dotXW.rhsBatch by decide),
    dif_pos (show (0 : Fin S128x256.rank) ∈ dotXW.rhsNonContracting by decide)]
  rfl
theorem rhsXW_1 (i : S2048x128.Idx) (q : dotXW.contr.Idx) : (dotXW.rhsIdx i q 1).val = (q ⟨0, by decide⟩).val :=
  dotXW.rhsIdx_val_of_single rfl i q

/-- The first matmul into the zero accumulator, at row `r`, feature `d`. -/
theorem mmXW_apply (x0 : FVec Ideal S2048x256 .f32) (x1 : FVec Ideal S128x256 .f32) (r : Fin 2048) (d : Fin 128) :
    FloatOps.matmul dotXW (some .fp32) x0 x1 (constant (F := Ideal) S2048x128 .f32 0x00000000#32) (ix2 r d)
      = ∑ k : Fin 256, x0 (ix2 r k) * x1 (ix2 d k) := by
  refine (Ideal.matmul_constant_zero_apply dotXW (some .fp32) x0 x1 (ix2 r d)).trans ?_
  rw [← Equiv.sum_comp (ValueIdx.contrEquiv1 dotXW 256 rfl rfl).symm]
  refine Finset.sum_congr rfl fun k _ => ?_
  have hk := ValueIdx.contrEquiv1_symm_val dotXW 256 rfl rfl k
  have el : dotXW.lhsIdx (ix2 r d) ((ValueIdx.contrEquiv1 dotXW 256 rfl rfl).symm k) = ix2 r k :=
    funext fun a => Fin.ext (by
      match a with
      | ⟨0, _⟩ => exact lhsXW_0 _ _
      | ⟨1, _⟩ => exact (lhsXW_1 _ _).trans hk)
  have er : dotXW.rhsIdx (ix2 r d) ((ValueIdx.contrEquiv1 dotXW 256 rfl rfl).symm k) = ix2 d k :=
    funext fun a => Fin.ext (by
      match a with
      | ⟨0, _⟩ => exact rhsXW_0 _ _
      | ⟨1, _⟩ => exact (rhsXW_1 _ _).trans hk)
  rw [el, er]

/-- Where the second matmul reads its operands: the left at the output's row and the contracted position, -/
theorem lhsHA_0 (i : S2048x128.Idx) (q : dotHA.contr.Idx) : (dotHA.lhsIdx i q 0).val = (i 0).val := by
  unfold DotDims.lhsIdx
  rw [dif_neg (show ¬(0 : Fin S2048x128.rank) ∈ dotHA.lhsBatch by decide),
    dif_pos (show (0 : Fin S2048x128.rank) ∈ dotHA.lhsNonContracting by decide)]
  rfl
theorem lhsHA_1 (i : S2048x128.Idx) (q : dotHA.contr.Idx) : (dotHA.lhsIdx i q 1).val = (q ⟨0, by decide⟩).val :=
  dotHA.lhsIdx_val_of_single rfl i q
/-- the right at the contracted position and the output's column. -/
theorem rhsHA_0 (i : S2048x128.Idx) (q : dotHA.contr.Idx) : (dotHA.rhsIdx i q 0).val = (q ⟨0, by decide⟩).val :=
  dotHA.rhsIdx_val_of_single rfl i q
theorem rhsHA_1 (i : S2048x128.Idx) (q : dotHA.contr.Idx) : (dotHA.rhsIdx i q 1).val = (i 1).val := by
  unfold DotDims.rhsIdx
  rw [dif_neg (show ¬(1 : Fin S128x128.rank) ∈ dotHA.rhsBatch by decide),
    dif_pos (show (1 : Fin S128x128.rank) ∈ dotHA.rhsNonContracting by decide)]
  rfl

/-- The second matmul into the zero accumulator, at row `r`, column `e`. -/
theorem mmHA_apply (h : FVec Ideal S2048x128 .f32) (x3 : FVec Ideal S128x128 .f32) (r : Fin 2048) (e : Fin 128) :
    FloatOps.matmul dotHA (some .fp32) h x3 (constant (F := Ideal) S2048x128 .f32 0x00000000#32) (ix2 r e)
      = ∑ d : Fin 128, h (ix2 r d) * x3 (ix2 d e) := by
  refine (Ideal.matmul_constant_zero_apply dotHA (some .fp32) h x3 (ix2 r e)).trans ?_
  rw [← Equiv.sum_comp (ValueIdx.contrEquiv1 dotHA 128 rfl rfl).symm]
  refine Finset.sum_congr rfl fun k _ => ?_
  have hk := ValueIdx.contrEquiv1_symm_val dotHA 128 rfl rfl k
  have el : dotHA.lhsIdx (ix2 r e) ((ValueIdx.contrEquiv1 dotHA 128 rfl rfl).symm k) = ix2 r k :=
    funext fun a => Fin.ext (by
      match a with
      | ⟨0, _⟩ => exact lhsHA_0 _ _
      | ⟨1, _⟩ => exact (lhsHA_1 _ _).trans hk)
  have er : dotHA.rhsIdx (ix2 r e) ((ValueIdx.contrEquiv1 dotHA 128 rfl rfl).symm k) = ix2 k e :=
    funext fun a => Fin.ext (by
      match a with
      | ⟨0, _⟩ => exact (rhsHA_0 _ _).trans hk
      | ⟨1, _⟩ => exact rhsHA_1 _ _)
  rw [el, er]

/-- THE FIRST STORED VALUE at row `r`, feature `d`: the row of `x0` against row `d` of `x1`, plus the bias. -/
theorem pay1_apply (x0 : Vec Ideal S2048x256 .f32) (x1 : Vec Ideal S128x256 .f32) (x2 : Vec Ideal S1x128 .f32)
    (r : Fin 2048) (d : Fin 128) :
    k0_pay1 (F := Ideal) x0 x1 x2 (ix2 r d) = (∑ k : Fin 256, x0 (ix2 r k) * x1 (ix2 d k)) + x2 (ix2 (0 : Fin 1) d) := by
  unfold k0_pay1
  refine (addf_apply _ _ (ix2 r d)).trans ?_
  refine congrArg₂ (· + ·) (mmXW_apply x0 x1 r d) ?_
  rw [shapeCast_self]
  exact broadcastTo_1b_ab_apply x2 broadcasts_S1x128_S2048x128 r d

/-- THE SECOND STORED VALUE at row `r`, column `e`: the first stored value's row against column `e` of `x3`. -/
theorem pay2_apply (x0 : Vec Ideal S2048x256 .f32) (x1 : Vec Ideal S128x256 .f32) (x2 : Vec Ideal S1x128 .f32)
    (x3 : Vec Ideal S128x128 .f32) (r : Fin 2048) (e : Fin 128) :
    k0_pay2 (F := Ideal) x0 x1 x2 x3 (ix2 r e)
      = ∑ d : Fin 128, ((∑ k : Fin 256, x0 (ix2 r k) * x1 (ix2 d k)) + x2 (ix2 (0 : Fin 1) d)) * x3 (ix2 d e) := by
  unfold k0_pay2
  refine (mmHA_apply (k0_pay1 (F := Ideal) x0 x1 x2) x3 r e).trans ?_
  exact Finset.sum_congr rfl fun d _ => congrArg (· * x3 (ix2 d e)) (pay1_apply x0 x1 x2 r d)

end Cert.KernelIdeal.Hand

end
-- ==== Proof.Spec.lean ====
/-
  The mathematics both programs compute, as functions of the four argument arrays that are read
  (the adjacency matrix is an argument that neither program reads).

  With `feat n d = (∑ k, X n k * W d k) + b d` (a linear layer), `featA n e = ∑ d, feat n d * A d e` and the bilinear
  score `score n m = ∑ e, featA n e * feat m e`, the result at query `n`, feature `d` is the softmax of row `n` of the
  scores against the features: `∑ m, softmax (score n ·) m * feat m d`.

  Two arrangements of that number are stated here.
  * `Gr`: the whole row at once — the maximum `M` of the row taken from `-∞`, the weights `e^(score - M)` divided by
    their sum, the weighted sum of the features.
  * `Gk`: the row STREAMED in four tiles of 2048 keys, carrying a running maximum, a running denominator and a running
    numerator per feature; entering a tile the carried sums are rescaled by `e^(old max - new max)`; at the end the
    numerator is divided by the denominator.
  They are equal when every entry of the arrays is a real number (not at the infinities): that is proved elsewhere.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.Attn

variable (X : Fin 8192 → Fin 256 → EReal) (W : Fin 128 → Fin 256 → EReal) (b : Fin 128 → EReal)
  (A : Fin 128 → Fin 128 → EReal)

/-- The linear layer: row `n` of the node features against row `d` of the weights, plus the bias. -/
def feat (n : Fin 8192) (d : Fin 128) : EReal := (∑ k : Fin 256, X n k * W d k) + b d

/-- The projected features through the bilinear form's matrix. -/
def featA (n : Fin 8192) (e : Fin 128) : EReal := ∑ d : Fin 128, feat X W b n d * A d e

/-- The bilinear score of key `m` for query `n`. -/
def score (n m : Fin 8192) : EReal := ∑ e : Fin 128, featA X W b A n e * feat X W b m e

/-! ## The whole row at once -/

/-- The row's maximum, taken from `-∞` (and once more against `-∞`). -/
def rowMax (n : Fin 8192) : EReal :=
  max ⊥ ((Finset.univ : Finset (Fin 8192)).fold max ⊥ (fun m => score X W b A n m))

/-- The softmax's denominator: the sum, from zero, of the shifted exponentials. -/
def rowDen (n : Fin 8192) : EReal :=
  0 + ∑ m : Fin 8192, Ideal.exp (score X W b A n m - rowMax X W b A n)

/-- The softmax-weighted sum of the features. -/
def Gr (n : Fin 8192) (d : Fin 128) : EReal :=
  ∑ m : Fin 8192, Ideal.div (Ideal.exp (score X W b A n m - rowMax X W b A n)) (rowDen X W b A n) * feat X W b m d

/-! ## The row streamed in four tiles of 2048 keys -/

/-- Key `j` of tile `k`. -/
def key (k : Fin 4) (j : Fin 2048) : Fin 8192 := ⟨k.val * 2048 + j.val, by omega⟩

/-- What is carried from tile to tile: the running maximum, the running denominator, the running numerator. -/
structure St where
  mx : EReal
  den : EReal
  num : Fin 128 → EReal

/-- Before the first tile: maximum `-∞`, sums zero. -/
def St.init : St := ⟨⊥, 0, fun _ => 0⟩

/-- The maximum of tile `k`'s scores, from `-∞`. -/
def tileMax (n : Fin 8192) (k : Fin 4) : EReal :=
  (Finset.univ : Finset (Fin 2048)).fold max ⊥ (fun j => score X W b A n (key k j))

/-- One tile: the new maximum; the carried sums rescaled by `e^(old - new)`; the tile's shifted exponentials added. -/
def step (n : Fin 8192) (k : Fin 4) (s : St) : St :=
  let mx' := max s.mx (tileMax X W b A n k)
  let a := Ideal.exp (s.mx - mx')
  ⟨mx',
   a * s.den + ∑ j : Fin 2048, Ideal.exp (score X W b A n (key k j) - mx'),
   fun d => a * s.num d + ∑ j : Fin 2048, Ideal.exp (score X W b A n (key k j) - mx') * feat X W b (key k j) d⟩

/-- After all four tiles. -/
def final (n : Fin 8192) : St :=
  step X W b A n 3 (step X W b A n 2 (step X W b A n 1 (step X W b A n 0 St.init)))

/-- The streamed result: numerator over denominator. -/
def Gk (n : Fin 8192) (d : Fin 128) : EReal :=
  Ideal.div ((final X W b A n).num d) (final X W b A n).den

/-! ## As functions of the argument arrays -/

/-- An array of shape [n0, n1] as a function of its two coordinates. -/
abbrev cur2 {n0 n1 : Nat} (x : (⟨2, ![n0, n1]⟩ : Shape).Idx → EReal) : Fin n0 → Fin n1 → EReal := fun p q => x (ix2 p q)
/-- An array of shape [n] as a function of its coordinate. -/
abbrev cur1 {n : Nat} (x : (⟨1, ![n]⟩ : Shape).Idx → EReal) : Fin n → EReal := fun p => x (ix1 p)

/-- The streamed result as an array of shape [8192, 128]. -/
def GkArr (x1 : (⟨2, ![8192, 256]⟩ : Shape).Idx → EReal) (x2 : (⟨2, ![128, 256]⟩ : Shape).Idx → EReal)
    (x3 : (⟨1, ![128]⟩ : Shape).Idx → EReal) (x4 : (⟨2, ![128, 128]⟩ : Shape).Idx → EReal) :
    (⟨2, ![8192, 128]⟩ : Shape).Idx → EReal :=
  fun i => Gk (cur2 x1) (cur2 x2) (cur1 x3) (cur2 x4) (i 0) (i 1)

/-- The whole-row result as an array of shape [8192, 128]. -/
def GrArr (x1 : (⟨2, ![8192, 256]⟩ : Shape).Idx → EReal) (x2 : (⟨2, ![128, 256]⟩ : Shape).Idx → EReal)
    (x3 : (⟨1, ![128]⟩ : Shape).Idx → EReal) (x4 : (⟨2, ![128, 128]⟩ : Shape).Idx → EReal) :
    (⟨2, ![8192, 128]⟩ : Shape).Idx → EReal :=
  fun i => Gr (cur2 x1) (cur2 x2) (cur1 x3) (cur2 x4) (i 0) (i 1)

end Cert.Attn

end
-- ==== Proof.KI.V0.lean ====
/-
  What the projection kernel leaves in its two output arrays, at the exact-real reading of floats, for any contents
  `V` of the buffers when it is entered.

  Point `t` of the grid reads rows `2048 t … 2048 t + 2047` of the node features and the whole weights, bias row and
  bilinear matrix, and writes rows `2048 t … 2048 t + 2047` of both outputs; the four points cover the 8192 rows. Row
  `n`, feature `d` of the first output is the linear layer `(∑ k, X[n,k] W[d,k]) + b[d]`; row `n`, column `e` of the
  second is `∑ d, first[n,d] A[d,e]`.
-/
import proofs.«103892_j78185584656634_2_alg».proof.Proof.KI.R0
import proofs.«103892_j78185584656634_2_alg».proof.Proof.KI.V0Pay
import proofs.«103892_j78185584656634_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

theorem hz0 : (![0, 0] : Fin 2 → Nat) = fun _ => 0 := funext fun a => by fin_cases a <;> rfl

/-- The printed index maps over the grid: the node features and both outputs are at block `(t, 0)`, the other three
    windows at block `(0, 0)`. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Row `r` of block `t` is row `2048 t + r` of the array. -/
def row0 (t : Fin cfg0.N) (r : Fin 2048) : Fin 8192 :=
  ⟨t.val * 2048 + r.val, by have h1 := t.isLt; have h2 : cfg0.N = 4 := N_0; omega⟩

variable {F : FTy → Type} [FloatOps F]
variable (V : (c : Dev nD) → (b : Ref sig .tc) → Buf (Elt F) ((c : Thread nD τ).loc b))

/-! ## The input blocks as entries of the arrays -/

theorem iblk0_0_apply (c : Dev nD) (t : Fin cfg0.N) (r : Fin 2048) (k : Fin 256) :
    (iblk0 V c 0 t : Vec F S2048x256 .f32) (ix2 r k) = (V c main_arg1 : S8192x256.Idx → Elt F .f32) (ix2 (row0 t r) k) := by
  obtain ⟨e0, e1, -⟩ := idx_facts0 t
  unfold iblk0
  rw [View.read_apply]
  show V c main_arg1 _ = V c main_arg1 _
  refine congrArg (V c main_arg1) (funext fun a => Fin.ext ?_)
  match a with
  | ⟨0, _⟩ => show win0_0.index t (0 : Fin 2) * 2048 + 1 * r.val = t.val * 2048 + r.val; rw [e0]; omega
  | ⟨1, _⟩ => show win0_0.index t (1 : Fin 2) * 256 + 1 * k.val = k.val; rw [e1]; omega

theorem iblk0_1_apply (c : Dev nD) (t : Fin cfg0.N) (d : Fin 128) (k : Fin 256) :
    (iblk0 V c 1 t : Vec F S128x256 .f32) (ix2 d k) = (V c main_arg2 : S128x256.Idx → Elt F .f32) (ix2 d k) := by
  obtain ⟨-, -, e0, e1, -⟩ := idx_facts0 t
  unfold iblk0
  rw [View.read_apply]
  show V c main_arg2 _ = V c main_arg2 _
  refine congrArg (V c main_arg2) (funext fun a => Fin.ext ?_)
  match a with
  | ⟨0, _⟩ => show win0_1.index t (0 : Fin 2) * 128 + 1 * d.val = d.val; rw [e0]; omega
  | ⟨1, _⟩ => show win0_1.index t (1 : Fin 2) * 256 + 1 * k.val = k.val; rw [e1]; omega

theorem iblk0_2_apply (c : Dev nD) (t : Fin cfg0.N) (z : Fin 1) (d : Fin 128) :
    (iblk0 V c 2 t : Vec F S1x128 .f32) (ix2 z d) = (V c main_v0 : S1x128.Idx → Elt F .f32) (ix2 z d) := by
  obtain ⟨-, -, -, -, e0, e1, -⟩ := idx_facts0 t
  unfold iblk0
  rw [View.read_apply]
  show V c main_v0 _ = V c main_v0 _
  refine congrArg (V c main_v0) (funext fun a => Fin.ext ?_)
  match a with
  | ⟨0, _⟩ => show win0_2.index t (0 : Fin 2) * 1 + 1 * z.val = z.val; rw [e0]; omega
  | ⟨1, _⟩ => show win0_2.index t (1 : Fin 2) * 128 + 1 * d.val = d.val; rw [e1]; omega

theorem iblk0_3_apply (c : Dev nD) (t : Fin cfg0.N) (d : Fin 128) (e : Fin 128) :
    (iblk0 V c 3 t : Vec F S128x128 .f32) (ix2 d e) = (V c main_arg4 : S128x128.Idx → Elt F .f32) (ix2 d e) := by
  obtain ⟨-, -, -, -, -, -, e0, e1, -⟩ := idx_facts0 t
  unfold iblk0
  rw [View.read_apply]
  show V c main_arg4 _ = V c main_arg4 _
  refine congrArg (V c main_arg4) (funext fun a => Fin.ext ?_)
  match a with
  | ⟨0, _⟩ => show win0_3.index t (0 : Fin 2) * 128 + 1 * d.val = d.val; rw [e0]; omega
  | ⟨1, _⟩ => show win0_3.index t (1 : Fin 2) * 128 + 1 * e.val = e.val; rw [e1]; omega

/-! ## Where an output block's element sits in its array -/

theorem emb0_4 (t : Fin cfg0.N) (r : Fin 2048) (d : Fin 128) :
    (((cfg0.win 4).blk t).view.emb (ix2 r d) : S8192x128.Idx) = ix2 (row0 t r) d := by
  obtain ⟨-, -, -, -, -, -, -, -, e0, e1, -⟩ := idx_facts0 t
  funext a; apply Fin.ext
  match a with
  | ⟨0, _⟩ => show win0_4.index t (0 : Fin 2) * 2048 + 1 * r.val = t.val * 2048 + r.val; rw [e0]; omega
  | ⟨1, _⟩ => show win0_4.index t (1 : Fin 2) * 128 + 1 * d.val = d.val; rw [e1]; omega

theorem emb0_5 (t : Fin cfg0.N) (r : Fin 2048) (d : Fin 128) :
    (((cfg0.win 5).blk t).view.emb (ix2 r d) : S8192x128.Idx) = ix2 (row0 t r) d := by
  obtain ⟨-, -, -, -, -, -, -, -, -, -, e0, e1⟩ := idx_facts0 t
  funext a; apply Fin.ext
  match a with
  | ⟨0, _⟩ => show win0_5.index t (0 : Fin 2) * 2048 + 1 * r.val = t.val * 2048 + r.val; rw [e0]; omega
  | ⟨1, _⟩ => show win0_5.index t (1 : Fin 2) * 128 + 1 * d.val = d.val; rw [e1]; omega

/-- An index of the first output is in point `t`'s block iff each coordinate is in the block's range on its axis. -/
theorem mem_blk0_4 (t : Fin cfg0.N) (i : S8192x128.Idx) :
    i ∈ ((cfg0.win 4).blk t).view.set ↔ ∀ a : Fin 2, win0_4.index t a * S2048x128.size a ≤ (i a).val
      ∧ (i a).val < win0_4.index t a * S2048x128.size a + S2048x128.size a := by
  show i ∈ ((View.whole main_v1_0).slice (win0_4.rect t)).set ↔ _
  rw [View.set_slice_whole, Rect.mem_set_unit]
  exact Iff.rfl

theorem mem_blk0_5 (t : Fin cfg0.N) (i : S8192x128.Idx) :
    i ∈ ((cfg0.win 5).blk t).view.set ↔ ∀ a : Fin 2, win0_5.index t a * S2048x128.size a ≤ (i a).val
      ∧ (i a).val < win0_5.index t a * S2048x128.size a + S2048x128.size a := by
  show i ∈ ((View.whole main_v1_1).slice (win0_5.rect t)).set ↔ _
  rw [View.set_slice_whole, Rect.mem_set_unit]
  exact Iff.rfl

/-- The four blocks of 2048 rows cover the 8192 rows: row `n` is in block `n / 2048`. -/
theorem cover0_4 (i : S8192x128.Idx) :
    ∃ t : Fin cfg0.N, (cfg0.win 4).flush t = true ∧ i ∈ ((cfg0.win 4).blk t).view.set := by
  have hi0 : (i 0).val < 8192 := (i 0).isLt
  have hi1 : (i 1).val < 128 := (i 1).isLt
  have hN : cfg0.N = 4 := N_0
  obtain ⟨t, ht⟩ : ∃ t : Fin cfg0.N, t.val = (i 0).val / 2048 := ⟨⟨(i 0).val / 2048, by omega⟩, rfl⟩
  obtain ⟨-, -, -, -, -, -, -, -, e0, e1, -⟩ := idx_facts0 t
  refine ⟨t, flush0_4 t, ?_⟩
  rw [mem_blk0_4]
  intro a
  match a with
  | ⟨0, _⟩ =>
    show win0_4.index t (0 : Fin 2) * 2048 ≤ (i 0).val ∧ (i 0).val < win0_4.index t (0 : Fin 2) * 2048 + 2048
    rw [e0]; omega
  | ⟨1, _⟩ =>
    show win0_4.index t (1 : Fin 2) * 128 ≤ (i 1).val ∧ (i 1).val < win0_4.index t (1 : Fin 2) * 128 + 128
    rw [e1]; omega

theorem cover0_5 (i : S8192x128.Idx) :
    ∃ t : Fin cfg0.N, (cfg0.win 5).flush t = true ∧ i ∈ ((cfg0.win 5).blk t).view.set := by
  have hi0 : (i 0).val < 8192 := (i 0).isLt
  have hi1 : (i 1).val < 128 := (i 1).isLt
  have hN : cfg0.N = 4 := N_0
  obtain ⟨t, ht⟩ : ∃ t : Fin cfg0.N, t.val = (i 0).val / 2048 := ⟨⟨(i 0).val / 2048, by omega⟩, rfl⟩
  obtain ⟨-, -, -, -, -, -, -, -, -, -, e0, e1⟩ := idx_facts0 t
  refine ⟨t, flush0_5 t, ?_⟩
  rw [mem_blk0_5]
  intro a
  match a with
  | ⟨0, _⟩ =>
    show win0_5.index t (0 : Fin 2) * 2048 ≤ (i 0).val ∧ (i 0).val < win0_5.index t (0 : Fin 2) * 2048 + 2048
    rw [e0]; omega
  | ⟨1, _⟩ =>
    show win0_5.index t (1 : Fin 2) * 128 ≤ (i 1).val ∧ (i 1).val < win0_5.index t (1 : Fin 2) * 128 + 128
    rw [e1]; omega

/-! ## The two results from blocks that agree with the arrays -/

/-- The linear layer's entry `(n, d)` from blocks whose row `r` is the features' row `n` and which hold the weights
    and the bias row. -/
theorem feat_of_blocks (X : S8192x256.Idx → EReal) (W : S128x256.Idx → EReal) (B : S1x128.Idx → EReal)
    (x0 : Vec Ideal S2048x256 .f32) (x1 : Vec Ideal S128x256 .f32) (x2 : Vec Ideal S1x128 .f32)
    (n : Fin 8192) (r : Fin 2048) (d : Fin 128)
    (h0 : ∀ k : Fin 256, x0 (ix2 r k) = X (ix2 n k)) (h1 : ∀ k : Fin 256, x1 (ix2 d k) = W (ix2 d k))
    (h2 : x2 (ix2 (0 : Fin 1) d) = B (ix2 (0 : Fin 1) d)) :
    (∑ k : Fin 256, x0 (ix2 r k) * x1 (ix2 d k)) + x2 (ix2 (0 : Fin 1) d)
      = Cert.Attn.feat (Cert.Attn.cur2 X) (Cert.Attn.cur2 W) (fun d => B (ix2 (0 : Fin 1) d)) n d := by
  show _ = (∑ k : Fin 256, X (ix2 n k) * W (ix2 d k)) + B (ix2 (0 : Fin 1) d)
  rw [h2]
  exact congrArg (· + B (ix2 (0 : Fin 1) d)) (Finset.sum_congr rfl fun k _ => by rw [h0 k, h1 k])

/-- The same through the bilinear matrix: entry `(n, e)`. -/
theorem featA_of_blocks (X : S8192x256.Idx → EReal) (W : S128x256.Idx → EReal) (B : S1x128.Idx → EReal)
    (A : S128x128.Idx → EReal)
    (x0 : Vec Ideal S2048x256 .f32) (x1 : Vec Ideal S128x256 .f32) (x2 : Vec Ideal S1x128 .f32) (x3 : Vec Ideal S128x128 .f32)
    (n : Fin 8192) (r : Fin 2048) (e : Fin 128)
    (h0 : ∀ k : Fin 256, x0 (ix2 r k) = X (ix2 n k)) (h1 : ∀ (d : Fin 128) (k : Fin 256), x1 (ix2 d k) = W (ix2 d k))
    (h2 : ∀ d : Fin 128, x2 (ix2 (0 : Fin 1) d) = B (ix2 (0 : Fin 1) d)) (h3 : ∀ d : Fin 128, x3 (ix2 d e) = A (ix2 d e)) :
    ∑ d : Fin 128, ((∑ k : Fin 256, x0 (ix2 r k) * x1 (ix2 d k)) + x2 (ix2 (0 : Fin 1) d)) * x3 (ix2 d e)
      = Cert.Attn.featA (Cert.Attn.cur2 X) (Cert.Attn.cur2 W) (fun d => B (ix2 (0 : Fin 1) d)) (Cert.Attn.cur2 A) n e := by
  show _ = ∑ d : Fin 128, Cert.Attn.feat (Cert.Attn.cur2 X) (Cert.Attn.cur2 W) (fun d => B (ix2 (0 : Fin 1) d)) n d * A (ix2 d e)
  exact Finset.sum_congr rfl fun d _ => by
    rw [feat_of_blocks X W B x0 x1 x2 n r d h0 (h1 d) (h2 d), h3 d]

/-! ## The two output arrays -/

section ideal
variable (V : (c : Dev nD) → (b : Ref sig .tc) → Buf (Elt Ideal) ((c : Thread nD τ).loc b))

/-- The first output as one function of the arrays the kernel finds: the linear layer. -/
abbrev featArr (c : Dev nD) : S8192x128.Idx → EReal := fun i =>
  Cert.Attn.feat (Cert.Attn.cur2 (V c main_arg1 : S8192x256.Idx → EReal)) (Cert.Attn.cur2 (V c main_arg2 : S128x256.Idx → EReal))
    (fun d => (V c main_v0 : S1x128.Idx → EReal) (ix2 (0 : Fin 1) d)) (i 0) (i 1)

/-- The second output: the linear layer through the bilinear matrix. -/
abbrev featAArr (c : Dev nD) : S8192x128.Idx → EReal := fun i =>
  Cert.Attn.featA (Cert.Attn.cur2 (V c main_arg1 : S8192x256.Idx → EReal)) (Cert.Attn.cur2 (V c main_arg2 : S128x256.Idx → EReal))
    (fun d => (V c main_v0 : S1x128.Idx → EReal) (ix2 (0 : Fin 1) d)) (Cert.Attn.cur2 (V c main_arg4 : S128x128.Idx → EReal)) (i 0) (i 1)

/-- WHAT POINT `t` WRITES BACK to the first output is block `t` of the linear layer. -/
theorem flushed0_4_eq (c : Dev nD) (t : Fin cfg0.N) :
    (dat0 (F := Ideal) V c).flushed 4 t = ((cfg0.win 4).blk t).view.read (Elt Ideal) (featArr V c) := by
  show (cfg0.win 4).cut (grid0.coords t) ((dat0 V c).after 4 t) = _
  rw [after0_4]
  unfold out0_4
  rw [View.canon_unit_zero hz0]
  simp only [View.ld_unit_zero (S := S2048x256) hz0, View.ld_unit_zero (S := S128x256) hz0, View.ld_unit_zero (S := S1x128) hz0]
  funext j
  obtain ⟨r, d, rfl⟩ : ∃ (r : Fin 2048) (d : Fin 128), j = ix2 r d := ⟨j 0, j 1, eq_ix2 j⟩
  show k0_pay1 (F := Ideal) (iblk0 V c 0 t) (iblk0 V c 1 t) (iblk0 V c 2 t) (ix2 r d)
    = featArr V c (((cfg0.win 4).blk t).view.emb (ix2 r d))
  rw [emb0_4 t r d]
  exact (pay1_apply (iblk0 V c 0 t) (iblk0 V c 1 t) (iblk0 V c 2 t) r d).trans
    (feat_of_blocks (V c main_arg1) (V c main_arg2) (V c main_v0) (iblk0 V c 0 t) (iblk0 V c 1 t) (iblk0 V c 2 t) (row0 t r) r d
      (iblk0_0_apply V c t r) (iblk0_1_apply V c t d) (iblk0_2_apply V c t 0 d))

/-- WHAT POINT `t` WRITES BACK to the second output is block `t` of the linear layer through the bilinear matrix. -/
theorem flushed0_5_eq (c : Dev nD) (t : Fin cfg0.N) :
    (dat0 (F := Ideal) V c).flushed 5 t = ((cfg0.win 5).blk t).view.read (Elt Ideal) (featAArr V c) := by
  show (cfg0.win 5).cut (grid0.coords t) ((dat0 V c).after 5 t) = _
  rw [after0_5]
  unfold out0_5
  rw [View.canon_unit_zero hz0]
  simp only [View.ld_unit_zero (S := S2048x256) hz0, View.ld_unit_zero (S := S128x256) hz0, View.ld_unit_zero (S := S1x128) hz0,
    View.ld_unit_zero (S := S128x128) hz0]
  funext j
  obtain ⟨r, e, rfl⟩ : ∃ (r : Fin 2048) (e : Fin 128), j = ix2 r e := ⟨j 0, j 1, eq_ix2 j⟩
  show k0_pay2 (F := Ideal) (iblk0 V c 0 t) (iblk0 V c 1 t) (iblk0 V c 2 t) (iblk0 V c 3 t) (ix2 r e)
    = featAArr V c (((cfg0.win 5).blk t).view.emb (ix2 r e))
  rw [emb0_5 t r e]
  exact (pay2_apply (iblk0 V c 0 t) (iblk0 V c 1 t) (iblk0 V c 2 t) (iblk0 V c 3 t) r e).trans
    (featA_of_blocks (V c main_arg1) (V c main_arg2) (V c main_v0) (V c main_arg4)
      (iblk0 V c 0 t) (iblk0 V c 1 t) (iblk0 V c 2 t) (iblk0 V c 3 t) (row0 t r) r e
      (iblk0_0_apply V c t r) (iblk0_1_apply V c t) (iblk0_2_apply V c t 0) (fun d => iblk0_3_apply V c t d e))

/-- THE FIRST OUTPUT ARRAY after the kernel: the linear layer of the arrays it found. -/
theorem arr0_4 (c : Dev nD) : (dat0 (F := Ideal) V c).arrAt 4 cfg0.N = fun i =>
    Cert.Attn.feat (Cert.Attn.cur2 (V c main_arg1 : S8192x256.Idx → EReal)) (Cert.Attn.cur2 (V c main_arg2 : S128x256.Idx → EReal))
      (fun d => (V c main_v0 : S1x128.Idx → EReal) (ix2 (0 : Fin 1) d)) (i 0) (i 1) :=
  (dat0 (F := Ideal) V c).arrAt_eq_of_cover 4 (featArr V c) (fun t _ => flushed0_4_eq V c t) cover0_4

/-- THE SECOND OUTPUT ARRAY after the kernel: the linear layer through the bilinear matrix. -/
theorem arr0_5 (c : Dev nD) : (dat0 (F := Ideal) V c).arrAt 5 cfg0.N = fun i =>
    Cert.Attn.featA (Cert.Attn.cur2 (V c main_arg1 : S8192x256.Idx → EReal)) (Cert.Attn.cur2 (V c main_arg2 : S128x256.Idx → EReal))
      (fun d => (V c main_v0 : S1x128.Idx → EReal) (ix2 (0 : Fin 1) d)) (Cert.Attn.cur2 (V c main_arg4 : S128x128.Idx → EReal)) (i 0) (i 1) :=
  (dat0 (F := Ideal) V c).arrAt_eq_of_cover 5 (featAArr V c) (fun t _ => flushed0_5_eq V c t) cover0_5

end ideal

end Cert.KernelIdeal.Hand

end
-- ==== Proof.KI.V0b.lean ====
/-
  The one host operation before the kernels: the bias vector of 128 entries reshaped into a row `[1, 128]`. Entry
  `(0, d)` of the row is entry `d` of the vector (the same row-major position), and the operation writes no other
  array.
-/
import proofs.«103892_j78185584656634_2_alg».proof.Proof.Gen.KernelIdeal.Launch
import proofs.«103892_j78185584656634_2_alg».proof.Proof.Gen.KernelIdeal.Regions
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem

/-- The bias row after the host reshape, entry by entry. -/
theorem v0_reshape (m : (ℓ : Loc nD τ sig) → Buf (Elt Ideal) ℓ) (c : Dev nD) (d : Fin 128) :
    StableHlo.after (hostOps0 (F := Ideal)) (fun b => m (c, b)) (Proc.devRef .tc main_v0) (ValueIdx.ix2 (0 : Fin 1) d)
      = m ((c : Thread nD τ).loc main_arg3) (ValueIdx.ix1 d) := by
  have e : (StableHlo.after (hostOps0 (F := Ideal)) (fun b => m (c, b)) (Proc.devRef .tc main_v0) : S1x128.Idx → EReal)
      = shapeCast S1x128 (m ((c : Thread nD τ).loc main_arg3) : S128.Idx → EReal) shapeCasts_S128_S1x128 := by
    dsimp only [hostOps0]
    after_results
    rfl
  refine (congrFun e (ix2 (0 : Fin 1) d)).trans ?_
  refine shapeCast_apply _ _ (ix2 (0 : Fin 1) d) (ix1 d) ?_
  rw [Shape.rowMajor_val_two, Shape.rowMajor_val_one]
  show d.val = 0 * 128 + d.val
  omega

/-- The host reshape writes only the bias row: every other array is as launched. -/
theorem v0_keeps {F : FTy → Type} [FloatOps F] (m : (ℓ : Loc nD τ sig) → Buf (Elt F) ℓ) (c : Dev nD) (r : Ref sig .tc)
    (h : r ∉ ([main_v0] : List (Ref sig .tc))) :
    StableHlo.after (hostOps0 (F := F)) (fun b => m (c, b)) (Proc.devRef .tc r) = m ((c : Thread nD τ).loc r) :=
  Gen.V1_of m c r h

theorem v0_keeps_arg1 {F : FTy → Type} [FloatOps F] (m : (ℓ : Loc nD τ sig) → Buf (Elt F) ℓ) (c : Dev nD) :
    StableHlo.after (hostOps0 (F := F)) (fun b => m (c, b)) (Proc.devRef .tc main_arg1) = m ((c : Thread nD τ).loc main_arg1) :=
  v0_keeps m c main_arg1 (by decide)
theorem v0_keeps_arg2 {F : FTy → Type} [FloatOps F] (m : (ℓ : Loc nD τ sig) → Buf (Elt F) ℓ) (c : Dev nD) :
    StableHlo.after (hostOps0 (F := F)) (fun b => m (c, b)) (Proc.devRef .tc main_arg2) = m ((c : Thread nD τ).loc main_arg2) :=
  v0_keeps m c main_arg2 (by decide)
theorem v0_keeps_arg4 {F : FTy → Type} [FloatOps F] (m : (ℓ : Loc nD τ sig) → Buf (Elt F) ℓ) (c : Dev nD) :
    StableHlo.after (hostOps0 (F := F)) (fun b => m (c, b)) (Proc.devRef .tc main_arg4) = m ((c : Thread nD τ).loc main_arg4) :=
  v0_keeps m c main_arg4 (by decide)

end Cert.KernelIdeal.Hand

end
-- ==== Proof.KI.R1Pieces.lean ====
/-
  What each case of the attention kernel's body leaves in the scratch buffers and in the output buffer, as the body's
  arithmetic of the two input blocks and of what the scratch buffers held: every store and load is of a whole buffer, so
  the last store into a buffer is its contents, and a load after a store reads that store's value.
  With `m`, `l`, `acc` the carried maximum, denominator and numerator (the initial values `-∞`, `0`, `0` in the first
  case): the new maximum is `k1_pay2 (k1_pay9 x0 x1 m)`, the new denominator `k1_pay12 x0 x1 m m l`, the new numerator
  `k1_pay1 (k1_pay13 x0 x1 m m acc)`, and in the last case the output is `k1_pay3` of the new numerator and denominator.
-/
import proofs.«103892_j78185584656634_2_alg».proof.Proof.Gen.KernelIdeal.Launch
import proofs.«103892_j78185584656634_2_alg».proof.Proof.Gen.KernelIdeal.Skeleton
import proofs.«103892_j78185584656634_2_alg».proof.Proof.Gen.KernelIdeal.Points
import proofs.«103892_j78185584656634_2_alg».proof.Proof.KI.R1
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := by
  funext a; match a with | ⟨0, _⟩ => rfl | ⟨1, _⟩ => rfl

theorem sout1_A_0_eq (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : cond1_0 i) (hc1 : ¬cond1_1 i)
    (x0 : Vec F S1024x128 .f32) (x1 : Vec F S2048x128 .f32) :
    sout1_A_0 c i arg2 harg2 arg3 harg3 arg4 harg4 arg5 harg5 arg6 harg6 arg7 harg7 hc0 hc1 x0 x1 = k1_pay2 (k1_pay9 x0 x1 (k1_pay4 (F := F))) := by
  unfold sout1_A_0
  rw [View.read_writes_eq_canon _ _ _ (scover1_A_0 c i arg2 harg2 arg3 harg3 arg4 harg4 arg5 harg5 arg6 harg6 arg7 harg7 hc0 hc1 x0 x1)]
  unfold kernelRun1_A
  dsimp only
  sl_unfold_words
  first | rw [View.canon_cons_unit_zero hz2] | rw [View.canon_unit_zero hz2]
  simp only [View.readAt_eq_ld, harg2.read_unread, harg3.read_unread, harg5.read_unread, harg6.read_unread, harg7.read_unread,
    View.ld_unit_zero (S := S1024x128) hz2, View.ld_unit_zero (S := S2048x128) hz2, View.ld_unit_zero (S := S1024x1) hz2,
    View.readCov_unit_zero (S := S1024x1) _ hz2, View.readCov_unit_zero (S := S1024x128) _ hz2]
  try rfl

theorem sout1_A_1_eq (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : cond1_0 i) (hc1 : ¬cond1_1 i)
    (x0 : Vec F S1024x128 .f32) (x1 : Vec F S2048x128 .f32) :
    sout1_A_1 c i arg2 harg2 arg3 harg3 arg4 harg4 arg5 harg5 arg6 harg6 arg7 harg7 hc0 hc1 x0 x1 = k1_pay12 x0 x1 (k1_pay4 (F := F)) (k1_pay4 (F := F)) (k1_pay5 (F := F)) := by
  unfold sout1_A_1
  rw [View.read_writes_eq_canon _ _ _ (scover1_A_1 c i arg2 harg2 arg3 harg3 arg4 harg4 arg5 harg5 arg6 harg6 arg7 harg7 hc0 hc1 x0 x1)]
  unfold kernelRun1_A
  dsimp only
  sl_unfold_words
  first | rw [View.canon_cons_unit_zero hz2] | rw [View.canon_unit_zero hz2]
  simp only [View.readAt_eq_ld, harg2.read_unread, harg3.read_unread, harg5.read_unread, harg6.read_unread, harg7.read_unread,
    View.ld_unit_zero (S := S1024x128) hz2, View.ld_unit_zero (S := S2048x128) hz2, View.ld_unit_zero (S := S1024x1) hz2,
    View.readCov_unit_zero (S := S1024x1) _ hz2, View.readCov_unit_zero (S := S1024x128) _ hz2]
  try rfl

theorem sout1_A_2_eq (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : cond1_0 i) (hc1 : ¬cond1_1 i)
    (x0 : Vec F S1024x128 .f32) (x1 : Vec F S2048x128 .f32) :
    sout1_A_2 c i arg2 harg2 arg3 harg3 arg4 harg4 arg5 harg5 arg6 harg6 arg7 harg7 hc0 hc1 x0 x1 = k1_pay1 (k1_pay13 x0 x1 (k1_pay4 (F := F)) (k1_pay4 (F := F)) (k1_pay6 (F := F))) := by
  unfold sout1_A_2
  rw [View.read_writes_eq_canon _ _ _ (scover1_A_2 c i arg2 harg2 arg3 harg3 arg4 harg4 arg5 harg5 arg6 harg6 arg7 harg7 hc0 hc1 x0 x1)]
  unfold kernelRun1_A
  dsimp only
  sl_unfold_words
  first | rw [View.canon_cons_unit_zero hz2] | rw [View.canon_unit_zero hz2]
  simp only [View.readAt_eq_ld, harg2.read_unread, harg3.read_unread, harg5.read_unread, harg6.read_unread, harg7.read_unread,
    View.ld_unit_zero (S := S1024x128) hz2, View.ld_unit_zero (S := S2048x128) hz2, View.ld_unit_zero (S := S1024x1) hz2,
    View.readCov_unit_zero (S := S1024x1) _ hz2, View.readCov_unit_zero (S := S1024x128) _ hz2]
  try rfl

theorem sout1_B_0_eq (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : ¬cond1_0 i) (hc1 : ¬cond1_1 i)
    (x0 : Vec F S1024x128 .f32) (x1 : Vec F S2048x128 .f32) (xs0 : Vec F S1024x1 .f32) (xs1 : Vec F S1024x1 .f32) (xs2 : Vec F S1024x128 .f32) :
    sout1_B_0 c i arg2 harg2 arg3 harg3 arg4 harg4 arg5 harg5 arg6 harg6 arg7 harg7 hc0 hc1 x0 x1 xs0 xs1 xs2 = k1_pay2 (k1_pay9 x0 x1 xs0) := by
  unfold sout1_B_0
  rw [View.read_writes_eq_canon _ _ _ (scover1_B_0 c i arg2 harg2 arg3 harg3 arg4 harg4 arg5 harg5 arg6 harg6 arg7 harg7 hc0 hc1 x0 x1 xs0 xs1 xs2)]
  unfold kernelRun1_B
  dsimp only
  sl_unfold_words
  first | rw [View.canon_cons_unit_zero hz2] | rw [View.canon_unit_zero hz2]
  simp only [View.readAt_eq_ld, harg2.read_unread, harg3.read_unread, harg5.read_unread, harg6.read_unread, harg7.read_unread,
    View.ld_unit_zero (S := S1024x128) hz2, View.ld_unit_zero (S := S2048x128) hz2, View.ld_unit_zero (S := S1024x1) hz2,
    View.readCov_unit_zero (S := S1024x1) _ hz2, View.readCov_unit_zero (S := S1024x128) _ hz2]
  try rfl

theorem sout1_B_1_eq (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : ¬cond1_0 i) (hc1 : ¬cond1_1 i)
    (x0 : Vec F S1024x128 .f32) (x1 : Vec F S2048x128 .f32) (xs0 : Vec F S1024x1 .f32) (xs1 : Vec F S1024x1 .f32) (xs2 : Vec F S1024x128 .f32) :
    sout1_B_1 c i arg2 harg2 arg3 harg3 arg4 harg4 arg5 harg5 arg6 harg6 arg7 harg7 hc0 hc1 x0 x1 xs0 xs1 xs2 = k1_pay12 x0 x1 xs0 xs0 xs1 := by
  unfold sout1_B_1
  rw [View.read_writes_eq_canon _ _ _ (scover1_B_1 c i arg2 harg2 arg3 harg3 arg4 harg4 arg5 harg5 arg6 harg6 arg7 harg7 hc0 hc1 x0 x1 xs0 xs1 xs2)]
  unfold kernelRun1_B
  dsimp only
  sl_unfold_words
  first | rw [View.canon_cons_unit_zero hz2] | rw [View.canon_unit_zero hz2]
  simp only [View.readAt_eq_ld, harg2.read_unread, harg3.read_unread, harg5.read_unread, harg6.read_unread, harg7.read_unread,
    View.ld_unit_zero (S := S1024x128) hz2, View.ld_unit_zero (S := S2048x128) hz2, View.ld_unit_zero (S := S1024x1) hz2,
    View.readCov_unit_zero (S := S1024x1) _ hz2, View.readCov_unit_zero (S := S1024x128) _ hz2]
  try rfl

theorem sout1_B_2_eq (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : ¬cond1_0 i) (hc1 : ¬cond1_1 i)
    (x0 : Vec F S1024x128 .f32) (x1 : Vec F S2048x128 .f32) (xs0 : Vec F S1024x1 .f32) (xs1 : Vec F S1024x1 .f32) (xs2 : Vec F S1024x128 .f32) :
    sout1_B_2 c i arg2 harg2 arg3 harg3 arg4 harg4 arg5 harg5 arg6 harg6 arg7 harg7 hc0 hc1 x0 x1 xs0 xs1 xs2 = k1_pay1 (k1_pay13 x0 x1 xs0 xs0 xs2) := by
  unfold sout1_B_2
  rw [View.read_writes_eq_canon _ _ _ (scover1_B_2 c i arg2 harg2 arg3 harg3 arg4 harg4 arg5 harg5 arg6 harg6 arg7 harg7 hc0 hc1 x0 x1 xs0 xs1 xs2)]
  unfold kernelRun1_B
  dsimp only
  sl_unfold_words
  first | rw [View.canon_cons_unit_zero hz2] | rw [View.canon_unit_zero hz2]
  simp only [View.readAt_eq_ld, harg2.read_unread, harg3.read_unread, harg5.read_unread, harg6.read_unread, harg7.read_unread,
    View.ld_unit_zero (S := S1024x128) hz2, View.ld_unit_zero (S := S2048x128) hz2, View.ld_unit_zero (S := S1024x1) hz2,
    View.readCov_unit_zero (S := S1024x1) _ hz2, View.readCov_unit_zero (S := S1024x128) _ hz2]
  try rfl

theorem sout1_C_0_eq (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : ¬cond1_0 i) (hc1 : cond1_1 i)
    (x0 : Vec F S1024x128 .f32) (x1 : Vec F S2048x128 .f32) (xs0 : Vec F S1024x1 .f32) (xs1 : Vec F S1024x1 .f32) (xs2 : Vec F S1024x128 .f32) :
    sout1_C_0 c i arg2 harg2 arg3 harg3 arg4 harg4 arg5 harg5 arg6 harg6 arg7 harg7 hc0 hc1 x0 x1 xs0 xs1 xs2 = k1_pay2 (k1_pay9 x0 x1 xs0) := by
  unfold sout1_C_0
  rw [View.read_writes_eq_canon _ _ _ (scover1_C_0 c i arg2 harg2 arg3 harg3 arg4 harg4 arg5 harg5 arg6 harg6 arg7 harg7 hc0 hc1 x0 x1 xs0 xs1 xs2)]
  unfold kernelRun1_C
  dsimp only
  sl_unfold_words
  first | rw [View.canon_cons_unit_zero hz2] | rw [View.canon_unit_zero hz2]
  simp only [View.readAt_eq_ld, harg2.read_unread, harg3.read_unread, harg5.read_unread, harg6.read_unread, harg7.read_unread,
    View.ld_unit_zero (S := S1024x128) hz2, View.ld_unit_zero (S := S2048x128) hz2, View.ld_unit_zero (S := S1024x1) hz2,
    View.readCov_unit_zero (S := S1024x1) _ hz2, View.readCov_unit_zero (S := S1024x128) _ hz2]
  try rfl

theorem sout1_C_1_eq (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : ¬cond1_0 i) (hc1 : cond1_1 i)
    (x0 : Vec F S1024x128 .f32) (x1 : Vec F S2048x128 .f32) (xs0 : Vec F S1024x1 .f32) (xs1 : Vec F S1024x1 .f32) (xs2 : Vec F S1024x128 .f32) :
    sout1_C_1 c i arg2 harg2 arg3 harg3 arg4 harg4 arg5 harg5 arg6 harg6 arg7 harg7 hc0 hc1 x0 x1 xs0 xs1 xs2 = k1_pay12 x0 x1 xs0 xs0 xs1 := by
  unfold sout1_C_1
  rw [View.read_writes_eq_canon _ _ _ (scover1_C_1 c i arg2 harg2 arg3 harg3 arg4 harg4 arg5 harg5 arg6 harg6 arg7 harg7 hc0 hc1 x0 x1 xs0 xs1 xs2)]
  unfold kernelRun1_C
  dsimp only
  sl_unfold_words
  first | rw [View.canon_cons_unit_zero hz2] | rw [View.canon_unit_zero hz2]
  simp only [View.readAt_eq_ld, harg2.read_unread, harg3.read_unread, harg5.read_unread, harg6.read_unread, harg7.read_unread,
    View.ld_unit_zero (S := S1024x128) hz2, View.ld_unit_zero (S := S2048x128) hz2, View.ld_unit_zero (S := S1024x1) hz2,
    View.readCov_unit_zero (S := S1024x1) _ hz2, View.readCov_unit_zero (S := S1024x128) _ hz2]
  try rfl

theorem sout1_C_2_eq (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : ¬cond1_0 i) (hc1 : cond1_1 i)
    (x0 : Vec F S1024x128 .f32) (x1 : Vec F S2048x128 .f32) (xs0 : Vec F S1024x1 .f32) (xs1 : Vec F S1024x1 .f32) (xs2 : Vec F S1024x128 .f32) :
    sout1_C_2 c i arg2 harg2 arg3 harg3 arg4 harg4 arg5 harg5 arg6 harg6 arg7 harg7 hc0 hc1 x0 x1 xs0 xs1 xs2 = k1_pay1 (k1_pay13 x0 x1 xs0 xs0 xs2) := by
  unfold sout1_C_2
  rw [View.read_writes_eq_canon _ _ _ (scover1_C_2 c i arg2 harg2 arg3 harg3 arg4 harg4 arg5 harg5 arg6 harg6 arg7 harg7 hc0 hc1 x0 x1 xs0 xs1 xs2)]
  unfold kernelRun1_C
  dsimp only
  sl_unfold_words
  first | rw [View.canon_cons_unit_zero hz2] | rw [View.canon_unit_zero hz2]
  simp only [View.readAt_eq_ld, harg2.read_unread, harg3.read_unread, harg5.read_unread, harg6.read_unread, harg7.read_unread,
    View.ld_unit_zero (S := S1024x128) hz2, View.ld_unit_zero (S := S2048x128) hz2, View.ld_unit_zero (S := S1024x1) hz2,
    View.readCov_unit_zero (S := S1024x1) _ hz2, View.readCov_unit_zero (S := S1024x128) _ hz2]
  try rfl

theorem out1_C_2_eq (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : ¬cond1_0 i) (hc1 : cond1_1 i)
    (x0 : Vec F S1024x128 .f32) (x1 : Vec F S2048x128 .f32) (xs0 : Vec F S1024x1 .f32) (xs1 : Vec F S1024x1 .f32) (xs2 : Vec F S1024x128 .f32) :
    out1_C_2 c i arg2 harg2 arg3 harg3 arg4 harg4 arg5 harg5 arg6 harg6 arg7 harg7 hc0 hc1 x0 x1 xs0 xs1 xs2 = k1_pay3 (k1_pay1 (k1_pay13 x0 x1 xs0 xs0 xs2)) (k1_pay12 x0 x1 xs0 xs0 xs1) := by
  unfold out1_C_2
  rw [View.read_writes_eq_canon _ _ _ (cover1_C_2 c i arg2 harg2 arg3 harg3 arg4 harg4 arg5 harg5 arg6 harg6 arg7 harg7 hc0 hc1 x0 x1 xs0 xs1 xs2)]
  unfold kernelRun1_C
  dsimp only
  sl_unfold_words
  first | rw [View.canon_cons_unit_zero hz2] | rw [View.canon_unit_zero hz2]
  simp only [View.readAt_eq_ld, harg2.read_unread, harg3.read_unread, harg5.read_unread, harg6.read_unread, harg7.read_unread,
    View.ld_unit_zero (S := S1024x128) hz2, View.ld_unit_zero (S := S2048x128) hz2, View.ld_unit_zero (S := S1024x1) hz2,
    View.readCov_unit_zero (S := S1024x1) _ hz2, View.readCov_unit_zero (S := S1024x128) _ hz2]
  try rfl

end Cert.KernelIdeal.Hand

end
-- ==== Proof.LibExtReal.lean ====
/-
  General facts about extended reals that are real numbers, and about the float literals this certificate meets.

  At the exact-real reading of floats the arithmetic laws that fail at the infinities (`x - x = 0`, cancelling a
  quotient) hold for the REAL extended reals; `IsReal` is that predicate, closed under sums, products, finite sums
  and quotients by a nonzero real.  With it: a softmax over ONE entry is the constant one.
-/
import Idealize.ShloMosaic.PureOps.Ideal
import Idealize.ShloMosaic.PureOps.Ideal.Laws

noncomputable section

open Idealize.ShloMosaic

namespace Cert.LibExtReal

/-- The extended real `x` is a real number (neither infinity). -/
def IsReal (x : EReal) : Prop := ∃ r : ℝ, x = (r : EReal)

theorem IsReal.coe (r : ℝ) : IsReal (r : EReal) := ⟨r, rfl⟩

theorem IsReal.zero : IsReal 0 := ⟨0, rfl⟩

/-- A sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- A product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of reals is real. -/
theorem IsReal.sum {ι : Type*} (s : Finset ι) (f : ι → EReal) (h : ∀ i ∈ s, IsReal (f i)) :
    IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- A real divided by a nonzero real is real. -/
theorem IsReal.div_coe {x : EReal} (hx : IsReal x) {y : ℝ} (hy : y ≠ 0) : IsReal (Ideal.div x (y : EReal)) := by
  rw [Ideal.div_coe hy]; exact hx.mul ⟨_, rfl⟩

/-- A real minus itself is zero (false at the infinities). -/
theorem IsReal.sub_self {x : EReal} (hx : IsReal x) : x - x = 0 := by
  obtain ⟨a, rfl⟩ := hx
  rw [← EReal.coe_sub, _root_.sub_self]; rfl

/-- `e⁰ = 1`. -/
theorem exp_zero : Ideal.exp 0 = 1 := by
  show Ideal.exp ((0 : ℝ) : EReal) = 1
  rw [Ideal.exp_coe, Real.exp_zero]; rfl

/-- `1 / 1 = 1`. -/
theorem div_one_one : Ideal.div 1 1 = 1 := by
  have h := Ideal.div_coe (y := 1) one_ne_zero (1 : EReal)
  rw [EReal.coe_one] at h
  rw [h]; simp

/-- The f32 pattern of `1.0` denotes `1`. -/
theorem ofBits_one : Ideal.ofBits .f32 0x3F800000#32 = 1 := by
  simp [Ideal.ofBits, Ideal.ieee, -EReal.coe_mul]; norm_num

/-- The f32 pattern of `112.0` denotes the real `112`. -/
theorem ofBits_112 : Ideal.ofBits .f32 0x42E00000#32 = ((112 : ℝ) : EReal) := by
  simp [Ideal.ofBits, Ideal.ieee, -EReal.coe_mul]; norm_num

/-- The f32 pattern of `-inf` denotes `⊥`. -/
theorem ofBits_neg_inf : Ideal.ofBits .f32 0xFF800000#32 = ⊥ := by
  simp [Ideal.ofBits, Ideal.ieee]

/-- `√112` is a nonzero real. -/
theorem sqrt_112 : Ideal.sqrt (Ideal.ofBits .f32 0x42E00000#32) = ((Real.sqrt 112 : ℝ) : EReal) := by
  rw [ofBits_112, Ideal.sqrt_coe, if_neg (by norm_num)]

theorem sqrt_112_ne_zero : Real.sqrt 112 ≠ 0 := by
  rw [Ne, Real.sqrt_eq_zero']; norm_num

/-- A SOFTMAX OVER ONE ENTRY IS ONE: for a real score `s`, with the maximum taken from `-∞` over the one entry (and
    once more against `-∞`), `e^(s - max) / (0 + e^(s - max)) = 1`. -/
theorem softmax_single {s : EReal} (hs : IsReal s) :
    Ideal.div (Ideal.exp (s - max ⊥ (max s ⊥))) (0 + Ideal.exp (s - max ⊥ (max s ⊥))) = 1 := by
  rw [max_bot_right, max_bot_left, hs.sub_self, exp_zero, zero_add, div_one_one]

end Cert.LibExtReal

end
-- ==== Proof.KI.Pay.lean ====
/-
  The attention kernel's payloads read at an index, at the exact-real reading of floats.

  The second kernel keeps, per query row, a running maximum, a running denominator and a running numerator row. Each
  grid step takes a tile of 2048 keys: it forms the scores of the 1024 query rows against the tile (a matmul over the
  128 feature lanes), raises the running maximum by the tile's row maximum, rescales the two accumulators by the
  exponential of the old maximum minus the new one, and adds the tile's exponentials (to the denominator) and their
  products with the value rows (to the numerator). Here each stored value is read at one element as a closed expression
  in the elements of the loaded blocks: pointwise operations read through, and each layout operation, lane reduction and
  matmul is read by one small lemma.
-/
import proofs.«103892_j78185584656634_2_alg».proof.Proof.Gen.KernelIdeal.Skeleton
import proofs.«103892_j78185584656634_2_alg».proof.Proof.LibExtReal
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Ideal

set_option maxRecDepth 16384

noncomputable section

open scoped BigOperators

namespace Cert.KernelIdeal.Hand

open Cert.KernelIdeal Cert.KernelIdeal.Gen Idealize.ShloMosaic Idealize.ShloMosaic.ValueIdx

/-! ## Two keepdims layout operations read at an index -/

/-- An `[a]` array cast to the column `[a, 1]` reads, at `(i, u)`, the operand at `i`, whatever the unit coordinate. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The initial values: the maximum starts at `-∞`, the two accumulators at zero -/

/-- The running maximum is initialised to `-∞`. -/
theorem pay4_at (r : Fin 1024) : k1_pay4 (F := Ideal) (ix2 r (0 : Fin 1)) = ⊥ := by
  unfold k1_pay4
  show shapeCast S1024x1 (broadcast S1024x1 (Scalar.ofBits (F := Ideal) .f32 0xFF800000#32)) shapeCasts_S1024x1_S1024x1
    (ix2 r (0 : Fin 1)) = ⊥
  rw [shapeCast_self]
  exact Cert.LibExtReal.ofBits_neg_inf

/-- The running denominator is initialised to zero. -/
theorem pay5_at (r : Fin 1024) : k1_pay5 (F := Ideal) (ix2 r (0 : Fin 1)) = 0 := by
  unfold k1_pay5
  show shapeCast S1024x1 (broadcast S1024x1 (Scalar.ofBits (F := Ideal) .f32 0x00000000#32)) shapeCasts_S1024x1_S1024x1
    (ix2 r (0 : Fin 1)) = 0
  rw [shapeCast_self]
  exact Ideal.ofBits_zero_f32

/-- The running numerator is initialised to zero. -/
theorem pay6_at (r : Fin 1024) (d : Fin 128) : k1_pay6 (F := Ideal) (ix2 r d) = 0 := by
  unfold k1_pay6
  show shapeCast S1024x128 (broadcast S1024x128 (Scalar.ofBits (F := Ideal) .f32 0x00000000#32)) shapeCasts_S1024x128_S1024x128
    (ix2 r d) = 0
  rw [shapeCast_self]
  exact Ideal.ofBits_zero_f32

/-! ## The values written back unchanged -/

/-- The new maximum is stored as it is. -/
theorem pay2_at (v : FVec Ideal S1024x1 .f32) (r : Fin 1024) :
    k1_pay2 (F := Ideal) v (ix2 r (0 : Fin 1)) = v (ix2 r (0 : Fin 1)) := by
  unfold k1_pay2
  show shapeCast S1024x1 v shapeCasts_S1024x1_S1024x1 (ix2 r (0 : Fin 1)) = _
  rw [shapeCast_self]

/-- The new numerator is stored as it is. -/
theorem pay1_at (u : FVec Ideal S1024x128 .f32) (r : Fin 1024) (d : Fin 128) :
    k1_pay1 (F := Ideal) u (ix2 r d) = u (ix2 r d) := by
  unfold k1_pay1
  show shapeCast S1024x128 u shapeCasts_S1024x128_S1024x128 (ix2 r d) = _
  rw [shapeCast_self]

/-! ## The final quotient -/

/-- At the last step the output is the numerator divided by the row's denominator. -/
theorem pay3_at (xa : Vec Ideal S1024x128 .f32) (xl : Vec Ideal S1024x1 .f32) (r : Fin 1024) (d : Fin 128) :
    k1_pay3 (F := Ideal) xa xl (ix2 r d) = Ideal.div (xa (ix2 r d)) (xl (ix2 r (0 : Fin 1))) := by
  unfold k1_pay3
  show Ideal.div (xa (ix2 r d)) (broadcastTo S1024x128 xl broadcasts_S1024x1_S1024x128 (ix2 r d)) = _
  rw [broadcastTo_a1_ab_apply]

/-! ## The scores: the matmul of the query block with the key tile over the feature lanes -/

/-- The score of query row `r` against key row `j` of the tile: the inner product over the 128 feature lanes. -/
def sc (x0 : Vec Ideal S1024x128 .f32) (x1 : Vec Ideal S2048x128 .f32) (r : Fin 1024) (j : Fin 2048) : EReal :=
  ∑ e : Fin 128, (x0 (ix2 r e) : EReal) * (x1 (ix2 j e) : EReal)

/-- The new running maximum of row `r`: the old one raised by the largest score of the row against the tile. -/
def newMax (x0 : Vec Ideal S1024x128 .f32) (x1 : Vec Ideal S2048x128 .f32) (xm : Vec Ideal S1024x1 .f32) (r : Fin 1024) :
    EReal :=
  max (xm (ix2 r (0 : Fin 1)) : EReal) ((Finset.univ : Finset (Fin 2048)).fold max ⊥ (fun j => sc x0 x1 r j))

/-- The scores' left operand is read at the output's row (axis 0 is not contracted) … -/
theorem scoreDot_lhs_0 (i : S1024x2048.Idx) (q : dot_S1024x128_S2048x128_S1024x2048_1_1_0_0_n_n.contr.Idx) :
    (dot_S1024x128_S2048x128_S1024x2048_1_1_0_0_n_n.lhsIdx i q 0).val = (i 0).val := by
  unfold DotDims.lhsIdx
  rw [dif_neg (show ¬(0 : Fin S1024x128.rank) ∈ dot_S1024x128_S2048x128_S1024x2048_1_1_0_0_n_n.lhsBatch by decide),
    dif_pos (show (0 : Fin S1024x128.rank) ∈ dot_S1024x128_S2048x128_S1024x2048_1_1_0_0_n_n.lhsNonContracting by decide)]
  rfl
/-- … and at the contraction's coordinate on axis 1; -/
theorem scoreDot_lhs_1 (i : S1024x2048.Idx) (q : dot_S1024x128_S2048x128_S1024x2048_1_1_0_0_n_n.contr.Idx) :
    (dot_S1024x128_S2048x128_S1024x2048_1_1_0_0_n_n.lhsIdx i q 1).val = (q ⟨0, by decide⟩).val :=
  dot_S1024x128_S2048x128_S1024x2048_1_1_0_0_n_n.lhsIdx_val_of_single rfl i q
/-- the right operand at the output's column on its axis 0 (the key row) … -/
theorem scoreDot_rhs_0 (i : S1024x2048.Idx) (q : dot_S1024x128_S2048x128_S1024x2048_1_1_0_0_n_n.contr.Idx) :
    (dot_S1024x128_S2048x128_S1024x2048_1_1_0_0_n_n.rhsIdx i q 0).val = (i 1).val := by
  unfold DotDims.rhsIdx
  rw [dif_neg (show ¬(0 : Fin S2048x128.rank) ∈ dot_S1024x128_S2048x128_S1024x2048_1_1_0_0_n_n.rhsBatch by decide),
    dif_pos (show (0 : Fin S2048x128.rank) ∈ dot_S1024x128_S2048x128_S1024x2048_1_1_0_0_n_n.rhsNonContracting by decide)]
  rfl
/-- … and at the contraction's coordinate on axis 1. -/
theorem scoreDot_rhs_1 (i : S1024x2048.Idx) (q : dot_S1024x128_S2048x128_S1024x2048_1_1_0_0_n_n.contr.Idx) :
    (dot_S1024x128_S2048x128_S1024x2048_1_1_0_0_n_n.rhsIdx i q 1).val = (q ⟨0, by decide⟩).val :=
  dot_S1024x128_S2048x128_S1024x2048_1_1_0_0_n_n.rhsIdx_val_of_single rfl i q

/-- The scores' matmul at `(r, j)` is the inner product of query row `r` with key row `j`. -/
theorem pay8_at (x0 : Vec Ideal S1024x128 .f32) (x1 : Vec Ideal S2048x128 .f32) (r : Fin 1024) (j : Fin 2048) :
    k1_pay8 (F := Ideal) x0 x1 (ix2 r j) = sc x0 x1 r j := by
  unfold k1_pay8 k1_pay7 sc
  refine (Ideal.matmul_constant_zero_apply dot_S1024x128_S2048x128_S1024x2048_1_1_0_0_n_n (some .fp32) _ _ (ix2 r j)).trans ?_
  rw [← Equiv.sum_comp (contrEquiv1 dot_S1024x128_S2048x128_S1024x2048_1_1_0_0_n_n 128 rfl rfl).symm]
  refine Finset.sum_congr rfl fun k _ => ?_
  have hk := contrEquiv1_symm_val dot_S1024x128_S2048x128_S1024x2048_1_1_0_0_n_n 128 rfl rfl k
  have el : dot_S1024x128_S2048x128_S1024x2048_1_1_0_0_n_n.lhsIdx (ix2 r j)
      ((contrEquiv1 dot_S1024x128_S2048x128_S1024x2048_1_1_0_0_n_n 128 rfl rfl).symm k) = ix2 r k :=
    funext fun a => Fin.ext (by
      match a with
      | ⟨0, _⟩ => exact scoreDot_lhs_0 _ _
      | ⟨1, _⟩ => exact (scoreDot_lhs_1 _ _).trans hk)
  have er : dot_S1024x128_S2048x128_S1024x2048_1_1_0_0_n_n.rhsIdx (ix2 r j)
      ((contrEquiv1 dot_S1024x128_S2048x128_S1024x2048_1_1_0_0_n_n 128 rfl rfl).symm k) = ix2 j k :=
    funext fun a => Fin.ext (by
      match a with
      | ⟨0, _⟩ => exact scoreDot_rhs_0 _ _
      | ⟨1, _⟩ => exact (scoreDot_rhs_1 _ _).trans hk)
  rw [el, er, shapeCast_self, shapeCast_self]

/-! ## The new running maximum -/

/-- The index of the score matrix over row `r` with lane `j` inserted is `(r, j)`. -/
theorem lift_row (r : Fin 1024) (j : Fin 2048) :
    reduces_S1024x2048_S1024.lift (ix1 r) j = ix2 r j :=
  funext fun c => Fin.ext (by
    match c with
    | ⟨0, _⟩ => rfl
    | ⟨1, _⟩ => rfl)

/-- The row maximum of the scores, from `-∞`, at row `r`: the fold of `max` over the tile's 2048 keys. -/
theorem rowMax_at (src : FVec Ideal S1024x2048 .f32) (hφ : FKind.Formats .f32)
    (hacc : (0xFF800000#32 : BitVec 32) = 0xFF800000#32) (r : Fin 1024) :
    multiReduction .maximumf [1] S1024 src 0xFF800000#32 reduces_S1024x2048_S1024 hφ hacc (ix1 r)
      = (Finset.univ : Finset (Fin 2048)).fold max ⊥ (fun j => src (ix2 r j)) := by
  refine (Ideal.multiReduction_maximumf_single src 0xFF800000#32 reduces_S1024x2048_S1024 hφ hacc (ix1 r)).trans ?_
  show (Finset.univ : Finset (Fin 2048)).fold max (Ideal.ofBits .f32 0xFF800000#32)
      (fun j => src (reduces_S1024x2048_S1024.lift (ix1 r) j)) = _
  rw [Cert.LibExtReal.ofBits_neg_inf]
  exact congrArg (fun f => (Finset.univ : Finset (Fin 2048)).fold max ⊥ f) (funext fun j => congrArg src (lift_row r j))

/-- THE NEW MAXIMUM at row `r`: the old maximum raised by the row's largest score against the tile. -/
theorem pay9_at (x0 : Vec Ideal S1024x128 .f32) (x1 : Vec Ideal S2048x128 .f32) (xm : Vec Ideal S1024x1 .f32) (r : Fin 1024) :
    k1_pay9 (F := Ideal) x0 x1 xm (ix2 r (0 : Fin 1)) = newMax x0 x1 xm r := by
  unfold k1_pay9 newMax
  refine (maximumf_apply _ _ _).trans (congrArg (max (xm (ix2 r (0 : Fin 1)) : EReal)) ?_)
  refine (shapeCast_a_a1_apply _ shapeCasts_S1024_S1024x1 r (0 : Fin 1)).trans ?_
  refine (rowMax_at _ _ _ r).trans ?_
  exact congrArg (fun f => (Finset.univ : Finset (Fin 2048)).fold max ⊥ f) (funext fun j => pay8_at x0 x1 r j)

/-! ## The rescaling factor and the tile's exponentials -/

/-- The factor that rescales both accumulators of row `r`: the exponential of the old maximum minus the new one. -/
theorem pay10_at (x0 : Vec Ideal S1024x128 .f32) (x1 : Vec Ideal S2048x128 .f32) (xm : Vec Ideal S1024x1 .f32) (r : Fin 1024) :
    k1_pay10 (F := Ideal) x0 x1 xm xm (ix2 r (0 : Fin 1))
      = Ideal.exp ((xm (ix2 r (0 : Fin 1)) : EReal) - newMax x0 x1 xm r) := by
  unfold k1_pay10
  show Ideal.exp ((xm (ix2 r (0 : Fin 1)) : EReal) - k1_pay9 (F := Ideal) x0 x1 xm (ix2 r (0 : Fin 1))) = _
  rw [pay9_at]

/-- The tile's exponentials: of each score minus the row's new maximum. -/
theorem pay11_at (x0 : Vec Ideal S1024x128 .f32) (x1 : Vec Ideal S2048x128 .f32) (xm : Vec Ideal S1024x1 .f32) (r : Fin 1024)
    (j : Fin 2048) :
    k1_pay11 (F := Ideal) x0 x1 xm (ix2 r j) = Ideal.exp (sc x0 x1 r j - newMax x0 x1 xm r) := by
  unfold k1_pay11
  show Ideal.exp (k1_pay8 (F := Ideal) x0 x1 (ix2 r j)
      - broadcastTo S1024x2048 (k1_pay9 (F := Ideal) x0 x1 xm) broadcasts_S1024x1_S1024x2048 (ix2 r j)) = _
  rw [broadcastTo_a1_ab_apply, pay8_at, pay9_at]

/-- The key tile is used as loaded. -/
theorem pay7_at (x1 : Vec Ideal S2048x128 .f32) (j : Fin 2048) (d : Fin 128) :
    k1_pay7 (F := Ideal) x1 (ix2 j d) = x1 (ix2 j d) := by
  unfold k1_pay7
  show shapeCast S2048x128 x1 shapeCasts_S2048x128_S2048x128 (ix2 j d) = _
  rw [shapeCast_self]

/-! ## The new denominator -/

/-- A lane sum of a score-shaped matrix, from zero, at row `r`: the sum over the tile's 2048 keys. -/
theorem rowSum_at (src : FVec Ideal S1024x2048 .f32) (hφ : FKind.Formats .f32)
    (hacc : (0x00000000#32 : BitVec 32) = 0x00000000#32) (r : Fin 1024) :
    multiReduction .add [1] S1024 src 0x00000000#32 reduces_S1024x2048_S1024 hφ hacc (ix1 r)
      = ∑ j : Fin 2048, src (ix2 r j) := by
  refine (Ideal.multiReduction_add_single src 0x00000000#32 reduces_S1024x2048_S1024 hφ hacc (ix1 r)).trans ?_
  show ∑ j : Fin 2048, src (reduces_S1024x2048_S1024.lift (ix1 r) j) = _
  exact Finset.sum_congr rfl fun j _ => congrArg src (lift_row r j)

/-- THE NEW DENOMINATOR at row `r`: the old one rescaled, plus the sum of the tile's exponentials. -/
theorem pay12_at (x0 : Vec Ideal S1024x128 .f32) (x1 : Vec Ideal S2048x128 .f32) (xm xl : Vec Ideal S1024x1 .f32) (r : Fin 1024) :
    k1_pay12 (F := Ideal) x0 x1 xm xm xl (ix2 r (0 : Fin 1))
      = Ideal.exp ((xm (ix2 r (0 : Fin 1)) : EReal) - newMax x0 x1 xm r) * (xl (ix2 r (0 : Fin 1)) : EReal)
        + ∑ j : Fin 2048, Ideal.exp (sc x0 x1 r j - newMax x0 x1 xm r) := by
  unfold k1_pay12
  refine (congrFun (shapeCast_self _ shapeCasts_S1024x1_S1024x1) (ix2 r (0 : Fin 1))).trans ?_
  refine (addf_apply _ _ _).trans ?_
  have h1 : mulf (k1_pay10 (F := Ideal) x0 x1 xm xm) xl (ix2 r (0 : Fin 1))
      = Ideal.exp ((xm (ix2 r (0 : Fin 1)) : EReal) - newMax x0 x1 xm r) * (xl (ix2 r (0 : Fin 1)) : EReal) :=
    (mulf_apply _ _ _).trans (congrArg (fun a : EReal => a * (xl (ix2 r (0 : Fin 1)) : EReal)) (pay10_at x0 x1 xm r))
  have h2 : shapeCast S1024x1 (multiReduction .add [1] S1024 (k1_pay11 (F := Ideal) x0 x1 xm) 0x00000000#32
        reduces_S1024x2048_S1024 (.inl rfl) rfl) shapeCasts_S1024_S1024x1 (ix2 r (0 : Fin 1))
      = ∑ j : Fin 2048, Ideal.exp (sc x0 x1 r j - newMax x0 x1 xm r) :=
    (shapeCast_a_a1_apply _ shapeCasts_S1024_S1024x1 r (0 : Fin 1)).trans
      ((rowSum_at _ _ _ r).trans (Finset.sum_congr rfl fun j _ => pay11_at x0 x1 xm r j))
  exact congrArg₂ (fun a b : EReal => a + b) h1 h2

/-! ## The new numerator -/

/-- The second matmul's left operand (the exponentials) is read at the output's row … -/
theorem pvDot_lhs_0 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide),
    dif_pos (show (0 : Fin S1024x2048.rank) ∈ dot_S1024x2048_S2048x128_S1024x128_1_0_0_1_n_n.lhsNonContracting by decide)]
  rfl
/-- … and at the contraction's coordinate (the key) on axis 1; -/
theorem pvDot_lhs_1 (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q
/-- the right operand (the value rows) at the contraction's coordinate on axis 0 … -/
theorem pvDot_rhs_0 (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q
/-- … and at the output's column on axis 1. -/
theorem pvDot_rhs_1 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide),
    dif_pos (show (1 : Fin S2048x128.rank) ∈ dot_S1024x2048_S2048x128_S1024x128_1_0_0_1_n_n.rhsNonContracting by decide)]
  rfl

/-- The second matmul into the zero splat at `(r, d)`: the sum over the tile's keys of the left operand's row `r` times
    the right operand's column `d`. -/
theorem pvMatmul_at (p : FVec Ideal S1024x2048 .bf16) (w : FVec Ideal S2048x128 .bf16) (r : Fin 1024) (d : Fin 128) :
    FloatOps.matmul dot_S1024x2048_S2048x128_S1024x128_1_0_0_1_n_n none p w (constant (F := Ideal) S1024x128 .f32 0x00000000#32)
        (ix2 r d)
      = ∑ j : Fin 2048, (p (ix2 r j) : EReal) * (w (ix2 j d) : EReal) := by
  refine (Ideal.matmul_constant_zero_apply dot_S1024x2048_S2048x128_S1024x128_1_0_0_1_n_n none p w (ix2 r d)).trans ?_
  rw [← Equiv.sum_comp (contrEquiv1 dot_S1024x2048_S2048x128_S1024x128_1_0_0_1_n_n 2048 rfl rfl).symm]
  refine Finset.sum_congr rfl fun k _ => ?_
  have hk := contrEquiv1_symm_val dot_S1024x2048_S2048x128_S1024x128_1_0_0_1_n_n 2048 rfl rfl k
  have el : dot_S1024x2048_S2048x128_S1024x128_1_0_0_1_n_n.lhsIdx (ix2 r d)
      ((contrEquiv1 dot_S1024x2048_S2048x128_S1024x128_1_0_0_1_n_n 2048 rfl rfl).symm k) = ix2 r k :=
    funext fun a => Fin.ext (by
      match a with
      | ⟨0, _⟩ => exact pvDot_lhs_0 _ _
      | ⟨1, _⟩ => exact (pvDot_lhs_1 _ _).trans hk)
  have er : dot_S1024x2048_S2048x128_S1024x128_1_0_0_1_n_n.rhsIdx (ix2 r d)
      ((contrEquiv1 dot_S1024x2048_S2048x128_S1024x128_1_0_0_1_n_n 2048 rfl rfl).symm k) = ix2 k d :=
    funext fun a => Fin.ext (by
      match a with
      | ⟨0, _⟩ => exact (pvDot_rhs_0 _ _).trans hk
      | ⟨1, _⟩ => exact pvDot_rhs_1 _ _)
  rw [el, er]

/-- THE NEW NUMERATOR at `(r, d)`: the old one rescaled, plus the tile's exponentials times the value rows' lane `d`. -/
theorem pay13_at (x0 : Vec Ideal S1024x128 .f32) (x1 : Vec Ideal S2048x128 .f32) (xm : Vec Ideal S1024x1 .f32)
    (xa : Vec Ideal S1024x128 .f32) (r : Fin 1024) (d : Fin 128) :
    k1_pay13 (F := Ideal) x0 x1 xm xm xa (ix2 r d)
      = Ideal.exp ((xm (ix2 r (0 : Fin 1)) : EReal) - newMax x0 x1 xm r) * (xa (ix2 r d) : EReal)
        + ∑ j : Fin 2048, Ideal.exp (sc x0 x1 r j - newMax x0 x1 xm r) * (x1 (ix2 j d) : EReal) := by
  unfold k1_pay13
  refine (addf_apply _ _ _).trans ?_
  have h1 : mulf (broadcastTo S1024x128 (k1_pay10 (F := Ideal) x0 x1 xm xm) broadcasts_S1024x1_S1024x128) xa (ix2 r d)
      = Ideal.exp ((xm (ix2 r (0 : Fin 1)) : EReal) - newMax x0 x1 xm r) * (xa (ix2 r d) : EReal) :=
    (mulf_apply _ _ _).trans (congrArg (fun a : EReal => a * (xa (ix2 r d) : EReal))
      ((broadcastTo_a1_ab_apply _ broadcasts_S1024x1_S1024x128 r d).trans (pay10_at x0 x1 xm r)))
  have h2 : FloatOps.matmul dot_S1024x2048_S2048x128_S1024x128_1_0_0_1_n_n none
        (truncf .bf16 (k1_pay11 (F := Ideal) x0 x1 xm) bitsLt_bf16_f32) (truncf .bf16 (k1_pay7 (F := Ideal) x1) bitsLt_bf16_f32)
        (constant (F := Ideal) S1024x128 .f32 0x00000000#32) (ix2 r d)
      = ∑ j : Fin 2048, Ideal.exp (sc x0 x1 r j - newMax x0 x1 xm r) * (x1 (ix2 j d) : EReal) :=
    (pvMatmul_at _ _ r d).trans (Finset.sum_congr rfl fun j _ => by
      show (k1_pay11 (F := Ideal) x0 x1 xm (ix2 r j) : EReal) * (k1_pay7 (F := Ideal) x1 (ix2 j d) : EReal) = _
      rw [pay11_at, pay7_at])
  exact congrArg₂ (fun a b : EReal => a + b) h1 h2

end Cert.KernelIdeal.Hand

end
-- ==== Proof.KI.V1Blocks.lean ====
/-
  The attention kernel's windows, read by coordinates.

  The grid is (8, 4): point `t` has query tile `t / 4` and key tile `t % 4`.  Window 0's block at `t` is rows
  `(t / 4)·1024 … (t / 4)·1024 + 1023` of its [8192, 128] array, window 1's is rows `(t % 4)·2048 … (t % 4)·2048 + 2047` of
  its array (a block's coordinate in the array is always block index × block size + the coordinate inside the block), and
  the result window's block at `t` is rows `(t / 4)·1024 …` of the result, written back exactly at the points with
  `t % 4 = 3`.  Every row `n` of the result lies in the block written back at `t = 4·(n / 1024) + 3`; so if every
  written-back block is its rows of one array `G`, the result array ends holding `G`.
-/
import proofs.«103892_j78185584656634_2_alg».proof.Proof.KI.R1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-- The grid has 32 points. -/
theorem lt32 (t : Fin cfg1.N) : t.val < 32 := lt_of_lt_of_eq t.isLt (show cfg1.N = 32 from N_1)

/-- Row `r` of the query tile of point `t`. -/
abbrev qrow (t : Fin cfg1.N) (r : Fin 1024) : Fin 8192 :=
  ⟨(t.val / 4) * 1024 + r.val, by have := lt32 t; have := r.isLt; omega⟩

/-- Row `j` of the key tile of point `t`. -/
abbrev krow (t : Fin cfg1.N) (j : Fin 2048) : Fin 8192 :=
  ⟨(t.val % 4) * 2048 + j.val, by have := j.isLt; omega⟩

/-- The three index maps over the grid, decided: the query tile, the key tile, the query tile; column block 0. -/
theorem idx_facts1 : ∀ t : Fin cfg1.N,
    win1_0.index t (0 : Fin 2) = t.val / 4 ∧ win1_0.index t (1 : Fin 2) = 0
    ∧ win1_1.index t (0 : Fin 2) = t.val % 4 ∧ win1_1.index t (1 : Fin 2) = 0
    ∧ win1_2.index t (0 : Fin 2) = t.val / 4 ∧ win1_2.index t (1 : Fin 2) = 0 :=
  (by decide +kernel : ∀ t : Fin grid1.N, _)

/-- Window 0's block at point `t`: rows of the query tile. -/
theorem iblk1_0_at (c : Dev nD) (t : Fin cfg1.N) (r : Fin 1024) (e : Fin 128) :
    iblk1 V c 0 t (ix2 r e) = V c (Pipeline.arrRef spec1 0) (ix2 (qrow t r) e) := by
  obtain ⟨e0, e1, -⟩ := idx_facts1 t
  unfold iblk1
  rw [View.read_apply]
  show V c (Pipeline.arrRef spec1 0) _ = V c (Pipeline.arrRef spec1 0) _
  refine congrArg (V c (Pipeline.arrRef spec1 0)) (funext fun a => Fin.ext ?_)
  match a with
  | ⟨0, _⟩ => show win1_0.index t (0 : Fin 2) * 1024 + 1 * r.val = (t.val / 4) * 1024 + r.val; rw [e0]; omega
  | ⟨1, _⟩ => show win1_0.index t (1 : Fin 2) * 128 + 1 * e.val = e.val; rw [e1]; omega

/-- Window 1's block at point `t`: rows of the key tile. -/
theorem iblk1_1_at (c : Dev nD) (t : Fin cfg1.N) (j : Fin 2048) (e : Fin 128) :
    iblk1 V c 1 t (ix2 j e) = V c (Pipeline.arrRef spec1 1) (ix2 (krow t j) e) := by
  obtain ⟨-, -, e0, e1, -⟩ := idx_facts1 t
  unfold iblk1
  rw [View.read_apply]
  show V c (Pipeline.arrRef spec1 1) _ = V c (Pipeline.arrRef spec1 1) _
  refine congrArg (V c (Pipeline.arrRef spec1 1)) (funext fun a => Fin.ext ?_)
  match a with
  | ⟨0, _⟩ => show win1_1.index t (0 : Fin 2) * 2048 + 1 * j.val = (t.val % 4) * 2048 + j.val; rw [e0]; omega
  | ⟨1, _⟩ => show win1_1.index t (1 : Fin 2) * 128 + 1 * e.val = e.val; rw [e1]; omega

/-- An index of the result array is in point `t`'s block iff its row is one of the query tile's. -/
theorem mem_blk1_2 (t : Fin cfg1.N) (i : S8192x128.Idx) :
    i ∈ ((cfg1.win 2).blk t).view.set ↔ (t.val / 4) * 1024 ≤ (i 0).val ∧ (i 0).val < (t.val / 4) * 1024 + 1024 := by
  obtain ⟨-, -, -, -, e0, e1⟩ := idx_facts1 t
  show i ∈ ((View.whole main_v2).slice (win1_2.rect t)).set ↔ _
  rw [View.set_slice_whole, Rect.mem_set_unit]
  constructor
  · intro h
    have h0 : win1_2.index t (0 : Fin 2) * 1024 ≤ (i 0).val ∧ (i 0).val < win1_2.index t (0 : Fin 2) * 1024 + 1024 := h 0
    rw [e0] at h0; exact h0
  · intro h a
    match a with
    | ⟨0, _⟩ => show win1_2.index t (0 : Fin 2) * 1024 ≤ (i 0).val ∧ (i 0).val < win1_2.index t (0 : Fin 2) * 1024 + 1024; rw [e0]; exact h
    | ⟨1, _⟩ => show win1_2.index t (1 : Fin 2) * 128 ≤ (i 1).val ∧ (i 1).val < win1_2.index t (1 : Fin 2) * 128 + 128; rw [e1]; have : (i 1).val < 128 := (i 1).isLt; omega

/-- THE RESULT ARRAY AFTER THE RUN: if at every point that writes back (`t % 4 = 3`) the result window's buffer holds
    rows `(t / 4)·1024 …` of one array `G`, the result array ends holding `G`. -/
theorem arr1_2_of (c : Dev nD) (G : Buf (Elt F) ((cfg1.win 2).arr.view.loc (c.tc : Thread nD τ)))
    (hG : ∀ t : Fin cfg1.N, t.val % 4 = 3 → ∀ (r : Fin 1024) (d : Fin 128),
      (dat1 V c).after 2 t (ix2 r d) = G (ix2 (qrow t r) d)) :
    (dat1 V c).arrAt 2 cfg1.N = G := by
  refine (dat1 V c).arrAt_eq_of_cover 2 G (fun t hf => ?_) (fun i => ?_)
  · obtain ⟨-, -, -, -, e0, e1⟩ := idx_facts1 t
    show (cfg1.win 2).cut (grid1.coords t) ((dat1 V c).after 2 t) = _
    funext y
    obtain ⟨r, d, rfl⟩ : ∃ (r : Fin 1024) (d : Fin 128), y = ix2 r d := ⟨y 0, y 1, eq_ix2 y⟩
    rw [View.read_apply]
    show (dat1 V c).after 2 t (ix2 r d) = G _
    rw [hG t ((flush1_2 t).mp hf) r d]
    refine congrArg G (funext fun a => Fin.ext ?_)
    match a with
    | ⟨0, _⟩ => show (t.val / 4) * 1024 + r.val = win1_2.index t (0 : Fin 2) * 1024 + 1 * r.val; rw [e0]; omega
    | ⟨1, _⟩ => show d.val = win1_2.index t (1 : Fin 2) * 128 + 1 * d.val; rw [e1]; omega
  · have hi : (i 0).val < 8192 := (i 0).isLt
    have hN : cfg1.N = 32 := N_1
    refine ⟨⟨4 * ((i 0).val / 1024) + 3, by omega⟩, (flush1_2 _).mpr (by show (4 * ((i 0).val / 1024) + 3) % 4 = 3; omega), ?_⟩
    rw [mem_blk1_2]
    show (4 * ((i 0).val / 1024) + 3) / 4 * 1024 ≤ (i 0).val ∧ (i 0).val < (4 * ((i 0).val / 1024) + 3) / 4 * 1024 + 1024
    omega

end Cert.KernelIdeal.Hand

end
-- ==== Proof.Spec2.lean ====
/-
  The streamed softmax-weighted sum over ANY two arrays `hw`, `h` of shape [8192, 128]: scores `∑ e, hw n e * h m e`, the
  row streamed in four tiles of 2048 keys with a running maximum, denominator and numerator. With `hw` the projected
  features through the bilinear matrix and `h` the projected features this is the streamed result `Gk`, by unfolding.
  The state after the first `k` tiles is `stUpTo n k`; after all four it is `finalOf n`.
-/
import proofs.«103892_j78185584656634_2_alg».proof.Proof.Spec

noncomputable section

open Idealize.ShloMosaic Idealize.ShloMosaic.ValueIdx

namespace Cert.Attn

variable (hw h : Fin 8192 → Fin 128 → EReal)

def scoreOf (n m : Fin 8192) : EReal := ∑ e : Fin 128, hw n e * h m e

def tileMaxOf (n : Fin 8192) (k : Fin 4) : EReal :=
  (Finset.univ : Finset (Fin 2048)).fold max ⊥ (fun j => scoreOf hw h n (key k j))

def stepOf (n : Fin 8192) (k : Fin 4) (s : St) : St :=
  let mx' := max s.mx (tileMaxOf hw h n k)
  let a := Ideal.exp (s.mx - mx')
  ⟨mx',
   a * s.den + ∑ j : Fin 2048, Ideal.exp (scoreOf hw h n (key k j) - mx'),
   fun d => a * s.num d + ∑ j : Fin 2048, Ideal.exp (scoreOf hw h n (key k j) - mx') * h (key k j) d⟩

/-- The state after the first `k` tiles (tile indices taken modulo 4). -/
def stUpTo (n : Fin 8192) : ℕ → St
  | 0 => St.init
  | k + 1 => stepOf hw h n ⟨k % 4, Nat.mod_lt _ (by decide)⟩ (stUpTo n k)

def finalOf (n : Fin 8192) : St :=
  stepOf hw h n 3 (stepOf hw h n 2 (stepOf hw h n 1 (stepOf hw h n 0 St.init)))

theorem stUpTo_four (n : Fin 8192) : stUpTo hw h n 4 = finalOf hw h n := rfl

def GkOf (n : Fin 8192) (d : Fin 128) : EReal :=
  Ideal.div ((finalOf hw h n).num d) (finalOf hw h n).den

theorem Gk_eq_GkOf (X : Fin 8192 → Fin 256 → EReal) (W : Fin 128 → Fin 256 → EReal) (b : Fin 128 → EReal)
    (A : Fin 128 → Fin 128 → EReal) (n : Fin 8192) (d : Fin 128) :
    Gk X W b A n d = GkOf (featA X W b A) (feat X W b) n d := rfl

end Cert.Attn

end
-- ==== Proof.KI.V1.lean ====
/-
  The attention kernel's value at the exact-real reading: with `hw`, `h` the two [8192, 128] arrays it finds (its windows 0
  and 1), after the point with query tile `q` and key tile `k` the three scratch buffers hold, at row `r`, the streamed state
  of query `n = q·1024 + r` after tiles `0 … k` — the running maximum, the running denominator, the running numerator —,
  by induction along the points: the first key tile starts from the initial state (the body re-initialises the scratch),
  the others from what the point before left. At the last key tile the output block holds numerator over denominator, so
  the result array, assembled from the blocks written back there, is `GkOf hw h`.
-/
import proofs.«103892_j78185584656634_2_alg».proof.Proof.KI.R1Pieces
import proofs.«103892_j78185584656634_2_alg».proof.Proof.KI.Pay
import proofs.«103892_j78185584656634_2_alg».proof.Proof.KI.V1Blocks
import proofs.«103892_j78185584656634_2_alg».proof.Proof.Spec2

set_option maxRecDepth 16384

noncomputable section

namespace Cert.KernelIdeal.Hand

open Cert.KernelIdeal Cert.KernelIdeal.Gen Cert.Attn
open Idealize.ShloMosaic Idealize.ShloMosaic.TcCoe Idealize.ShloMosaic.ValueIdx
open Idealize.SL.Sem

/-! ## One tile, at one row: the body's arithmetic is the streamed step -/

/-- If at row `r` the carried buffers hold the state `s`, the block scores are the scores of query `n` against tile `k` and
    the key block's rows are tile `k`'s features, then the new maximum, denominator and numerator at row `r` are the state
    after the step. -/
theorem step_at (x0 : Vec Ideal S1024x128 .f32) (x1 : Vec Ideal S2048x128 .f32) (xm xl : Vec Ideal S1024x1 .f32)
    (xa : Vec Ideal S1024x128 .f32) (hw h : Fin 8192 → Fin 128 → EReal) (n : Fin 8192) (k : Fin 4) (s : St) (r : Fin 1024)
    (hsc : ∀ j, sc x0 x1 r j = scoreOf hw h n (key k j)) (hx1 : ∀ j d, x1 (ix2 j d) = h (key k j) d)
    (hm : xm (ix2 r 0) = s.mx) (hl : xl (ix2 r 0) = s.den) (ha : ∀ d, xa (ix2 r d) = s.num d) :
    k1_pay2 (F := Ideal) (k1_pay9 x0 x1 xm) (ix2 r 0) = (stepOf hw h n k s).mx
    ∧ k1_pay12 (F := Ideal) x0 x1 xm xm xl (ix2 r 0) = (stepOf hw h n k s).den
    ∧ ∀ d, k1_pay1 (F := Ideal) (k1_pay13 x0 x1 xm xm xa) (ix2 r d) = (stepOf hw h n k s).num d := by
  have hM : newMax x0 x1 xm r = (stepOf hw h n k s).mx := by
    unfold newMax stepOf tileMaxOf
    rw [hm]
    simp only [hsc]
  refine ⟨?_, ?_, fun d => ?_⟩
  · rw [pay2_at, pay9_at, hM]
  · rw [pay12_at, hM, hm, hl]
    simp only [hsc]
    rfl
  · rw [pay1_at, pay13_at, hM, hm, ha]
    simp only [hsc, hx1]
    rfl

variable (V : (c : Dev nD) → (b : Ref sig .tc) → Buf (Elt Ideal) ((c : Thread nD τ).loc b))

/-- The two arrays the kernel finds, as functions of their two coordinates. -/
def hwOf (c : Dev nD) : Fin 8192 → Fin 128 → EReal := fun n e => V c (Pipeline.arrRef spec1 0) (ix2 n e)
def hOf (c : Dev nD) : Fin 8192 → Fin 128 → EReal := fun n e => V c (Pipeline.arrRef spec1 1) (ix2 n e)

/-- Tile `t % 4`'s key `j` is row `(t % 4)·2048 + j`. -/
theorem key_krow (t : Fin cfg1.N) (j : Fin 2048) : key ⟨(t.val % 4) % 4, Nat.mod_lt _ (by decide)⟩ j = krow t j := by
  apply Fin.ext
  show (t.val % 4) % 4 * 2048 + j.val = (t.val % 4) * 2048 + j.val
  rw [Nat.mod_mod]

/-- A block score is the score of the block's query row against the block's key row. -/
theorem sc_blocks (c : Dev nD) (t : Fin cfg1.N) (r : Fin 1024) (j : Fin 2048) :
    sc (iblk1 V c 0 t) (iblk1 V c 1 t) r j
      = scoreOf (hwOf V c) (hOf V c) (qrow t r) (key ⟨(t.val % 4) % 4, Nat.mod_lt _ (by decide)⟩ j) := by
  unfold sc scoreOf hwOf hOf
  rw [key_krow]
  refine Finset.sum_congr rfl fun e _ => ?_
  rw [iblk1_0_at V c t r e, iblk1_1_at V c t j e]

theorem x1_blocks (c : Dev nD) (t : Fin cfg1.N) (j : Fin 2048) (d : Fin 128) :
    iblk1 V c 1 t (ix2 j d) = hOf V c (key ⟨(t.val % 4) % 4, Nat.mod_lt _ (by decide)⟩ j) d := by
  unfold hOf
  rw [key_krow, iblk1_1_at V c t j d]

/-! ## The scratch buffers along the points -/

/-- What the invariant says of the three scratch components at row `r`. -/
def HoldsAt (c : Dev nD) (t : Fin cfg1.N) (r : Fin 1024) : Prop :=
  (outsAt1 V c t.val t.isLt).2.1 (ix2 r 0) = (stUpTo (hwOf V c) (hOf V c) (qrow t r) (t.val % 4 + 1)).mx
  ∧ (outsAt1 V c t.val t.isLt).2.2.1 (ix2 r 0) = (stUpTo (hwOf V c) (hOf V c) (qrow t r) (t.val % 4 + 1)).den
  ∧ ∀ d, (outsAt1 V c t.val t.isLt).2.2.2 (ix2 r d) = (stUpTo (hwOf V c) (hOf V c) (qrow t r) (t.val % 4 + 1)).num d

theorem holds (c : Dev nD) : ∀ (n : ℕ) (hn : n < cfg1.N) (r : Fin 1024), HoldsAt V c ⟨n, hn⟩ r := by
  intro n
  induction n with
  | zero =>
    intro hn r
    unfold HoldsAt
    rw [outsAt1_A V c ⟨0, hn⟩ (Nat.zero_mod _)]
    dsimp only
    rw [sout1_A_0_eq, sout1_A_1_eq, sout1_A_2_eq]
    exact step_at _ _ _ _ _ _ _ _ _ St.init r (sc_blocks V c ⟨0, hn⟩ r) (x1_blocks V c ⟨0, hn⟩)
      (pay4_at r) (pay5_at r) (fun d => pay6_at r d)
  | succ n ih =>
    intro hn r
    have hN : n + 1 < 32 := lt_of_lt_of_eq hn (show cfg1.N = 32 from N_1)
    unfold HoldsAt
    by_cases h0 : (n + 1) % 4 = 0
    · rw [outsAt1_A V c ⟨n + 1, hn⟩ h0]
      dsimp only
      rw [sout1_A_0_eq, sout1_A_1_eq, sout1_A_2_eq]
      have hs : stUpTo (hwOf V c) (hOf V c) (qrow ⟨n + 1, hn⟩ r) ((n + 1) % 4 + 1)
          = stepOf (hwOf V c) (hOf V c) (qrow ⟨n + 1, hn⟩ r) ⟨((n + 1) % 4) % 4, Nat.mod_lt _ (by decide)⟩ St.init := by
        show stepOf _ _ _ _ (stUpTo _ _ _ ((n + 1) % 4)) = _
        rw [h0]; rfl
      rw [hs]
      exact step_at _ _ _ _ _ _ _ _ _ St.init r (sc_blocks V c ⟨n + 1, hn⟩ r) (x1_blocks V c ⟨n + 1, hn⟩)
        (pay4_at r) (pay5_at r) (fun d => pay6_at r d)
    · have hprev := ih (Nat.lt_of_succ_lt hn) r
      unfold HoldsAt at hprev
      have hq : qrow ⟨n, Nat.lt_of_succ_lt hn⟩ r = qrow ⟨n + 1, hn⟩ r := by
        apply Fin.ext
        show n / 4 * 1024 + r.val = (n + 1) / 4 * 1024 + r.val
        have : n / 4 = (n + 1) / 4 := by omega
        rw [this]
      have hk : n % 4 + 1 = (n + 1) % 4 := by omega
      rw [hq, hk] at hprev
      obtain ⟨pm, pl, pa⟩ := hprev
      have hs : stUpTo (hwOf V c) (hOf V c) (qrow ⟨n + 1, hn⟩ r) ((n + 1) % 4 + 1)
          = stepOf (hwOf V c) (hOf V c) (qrow ⟨n + 1, hn⟩ r) ⟨((n + 1) % 4) % 4, Nat.mod_lt _ (by decide)⟩
              (stUpTo (hwOf V c) (hOf V c) (qrow ⟨n + 1, hn⟩ r) ((n + 1) % 4)) := rfl
      rw [hs]
      by_cases h1 : (n + 1) % 4 = 3
      · rw [outsAt1_C V c ⟨n + 1, hn⟩ h0 h1]
        dsimp only
        rw [sout1_C_0_eq, sout1_C_1_eq, sout1_C_2_eq]
        exact step_at _ _ _ _ _ _ _ _ _ _ r (sc_blocks V c ⟨n + 1, hn⟩ r) (x1_blocks V c ⟨n + 1, hn⟩) pm pl pa
      · rw [outsAt1_B V c ⟨n + 1, hn⟩ h0 h1]
        dsimp only
        rw [sout1_B_0_eq, sout1_B_1_eq, sout1_B_2_eq]
        exact step_at _ _ _ _ _ _ _ _ _ _ r (sc_blocks V c ⟨n + 1, hn⟩ r) (x1_blocks V c ⟨n + 1, hn⟩) pm pl pa

/-! ## The output block at the last key tile, and the result array -/

/-- At a point of the last key tile the output block's row `r` holds the streamed result of query `q·1024 + r`. -/
theorem out_at (c : Dev nD) (t : Fin cfg1.N) (h3 : t.val % 4 = 3) (r : Fin 1024) (d : Fin 128) :
    (dat1 V c).after 2 t (ix2 r d) = GkOf (hwOf V c) (hOf V c) (qrow t r) d := by
  have h0 : ¬t.val % 4 = 0 := by omega
  have hz : t.val ≠ 0 := fun h => h0 (by rw [h])
  obtain ⟨n, hn⟩ := t
  cases n with
  | zero => exact absurd rfl hz
  | succ n =>
    have hprev := holds V c n (Nat.lt_of_succ_lt hn) r
    unfold HoldsAt at hprev
    have hq : qrow ⟨n, Nat.lt_of_succ_lt hn⟩ r = qrow ⟨n + 1, hn⟩ r := by
      apply Fin.ext
      show n / 4 * 1024 + r.val = (n + 1) / 4 * 1024 + r.val
      have h3' : (n + 1) % 4 = 3 := h3
      have : n / 4 = (n + 1) / 4 := by omega
      rw [this]
    have h3' : (n + 1) % 4 = 3 := h3
    have hk : n % 4 + 1 = 3 := by omega
    rw [hq, hk] at hprev
    obtain ⟨pm, pl, pa⟩ := hprev
    rw [after1_2, outsAt1_C V c ⟨n + 1, hn⟩ h0 h3]
    dsimp only
    rw [out1_C_2_eq, pay3_at]
    obtain ⟨-, hl, ha⟩ := step_at _ _ _ _ _ (hwOf V c) (hOf V c) (qrow ⟨n + 1, hn⟩ r) ⟨3, by decide⟩
      (stUpTo (hwOf V c) (hOf V c) (qrow ⟨n + 1, hn⟩ r) 3) r
      (by have := sc_blocks V c ⟨n + 1, hn⟩ r; simpa only [h3'] using this)
      (by have := x1_blocks V c ⟨n + 1, hn⟩; simpa only [h3'] using this) pm pl pa
    exact (congrArg₂ Ideal.div (ha d) hl).trans rfl

/-- THE RESULT ARRAY: what the attention kernel's write-backs leave is the streamed result of every query. -/
theorem arr1_2 (c : Dev nD) :
    (dat1 (F := Ideal) V c).arrAt 2 cfg1.N = fun i => GkOf (hwOf V c) (hOf V c) (i 0) (i 1) :=
  arr1_2_of V c _ (fun t h3 r d => out_at V c t h3 r d)

end Cert.KernelIdeal.Hand

end
-- ==== Proof.KI.Value.lean ====
/-
  The idealized kernel program's run with its result array named: the streamed softmax-weighted sum `GkArr` of the four
  argument arrays that are read. The attention kernel's result is `GkOf hw h` of the two arrays it finds; those are what
  the projection kernel's write-backs left, the linear layer `feat` and its product with the bilinear matrix `featA`, of
  the arguments as launched (the bias through the host reshape).
-/
import proofs.«103892_j78185584656634_2_alg».proof.Proof.KI.Run
import proofs.«103892_j78185584656634_2_alg».proof.Proof.KI.V0
import proofs.«103892_j78185584656634_2_alg».proof.Proof.KI.V0b
import proofs.«103892_j78185584656634_2_alg».proof.Proof.KI.V1

set_option maxRecDepth 16384

noncomputable section

namespace Cert.KernelIdeal.Hand

open Cert.KernelIdeal Cert.KernelIdeal.Gen Cert.Attn
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- The arguments and the bias row as the projection kernel finds them. -/
theorem V1_arg1 (c : Dev nD) : V1 m ρ c main_arg1 = m ((c : Thread nD τ).loc main_arg1) := v0_keeps_arg1 m c
theorem V1_arg2 (c : Dev nD) : V1 m ρ c main_arg2 = m ((c : Thread nD τ).loc main_arg2) := v0_keeps_arg2 m c
theorem V1_arg4 (c : Dev nD) : V1 m ρ c main_arg4 = m ((c : Thread nD τ).loc main_arg4) := v0_keeps_arg4 m c
theorem V1_bias (c : Dev nD) (d : Fin 128) :
    (V1 m ρ c main_v0 : S1x128.Idx → EReal) (ix2 (0 : Fin 1) d) = m ((c : Thread nD τ).loc main_arg3) (ix1 d) :=
  v0_reshape m c d

/-- The array of projected features the attention kernel finds. -/
theorem hOf_eq (c : Dev nD) :
    hOf (V2 m ρ) c = feat (cur2 (m ((c : Thread nD τ).loc main_arg1))) (cur2 (m ((c : Thread nD τ).loc main_arg2)))
      (cur1 (m ((c : Thread nD τ).loc main_arg3))) := by
  funext n d
  unfold hOf
  refine (congrFun ((W2_arr m ρ c 4).trans (arr0_4 (V1 m ρ) c)) (ix2 n d)).trans ?_
  show feat _ _ _ n d = _
  rw [V1_arg1, V1_arg2]
  unfold feat
  exact congrArg (HAdd.hAdd _) (V1_bias m ρ c d)

/-- The array of features through the bilinear matrix the attention kernel finds. -/
theorem hwOf_eq (c : Dev nD) :
    hwOf (V2 m ρ) c = featA (cur2 (m ((c : Thread nD τ).loc main_arg1))) (cur2 (m ((c : Thread nD τ).loc main_arg2)))
      (cur1 (m ((c : Thread nD τ).loc main_arg3))) (cur2 (m ((c : Thread nD τ).loc main_arg4))) := by
  funext n e
  unfold hwOf
  refine (congrFun ((W2_arr m ρ c 5).trans (arr0_5 (V1 m ρ) c)) (ix2 n e)).trans ?_
  show featA _ _ _ _ n e = _
  rw [V1_arg1, V1_arg2, V1_arg4]
  unfold featA feat
  refine Finset.sum_congr rfl fun x _ => ?_
  refine congrArg (· * _) ?_
  exact congrArg (HAdd.hAdd _) (V1_bias m ρ c x)

/-- THE KERNEL PROGRAM'S VALUE: every weakly fair execution terminates with the result array at `GkArr` of the arguments
    as launched, and the arguments unchanged. -/
theorem run_Gk : θ_run defs (onTc (τ := τ) (main (F := Ideal))) ⟨m, fun _ => 0, ρ⟩ (fun r => ∀ c : Dev nD,
      r.2.mem ((c.tc : Thread nD τ).loc main_v2) = GkArr (m ((c.tc : Thread nD τ).loc main_arg1)) (m ((c.tc : Thread nD τ).loc main_arg2))
          (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (by
      rw [arr1_2 (V2 m ρ) c, hOf_eq, hwOf_eq]
      rfl), (h c).2⟩) (run_value m ρ)

end Cert.KernelIdeal.Hand

end
-- ==== Proof.LibFinSum.lean ====
/-
  A sum over `Fin (m * n)` as a double sum over quotient and remainder.

  Every `i < m * n` is `a * n + b` for exactly one pair `a < m`, `b < n`, so in any commutative monoid the sum of `f` over
  `Fin (m * n)` is the sum over `a` of the sum over `b` of `f (a * n + b)`. This is the only re-indexing a tiled sum needs.
-/
import Mathlib.Algebra.BigOperators.Fin
import Mathlib.Logic.Equiv.Fin.Basic

open scoped BigOperators

namespace Cert.FinSum

/-- `a * n + b < m * n` for `a < m`, `b < n`. -/
theorem lt_mul {m n : ℕ} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right n a.isLt

/-- The sum over `Fin k`, `k = m * n`, is the sum over quotients `a` of the sum over remainders `b` at `a * n + b`. -/
theorem sum_mul {M : Type*} [AddCommMonoid M] (m n k : ℕ) (hk : m * n = k) (f : Fin k → M) :
    ∑ i : Fin k, f i = ∑ a : Fin m, ∑ b : Fin n, f ⟨a.val * n + b.val, hk ▸ lt_mul a b⟩ := by
  subst hk
  rw [← finProdFinEquiv.sum_comp, Fintype.sum_prod_type]
  refine Finset.sum_congr rfl fun a _ => Finset.sum_congr rfl fun b _ => congrArg f (Fin.ext ?_)
  show b.val + n * a.val = a.val * n + b.val
  rw [Nat.mul_comm, Nat.add_comm]

/-- A sequence built by "start from `z` plus the first term, then add one more term at each step" is, at step `n`,
    `z` plus the sum of the first `n + 1` terms. -/
theorem sum_of_steps {M : Type*} [AddCommMonoid M] (N : ℕ) (a : (n : ℕ) → n < N → M) (p : Fin N → M) (z : M)
    (h0 : ∀ h : 0 < N, a 0 h = z + p ⟨0, h⟩)
    (hs : ∀ (n : ℕ) (h : n + 1 < N), a (n + 1) h = a n (Nat.lt_of_succ_lt h) + p ⟨n + 1, h⟩) :
    ∀ (n : ℕ) (h : n < N), a n h = z + ∑ t : Fin (n + 1), p ⟨t.val, lt_of_lt_of_le t.isLt h⟩
  | 0, h => by
    rw [h0 h, Fin.sum_univ_one]
    rfl
  | n + 1, h => by
    rw [hs n h, sum_of_steps N a p z h0 hs n (Nat.lt_of_succ_lt h), add_assoc]
    refine congrArg (z + ·) ?_
    exact (Fin.sum_univ_castSucc (fun t : Fin (n + 1 + 1) => p ⟨t.val, lt_of_lt_of_le t.isLt h⟩)).symm

end Cert.FinSum
-- ==== Proof.RefSide.lean ====
/-
  The reference's side: what its run leaves in the result array, read index by index.

  The reference computes, for query row `n` and feature `d`, the softmax of row `n` of the bilinear scores against the
  features.  Stage by stage: the linear layer `h = X·Wᵀ + b`; the scores `∑ k, (∑ j, A j k * h n j) * h m k`; the row's
  maximum from `-∞` (and once more against `-∞`); the shifted exponentials; their sum from zero; the quotient; the
  weighted sum of the features.  Each stage is read at an index built from coordinates, and the composition is the
  whole-row arrangement `Gr` of the specification; the only arithmetic law used is commutativity of the product.
-/
import proofs.«103892_j78185584656634_2_alg».proof.Defs
import proofs.«103892_j78185584656634_2_alg».proof.Proof.Gen.ReferenceIdeal.Run
import proofs.«103892_j78185584656634_2_alg».proof.Proof.Gen.ReferenceIdeal.Read
import proofs.«103892_j78185584656634_2_alg».proof.Proof.Spec
import proofs.«103892_j78185584656634_2_alg».proof.Proof.LibFinSum
import proofs.«103892_j78185584656634_2_alg».proof.Proof.LibExtReal

noncomputable section

namespace Cert.RefSide

open Idealize.ShloMosaic Idealize.ShloMosaic.ValueIdx Idealize.SL.Sem Cert.ReferenceIdeal Cert.ReferenceIdeal.Read Cert.Attn

variable (x1 : (⟨S8192x256, .f32⟩ : BufTy).Contents (Elt Ideal)) (x2 : (⟨S128x256, .f32⟩ : BufTy).Contents (Elt Ideal))
  (x3 : (⟨S128, .f32⟩ : BufTy).Contents (Elt Ideal)) (x4 : (⟨S128x128, .f32⟩ : BufTy).Contents (Elt Ideal))

/-- The linear layer at row `n`, feature `d`: the row of the node features against row `d` of the weights (read through
    the transpose), plus the bias (read through its two broadcasts). -/
theorem feat_at (n : Fin 8192) (d : Fin 128) :
    val_main_v4 (F := Ideal) x1 x2 x3 (ix2 n d) = feat (cur2 x1) (cur2 x2) (cur1 x3) n d := by
  rw [val_main_v4_apply, val_main_v1_apply, val_main_v3_apply, val_main_v2_apply]
  simp only [val_main_v0_apply, Ideal.addf_def]
  unfold feat
  refine congrArg₂ (· + ·) (Finset.sum_congr rfl fun k _ => ?_) ?_
  · refine congrArg₂ (· * ·) (congrArg x1 ?_) (congrArg x2 ?_)
    · exact funext fun a => Fin.ext (by match a with | ⟨0, _⟩ => rfl | ⟨1, _⟩ => rfl)
    · exact funext fun a => Fin.ext (by match a with | ⟨0, _⟩ => rfl | ⟨1, _⟩ => rfl)
  · exact congrArg x3 (funext fun a => Fin.ext (by match a with | ⟨0, _⟩ => rfl))

/-- The bilinear score of key `m` for query `n`: the two contractions over the features, the inner one through the
    bilinear form's matrix.  The reference multiplies the matrix entry on the left; the product commutes. -/
theorem score_at (n m : Fin 8192) :
    val_main_v6 (F := Ideal) x1 x2 x3 x4 (ix2 n m) = score (cur2 x1) (cur2 x2) (cur1 x3) (cur2 x4) n m := by
  rw [val_main_v6_apply]
  unfold score featA
  refine Finset.sum_congr rfl fun k _ => ?_
  have el : lidx_main_v6 (ix2 n m) k = ix2 k n := funext fun a => Fin.ext (by match a with | ⟨0, _⟩ => rfl | ⟨1, _⟩ => rfl)
  have er : ridx_main_v6 (ix2 n m) k = ix2 m k := funext fun a => Fin.ext (by match a with | ⟨0, _⟩ => rfl | ⟨1, _⟩ => rfl)
  rw [el, er, feat_at, val_main_v5_apply]
  refine congrArg (· * _) (Finset.sum_congr rfl fun j _ => ?_)
  have el' : lidx_main_v5 (ix2 k n) j = ix2 j k := funext fun a => Fin.ext (by match a with | ⟨0, _⟩ => rfl | ⟨1, _⟩ => rfl)
  have er' : ridx_main_v5 (ix2 k n) j = ix2 n j := funext fun a => Fin.ext (by match a with | ⟨0, _⟩ => rfl | ⟨1, _⟩ => rfl)
  rw [el', er', feat_at]
  exact mul_comm _ _

/-- The reduced index `n` with key `k` put back on the dropped axis is (n, k). -/
theorem lift_row (h : S8192x8192.Reduces [1] S8192) (n : Fin 8192) (k : Fin (S8192x8192.size 1)) :
    h.lift (ix1 n) k = ix2 n (⟨k.val, k.isLt⟩ : Fin 8192) := by
  funext c; apply Fin.ext
  fin_cases c <;> rfl

/-- A row's maximum as the reference takes it: the fold of `max` from `-∞` over the row. -/
theorem rowFold_at (y : FVec Ideal S8192x8192 .f32) (n : Fin 8192) :
    Host.reduce (FloatOps.maximumf (F := Ideal) (φ := .f32)) y (val_main_cst (F := Ideal)) Gen.reducesTo_S8192x8192_S8192_d1 Gen.h_S_ (ix1 n)
      = (Finset.univ : Finset (Fin 8192)).fold max ⊥ (fun m => y (ix2 n m)) := by
  have hR : S8192x8192.Reduces [1] S8192 := by decide
  refine (Host.reduce_eq_fold_single (FloatOps.maximumf (F := Ideal) (φ := .f32)) y _ Gen.reducesTo_S8192x8192_S8192_d1 hR Gen.h_S_ (ix1 n)).trans ?_
  rw [val_main_cst_apply]
  have hf : (y ∘ hR.lift (ix1 n)) = fun m : Fin 8192 => y (ix2 n m) := funext fun k => congrArg y (lift_row hR n k)
  rw [hf]
  exact congrArg (fun b => Finset.fold max b (fun m : Fin 8192 => y (ix2 n m)) Finset.univ) LibExtReal.ofBits_neg_inf

/-- The row's maximum: the fold of `max` from `-∞` over the row's scores, then once more against `-∞`. -/
theorem rowMax_at (n : Fin 8192) :
    val_main_v9 (F := Ideal) x1 x2 x3 x4 (ix1 n) = rowMax (cur2 x1) (cur2 x2) (cur1 x3) (cur2 x4) n := by
  rw [val_main_v9_apply, val_main_v8_apply, val_main_cst_0_apply]
  unfold val_main_v7 rowMax
  have hs : ∀ m : Fin 8192, val_main_v6 (F := Ideal) x1 x2 x3 x4 (ix2 n m)
      = score (cur2 x1) (cur2 x2) (cur1 x3) (cur2 x4) n m := score_at x1 x2 x3 x4 n
  generalize val_main_v6 (F := Ideal) x1 x2 x3 x4 = y at hs ⊢
  refine (congrArg₂ max LibExtReal.ofBits_neg_inf (rowFold_at y n)).trans ?_
  exact congrArg (fun f => max ⊥ (Finset.fold max ⊥ f Finset.univ)) (funext hs)

/-- The shifted exponential of key `m` in row `n`: the row's maximum reaches every key through its two broadcasts. -/
theorem exp_at (n m : Fin 8192) :
    val_main_v13 (F := Ideal) x1 x2 x3 x4 (ix2 n m)
      = Ideal.exp (score (cur2 x1) (cur2 x2) (cur1 x3) (cur2 x4) n m - rowMax (cur2 x1) (cur2 x2) (cur1 x3) (cur2 x4) n) := by
  rw [val_main_v13_apply, val_main_v12_apply, val_main_v11_apply, val_main_v10_apply, score_at]
  have e : idx_main_v10 (idx_main_v11 (ix2 n m)) = ix1 n := funext fun a => Fin.ext (by match a with | ⟨0, _⟩ => rfl)
  rw [e, rowMax_at]
  simp only [Ideal.hostUnary_exp_def, Ideal.subf_def]

/-- The softmax's denominator: from zero, the sum over the row of the shifted exponentials. -/
theorem rowDen_at (n : Fin 8192) :
    val_main_v14 (F := Ideal) x1 x2 x3 x4 (ix1 n) = rowDen (cur2 x1) (cur2 x2) (cur1 x3) (cur2 x4) n := by
  rw [val_main_v14_apply, val_main_cst_1_apply]
  unfold rowDen
  refine congrArg₂ (· + ·) Ideal.ofBits_zero_f32 (Finset.sum_congr rfl fun k _ => ?_)
  have e : idx_main_v14 (ix1 n) k = ix2 n k := funext fun a => Fin.ext (by match a with | ⟨0, _⟩ => rfl | ⟨1, _⟩ => rfl)
  rw [e, exp_at]

/-- The result at query `n`, feature `d`: the softmax weights of row `n` against column `d` of the features. -/
theorem Gr_at (n : Fin 8192) (d : Fin 128) :
    val_main_v18 (F := Ideal) x1 x2 x3 x4 (ix2 n d) = Gr (cur2 x1) (cur2 x2) (cur1 x3) (cur2 x4) n d := by
  rw [val_main_v18_apply]
  unfold Gr
  refine Finset.sum_congr rfl fun k _ => ?_
  have el : lidx_main_v18 (ix2 n d) k = ix2 n k := funext fun a => Fin.ext (by match a with | ⟨0, _⟩ => rfl | ⟨1, _⟩ => rfl)
  have er : ridx_main_v18 (ix2 n d) k = ix2 k d := funext fun a => Fin.ext (by match a with | ⟨0, _⟩ => rfl | ⟨1, _⟩ => rfl)
  rw [el, er, feat_at, val_main_v17_apply, val_main_v16_apply, val_main_v15_apply, exp_at]
  have e : idx_main_v15 (idx_main_v16 (ix2 n k)) = ix1 n := funext fun a => Fin.ext (by match a with | ⟨0, _⟩ => rfl)
  rw [e, rowDen_at]
  simp only [Ideal.hostDivf_def]

/-- THE REFERENCE IS THE WHOLE-ROW ARRANGEMENT: its result array is `Gr` of the four arrays it reads. -/
theorem ref_is_Gr (x1 : (⟨Cert.ReferenceIdeal.S8192x256, .f32⟩ : BufTy).Contents (Elt Ideal))
    (x2 : (⟨Cert.ReferenceIdeal.S128x256, .f32⟩ : BufTy).Contents (Elt Ideal))
    (x3 : (⟨Cert.ReferenceIdeal.S128, .f32⟩ : BufTy).Contents (Elt Ideal))
    (x4 : (⟨Cert.ReferenceIdeal.S128x128, .f32⟩ : BufTy).Contents (Elt Ideal)) :
    Cert.ReferenceIdeal.Read.val_main_v18 (F := Ideal) x1 x2 x3 x4 = Cert.Attn.GrArr x1 x2 x3 x4 := by
  funext i
  obtain ⟨n, d, rfl⟩ : ∃ (n : Fin 8192) (d : Fin 128), i = ix2 n d := ⟨i 0, i 1, eq_ix2 i⟩
  exact Gr_at x1 x2 x3 x4 n d

/-- THE REFERENCE'S RUN: every weakly fair execution terminates with the result array at `Gr` of the four arrays it reads
    (as they were at launch) and the five arguments unchanged. -/
theorem ref_run [Cert.ReferenceIdeal.Facts]
    (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
      r.2.mem ((c.tc : Thread Cert.ReferenceIdeal.nD Cert.ReferenceIdeal.τ).loc Cert.ReferenceIdeal.main_v18)
        = Cert.Attn.GrArr (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg3))
            (m' ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) :=
  (θ_run _ _ _).mono
    (fun _ h c => ⟨(h c).1.trans ((Read.val_main_v18_eq m' c).trans (ref_is_Gr _ _ _ _)), (h c).2⟩)
    (Cert.ReferenceIdeal.Value.run (F := Ideal) m' ρ')

end Cert.RefSide

end
-- ==== Proof.Finite.lean ====
/-
  Finiteness of the arguments: the stated precondition says, of each of the five argument arrays, that every entry's
  absolute value is below `+∞` (an `all` of the comparisons, the five conjoined).  An extended real whose absolute value is
  below `+∞` is a real number; so every entry of every array that is read is real.
-/
import proofs.«103892_j78185584656634_2_alg».proof.Defs
import proofs.«103892_j78185584656634_2_alg».proof.Proof.LibExtReal
import Idealize.ShloMosaic.Lib.ReduceAll
import Idealize.ShloMosaic.Lib.ValueIdx
import Idealize.ShloMosaic.Lib.Pipeline.Value

noncomputable section

namespace Cert.Finite

open Idealize.ShloMosaic Idealize.ShloMosaic.ValueIdx Idealize.SL.Sem Cert.LibExtReal

/-- The scalar shape has one index. -/
instance : Subsingleton Cert.Pre_finite_inputs.S_.Idx := ⟨fun a b => funext fun d => d.elim0⟩

/-- The f32 pattern of `+inf` denotes `⊤`. -/
theorem ofBits_pos_inf : Ideal.ofBits .f32 0x7F800000#32 = ⊤ := by
  simp [Ideal.ofBits, Ideal.ieee]

/-- An extended real whose absolute value `max x (-x)` is below `+∞` is a real number. -/
theorem isReal_of_abs_lt_top (x : EReal) (h : max x (-x) < ⊤) : IsReal x := by
  induction x using EReal.rec with
  | bot => simp at h
  | coe r => exact ⟨r, rfl⟩
  | top => simp at h

/-- One entry of the comparison array `|x| < +∞` that is 1: the entry of `x` there is real. -/
theorem elt_real {s : Shape} (x : FVec Ideal s .f32)
    (hb : Cert.Pre_finite_inputs.S_.BroadcastsInDim s (![] : Fin 0 → Fin s.rank)) (i : s.Idx)
    (h : cmpf .olt (Host.absf x) (broadcastInDim s ![] hb (constant Cert.Pre_finite_inputs.S_ .f32 0x7F800000#32)) i = 1#1) :
    IsReal (x i) := by
  rw [cmpf_apply, broadcastInDim_apply _ hb _ i ix0 (fun a => a.elim0)] at h
  have h' : Ideal.cmp .olt (max (x i) (-(x i))) (Ideal.ofBits .f32 0x7F800000#32) = 1#1 := h
  rw [ofBits_pos_inf] at h'
  refine isReal_of_abs_lt_top (x i) ?_
  by_contra hn
  simp [Ideal.cmp, hn] at h'

/-- EVERY ENTRY OF THE FOUR ARRAYS THAT ARE READ IS REAL, on every device, under the stated precondition. -/
theorem real_args [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread _ _).loc Cert.KernelIdeal.main_arg1) i))
    ∧ (∀ i, IsReal (m ((c.tc : Thread _ _).loc Cert.KernelIdeal.main_arg2) i))
    ∧ (∀ i, IsReal (m ((c.tc : Thread _ _).loc Cert.KernelIdeal.main_arg3) i))
    ∧ (∀ i, IsReal (m ((c.tc : Thread _ _).loc Cert.KernelIdeal.main_arg4) i)) := by
  have e := congrFun (h c) ValueIdx.ix0
  unfold Cert.Pre_finite_inputs.fn Cert.Pre_finite_inputs.fn_part1 at e
  simp only [andi, IntOp.andi_eq_one] at e
  obtain ⟨⟨⟨⟨-, h1⟩, h2⟩, h3⟩, h4⟩ := e
  exact ⟨fun i => elt_real _ _ i (Host.reduce_andi_all _ _ _ _ _ h1 i),
    fun i => elt_real _ _ i (Host.reduce_andi_all _ _ _ _ _ h2 i),
    fun i => elt_real _ _ i (Host.reduce_andi_all _ _ _ _ _ h3 i),
    fun i => elt_real _ _ i (Host.reduce_andi_all _ _ _ _ _ h4 i)⟩

end Cert.Finite

end
-- ==== Proof.Algebra.lean ====
/-
  The streamed softmax equals the whole-row softmax when every score and feature is a real number.

  Everything is moved to the real numbers: a finite sum, product, difference and exponential of reals is the
  coercion of the same expression over the reals, a maximum (from `-∞`) over a nonempty finite family of reals is a
  real, and the softmax of a real row does not depend on the real number the scores are shifted by.
-/
import proofs.«103892_j78185584656634_2_alg».proof.Proof.Spec
import proofs.«103892_j78185584656634_2_alg».proof.Proof.LibFinSum
import proofs.«103892_j78185584656634_2_alg».proof.Proof.LibExtReal

noncomputable section

open Idealize.ShloMosaic
open Cert.LibExtReal

namespace Cert.Attn

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty]; rfl
  | insert a s ha ih => rw [Finset.sum_insert ha, Finset.sum_insert ha, EReal.coe_add, ih]

/-- The maximum, from `-∞`, of a nonempty finite family of reals is a real: it is below a real bound of the family
    and above one of its members. -/
theorem fold_max_real {ι : Type*} (s : Finset ι) (hs : s.Nonempty) (g : ι → ℝ) :
    IsReal (s.fold max ⊥ (fun i => (g i : EReal))) := by
  obtain ⟨a, ha⟩ := hs
  have h1 : s.fold max ⊥ (fun i => (g i : EReal)) ≤ ((s.sup' ⟨a, ha⟩ g : ℝ) : EReal) :=
    (Finset.fold_max_le _).2 ⟨bot_le, fun x hx => EReal.coe_le_coe_iff.2 (Finset.le_sup' g hx)⟩
  have h2 : ((g a : ℝ) : EReal) ≤ s.fold max ⊥ (fun i => (g i : EReal)) :=
    (Finset.le_fold_max _).2 (Or.inr ⟨a, ha, le_rfl⟩)
  refine ⟨(s.fold max ⊥ (fun i => (g i : EReal))).toReal, (EReal.coe_toReal ?_ ?_).symm⟩
  · exact ne_top_of_le_ne_top (EReal.coe_ne_top _) h1
  · exact ne_bot_of_le_ne_bot (EReal.coe_ne_bot _) h2

/-- The larger of two reals is a real. -/
theorem isReal_max {x y : EReal} (hx : IsReal x) (hy : IsReal y) : IsReal (max x y) := by
  rcases max_choice x y with h | h <;> rw [h] <;> assumption

variable (X : Fin 8192 → Fin 256 → EReal) (W : Fin 128 → Fin 256 → EReal) (b : Fin 128 → EReal)
  (A : Fin 128 → Fin 128 → EReal)

section real
variable (hX : ∀ n k, IsReal (X n k)) (hW : ∀ d k, IsReal (W d k)) (hb : ∀ d, IsReal (b d))
  (hA : ∀ d e, IsReal (A d e))
include hX hW hb

theorem feat_real (n : Fin 8192) (d : Fin 128) : IsReal (feat X W b n d) :=
  (IsReal.sum _ _ fun k _ => (hX n k).mul (hW d k)).add (hb d)

include hA

theorem featA_real (n : Fin 8192) (e : Fin 128) : IsReal (featA X W b A n e) :=
  IsReal.sum _ _ fun d _ => (feat_real X W b hX hW hb n d).mul (hA d e)

theorem score_real (n m : Fin 8192) : IsReal (score X W b A n m) :=
  IsReal.sum _ _ fun e _ => (featA_real X W b A hX hW hb hA n e).mul (feat_real X W b hX hW hb m e)

end real

/-! ## The real identities -/

/-- The softmax-weighted sum of a real row does not depend on the real number the scores are shifted by:
    `e^(σ - μ) = e^(ρ - μ) e^(σ - ρ)`, and the common factor cancels between numerator and denominator. -/
theorem softmax_shift {ι : Type*} [Fintype ι] [Nonempty ι] (σ f : ι → ℝ) (μ ρ : ℝ) :
    (∑ m, Real.exp (σ m - μ) * f m) * (1 / ∑ m, Real.exp (σ m - μ))
      = ∑ m, Real.exp (σ m - ρ) * (1 / ∑ m, Real.exp (σ m - ρ)) * f m := by
  have hD : (∑ m, Real.exp (σ m - ρ)) ≠ 0 :=
    (Finset.sum_pos (fun m _ => Real.exp_pos _) Finset.univ_nonempty).ne'
  have hc : Real.exp (ρ - μ) ≠ 0 := (Real.exp_pos _).ne'
  have e : ∀ m, Real.exp (σ m - μ) = Real.exp (ρ - μ) * Real.exp (σ m - ρ) := fun m => by
    rw [← Real.exp_add]; congr 1; ring
  have hN : ∑ m, Real.exp (σ m - μ) * f m = Real.exp (ρ - μ) * ∑ m, Real.exp (σ m - ρ) * f m := by
    rw [Finset.mul_sum]; exact Finset.sum_congr rfl fun m _ => by rw [e m, mul_assoc]
  have hDμ : ∑ m, Real.exp (σ m - μ) = Real.exp (ρ - μ) * ∑ m, Real.exp (σ m - ρ) := by
    rw [Finset.mul_sum]; exact Finset.sum_congr rfl fun m _ => e m
  have hR : ∑ m, Real.exp (σ m - ρ) * (1 / ∑ m, Real.exp (σ m - ρ)) * f m
      = (∑ m, Real.exp (σ m - ρ) * f m) * (1 / ∑ m, Real.exp (σ m - ρ)) := by
    rw [Finset.sum_mul]; exact Finset.sum_congr rfl fun m _ => by ring
  rw [hN, hDμ, hR]
  field_simp

/-- Rescaling the sums carried over the tiles seen so far from the shift `μ` to the shift `μ'`. -/
theorem rescale (T : Finset (Fin 4)) (F : Fin 4 → Fin 2048 → ℝ) (g : Fin 4 → Fin 2048 → ℝ) (μ μ' : ℝ) :
    Real.exp (μ - μ') * ∑ t ∈ T, ∑ j : Fin 2048, Real.exp (F t j - μ) * g t j
      = ∑ t ∈ T, ∑ j : Fin 2048, Real.exp (F t j - μ') * g t j := by
  rw [Finset.mul_sum]
  refine Finset.sum_congr rfl fun t _ => ?_
  rw [Finset.mul_sum]
  refine Finset.sum_congr rfl fun j _ => ?_
  rw [← mul_assoc, ← Real.exp_add]
  congr 2; ring

/-- The four tiles of 2048 keys are all 8192 keys. -/
theorem sum_tiles (F : Fin 8192 → ℝ) : ∑ t : Fin 4, ∑ j : Fin 2048, F (key t j) = ∑ m, F m :=
  (Cert.FinSum.sum_mul 4 2048 8192 (by norm_num) F).symm

/-! ## The streamed state -/

section core
variable (n : Fin 8192) (σ : Fin 8192 → ℝ) (φ : Fin 8192 → Fin 128 → ℝ)
  (hσ : ∀ m, score X W b A n m = (σ m : EReal)) (hφ : ∀ m d, feat X W b m d = (φ m d : EReal))

include hσ in
/-- A tile's maximum is a real. -/
theorem tileMax_real (k : Fin 4) : IsReal (tileMax X W b A n k) := by
  unfold tileMax
  simp only [hσ]
  exact fold_max_real _ ⟨0, Finset.mem_univ _⟩ _

include hσ in
/-- The row's maximum is a real. -/
theorem rowMax_real : IsReal (rowMax X W b A n) := by
  unfold rowMax
  rw [max_bot_left]
  simp only [hσ]
  exact fold_max_real _ ⟨0, Finset.mem_univ _⟩ _

/-- The carried state after the tiles in `T`: the maximum is some real `μ`, the denominator is the sum over the keys
    of those tiles of `e^(σ - μ)`, the numerator the sum of `e^(σ - μ) φ`. -/
def Inv (T : Finset (Fin 4)) (s : St) : Prop :=
  ∃ μ : ℝ, s.mx = (μ : EReal) ∧
    s.den = ((∑ t ∈ T, ∑ j : Fin 2048, Real.exp (σ (key t j) - μ) : ℝ) : EReal) ∧
    ∀ d, s.num d = ((∑ t ∈ T, ∑ j : Fin 2048, Real.exp (σ (key t j) - μ) * φ (key t j) d : ℝ) : EReal)

include hσ hφ in
/-- One tile over the reals: when the new maximum is the real `μ'`, the rescaling factor the real `α` and the carried
    sums the reals `D`, `N`, the new sums are `α D + ∑ e^(σ - μ')` and `α N + ∑ e^(σ - μ') φ`. -/
theorem step_real (k : Fin 4) (s : St) (μ' α D : ℝ) (N : Fin 128 → ℝ)
    (hmx : max s.mx (tileMax X W b A n k) = (μ' : EReal))
    (ha : Ideal.exp (s.mx - (μ' : EReal)) = (α : EReal))
    (hden : s.den = (D : EReal)) (hnum : ∀ d, s.num d = (N d : EReal)) :
    (step X W b A n k s).mx = (μ' : EReal) ∧
    (step X W b A n k s).den = ((α * D + ∑ j : Fin 2048, Real.exp (σ (key k j) - μ') : ℝ) : EReal) ∧
    ∀ d, (step X W b A n k s).num d =
      ((α * N d + ∑ j : Fin 2048, Real.exp (σ (key k j) - μ') * φ (key k j) d : ℝ) : EReal) := by
  refine ⟨hmx, ?_, fun d => ?_⟩
  · show Ideal.exp (s.mx - max s.mx (tileMax X W b A n k)) * s.den
        + ∑ j : Fin 2048, Ideal.exp (score X W b A n (key k j) - max s.mx (tileMax X W b A n k)) = _
    rw [hmx, ha, hden, EReal.coe_add, EReal.coe_mul, coe_sum]
    refine congrArg _ (Finset.sum_congr rfl fun j _ => ?_)
    rw [hσ, ← EReal.coe_sub, Ideal.exp_coe]
  · show Ideal.exp (s.mx - max s.mx (tileMax X W b A n k)) * s.num d
        + ∑ j : Fin 2048, Ideal.exp (score X W b A n (key k j) - max s.mx (tileMax X W b A n k))
            * feat X W b (key k j) d = _
    rw [hmx, ha, hnum, EReal.coe_add, EReal.coe_mul, coe_sum]
    refine congrArg _ (Finset.sum_congr rfl fun j _ => ?_)
    rw [hσ, hφ, ← EReal.coe_sub, Ideal.exp_coe, EReal.coe_mul]

include hσ hφ in
/-- The first tile: the carried maximum is `-∞`, so the rescaling factor is `e^(-∞) = 0` and the carried sums are
    zero. -/
theorem inv_first (k : Fin 4) : Inv σ φ {k} (step X W b A n k St.init) := by
  obtain ⟨τ, hτ⟩ := tileMax_real X W b A n σ hσ k
  have hmx : max St.init.mx (tileMax X W b A n k) = (τ : EReal) := by
    show max ⊥ _ = _
    rw [max_bot_left, hτ]
  have ha : Ideal.exp (St.init.mx - (τ : EReal)) = ((0 : ℝ) : EReal) := by
    show Ideal.exp (⊥ - (τ : EReal)) = _
    rw [EReal.bot_sub, Ideal.exp_bot]; rfl
  have h := step_real X W b A n σ φ hσ hφ k St.init τ 0 0 (fun _ => 0) hmx ha rfl (fun _ => rfl)
  refine ⟨τ, h.1, ?_, fun d => ?_⟩
  · rw [h.2.1, Finset.sum_singleton, zero_mul, zero_add]
  · rw [h.2.2 d, Finset.sum_singleton, zero_mul, zero_add]

include hσ hφ in
/-- A later tile: `e^(μ - μ') e^(σ - μ) = e^(σ - μ')`. -/
theorem inv_step (T : Finset (Fin 4)) (k : Fin 4) (hk : k ∉ T) (s : St) (h : Inv σ φ T s) :
    Inv σ φ (insert k T) (step X W b A n k s) := by
  obtain ⟨μ, hmx, hden, hnum⟩ := h
  obtain ⟨μ', hμ'⟩ : IsReal (max s.mx (tileMax X W b A n k)) := by
    rw [hmx]; exact isReal_max (IsReal.coe μ) (tileMax_real X W b A n σ hσ k)
  have ha : Ideal.exp (s.mx - (μ' : EReal)) = ((Real.exp (μ - μ') : ℝ) : EReal) := by
    rw [hmx, ← EReal.coe_sub, Ideal.exp_coe]
  have h := step_real X W b A n σ φ hσ hφ k s μ' _ _ _ hμ' ha hden hnum
  refine ⟨μ', h.1, ?_, fun d => ?_⟩
  · rw [h.2.1, Finset.sum_insert hk, add_comm]
    have := rescale T (fun t j => σ (key t j)) (fun _ _ => 1) μ μ'
    simp only [mul_one] at this
    rw [this]
  · rw [h.2.2 d, Finset.sum_insert hk, add_comm]
    rw [rescale T (fun t j => σ (key t j)) (fun t j => φ (key t j) d) μ μ']

include hσ hφ in
/-- After the four tiles the sums run over all the tiles. -/
theorem inv_final : Inv σ φ Finset.univ (final X W b A n) := by
  have h0 := inv_first X W b A n σ φ hσ hφ 0
  have h1 := inv_step X W b A n σ φ hσ hφ _ 1 (by decide) _ h0
  have h2 := inv_step X W b A n σ φ hσ hφ _ 2 (by decide) _ h1
  have h3 := inv_step X W b A n σ φ hσ hφ _ 3 (by decide) _ h2
  have e : insert 3 (insert 2 (insert 1 {0})) = (Finset.univ : Finset (Fin 4)) := by decide
  rw [e] at h3
  exact h3

include hσ hφ in
/-- The two arrangements agree for a real row of scores and real features. -/
theorem Gk_eq_Gr_core (d : Fin 128) : Gk X W b A n d = Gr X W b A n d := by
  obtain ⟨μ, -, hden, hnum⟩ := inv_final X W b A n σ φ hσ hφ
  obtain ⟨ρ, hρ⟩ := rowMax_real X W b A n σ hσ
  have hpos : ∀ c : ℝ, (∑ m, Real.exp (σ m - c)) ≠ 0 := fun c =>
    (Finset.sum_pos (fun m _ => Real.exp_pos _) ⟨0, Finset.mem_univ _⟩).ne'
  -- the streamed side
  have hk : Gk X W b A n d
      = (((∑ m, Real.exp (σ m - μ) * φ m d) * (1 / ∑ m, Real.exp (σ m - μ)) : ℝ) : EReal) := by
    unfold Gk
    rw [hden, hnum d, sum_tiles (fun m => Real.exp (σ m - μ)), sum_tiles (fun m => Real.exp (σ m - μ) * φ m d),
      Ideal.div_coe (hpos μ), ← EReal.coe_mul]
  -- the whole-row side
  have hrd : rowDen X W b A n = ((∑ m, Real.exp (σ m - ρ) : ℝ) : EReal) := by
    unfold rowDen
    rw [zero_add, hρ, coe_sum]
    exact Finset.sum_congr rfl fun m _ => by rw [hσ, ← EReal.coe_sub, Ideal.exp_coe]
  have hr : Gr X W b A n d
      = ((∑ m, Real.exp (σ m - ρ) * (1 / ∑ m, Real.exp (σ m - ρ)) * φ m d : ℝ) : EReal) := by
    unfold Gr
    rw [hrd, hρ]
    refine (Finset.sum_congr rfl fun m _ => ?_).trans (coe_sum _ _).symm
    rw [hσ, hφ, ← EReal.coe_sub, Ideal.exp_coe, Ideal.div_coe (hpos ρ), ← EReal.coe_mul, ← EReal.coe_mul]
  rw [hk, hr, softmax_shift σ (fun m => φ m d) μ ρ]

end core

/-- THE STREAMED SOFTMAX IS THE WHOLE-ROW SOFTMAX on arrays of real numbers. -/
theorem Gk_eq_Gr (hX : ∀ n k, IsReal (X n k)) (hW : ∀ d k, IsReal (W d k)) (hb : ∀ d, IsReal (b d))
    (hA : ∀ d e, IsReal (A d e)) (n : Fin 8192) (d : Fin 128) : Gk X W b A n d = Gr X W b A n d := by
  choose σ hσ using score_real X W b A hX hW hb hA n
  choose φ hφ using feat_real X W b hX hW hb
  exact Gk_eq_Gr_core X W b A n σ φ hσ hφ d

end Cert.Attn

end
-- ==== Proof.lean ====
/-
  The five claims of this certificate.

  The program computes a graph-attention layer: a linear layer `h = X Wᵀ + b`, bilinear scores `(h A) hᵀ`, a softmax
  along each row of the scores, and the softmax-weighted sum of the rows of `h`. The kernel program does it with two
  kernels: the first computes `h` and `h A` block by block; the second streams each query tile against four key tiles,
  carrying a running maximum, denominator and numerator, and divides at the end. The reference takes the whole row at
  once. Over the extended reals the two are one function when every input entry is a real number: the streamed sums
  are the whole-row sums rescaled by `e^(old max - new max)`, which cancels.

  * The three frames: each program runs to the end, faults nowhere and leaves its argument arrays as launched. For the two
    kernel programs this is the run through the host reshape and the two kernels' pipelines; for the reference it is its
    run of host operations.
  * `preserves`: the idealization rewrote no operation.
  * `algebraic`: the kernel program's result array is the streamed sum of its arguments, the reference's the whole-row
    sum of its arguments; the arguments agree; the precondition makes every entry real; the two sums are then equal.
-/
import proofs.«103892_j78185584656634_2_alg».proof.Defs
import proofs.«103892_j78185584656634_2_alg».proof.Proof.Gen.Kernel
import proofs.«103892_j78185584656634_2_alg».proof.Proof.Gen.KernelIdeal
import proofs.«103892_j78185584656634_2_alg».proof.Proof.Gen.ReferenceIdeal
import proofs.«103892_j78185584656634_2_alg».proof.Proof.Gen.Pre_finite_inputs
import proofs.«103892_j78185584656634_2_alg».proof.Proof.Gen.ReferenceIdeal.Run
import proofs.«103892_j78185584656634_2_alg».proof.Proof.K.Run
import proofs.«103892_j78185584656634_2_alg».proof.Proof.KI.Value
import proofs.«103892_j78185584656634_2_alg».proof.Proof.RefSide
import proofs.«103892_j78185584656634_2_alg».proof.Proof.Finite
import proofs.«103892_j78185584656634_2_alg».proof.Proof.Algebra
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_p : Cert.frame_Kernel := fun m ρ _ => Cert.Kernel.Hand.frame m ρ

/-- So does the idealized kernel program. -/
theorem frame_pi : Cert.frame_KernelIdeal := fun m ρ _ => Cert.KernelIdeal.Hand.frame m ρ

/-- And the idealized reference: its run of host operations, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The streamed sum and the whole-row sum of real arguments are equal. -/
theorem algebraic : Cert.algebraic_KernelIdeal_ReferenceIdeal := by
  intro m ρ m' ρ' hpre hagree
  refine ⟨_, Cert.KernelIdeal.Hand.run_Gk m ρ, ?_⟩
  refine (θ_run Cert.ReferenceIdeal.defs _ _).mono (fun _ h c => ⟨(h c).1.trans ?_, (h c).2⟩)
    (Cert.RefSide.ref_run m' ρ')
  rw [(hagree c).2.1, (hagree c).2.2.1, (hagree c).2.2.2.1, (hagree c).2.2.2.2]
  obtain ⟨h1, h2, h3, h4⟩ := Cert.Finite.real_args m hpre c
  funext i
  exact (Cert.Attn.Gk_eq_Gr _ _ _ _ (fun n k => h1 _) (fun d k => h2 _) (fun d => h3 _) (fun d e => h4 _) (i 0) (i 1)).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
